-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S64x4096 : Shape := ⟨2, ![64, 4096]⟩
abbrev S4096x64 : Shape := ⟨2, ![4096, 64]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S64x4096 : S_.BroadcastsInDim S64x4096 (![] : Fin 0 → Fin S64x4096.rank)
  reducesTo_S64x4096_S_d0_1 : S64x4096.ReducesTo [0, 1] S_
  bcast_S_S4096x64 : S_.BroadcastsInDim S4096x64 (![] : Fin 0 → Fin S4096x64.rank)
  reducesTo_S4096x64_S_d0_1 : S4096x64.ReducesTo [0, 1] S_

variable [Facts]

def fn_part1 {F : FTy → Type} [FloatOps F] (main_arg4 : FVec F S4096x64 .f32) (main_arg5 : FVec F S64x4096 .f32) (main_arg6 : FVec F S4096x64 .f32) (main_v13 : IVec S_ 1) (main_v16 : IVec S64x4096 1) : IVec S_ 1 :=
  let main_c_5 : IVec S_ 1 := constantI S_ 1 1#1
  let main_v17 : IVec S_ 1 := (fun x v => Host.reduce IntOp.andi x v reducesTo_S64x4096_S_d0_1 h_S_) main_v16 main_c_5
  let main_v18 : IVec S_ 1 := andi main_v13 main_v17
  let main_v19 : FVec F S4096x64 .f32 := Host.absf main_arg4
  let main_cst_6 : FVec F S_ .f32 := constant S_ .f32 0x7F800000#32
  let main_v20 : FVec F S4096x64 .f32 := broadcastInDim S4096x64 ![] bcast_S_S4096x64 main_cst_6
  let main_v21 : IVec S4096x64 1 := cmpf .olt main_v19 main_v20
  let main_c_7 : IVec S_ 1 := constantI S_ 1 1#1
  let main_v22 : IVec S_ 1 := (fun x v => Host.reduce IntOp.andi x v reducesTo_S4096x64_S_d0_1 h_S_) main_v21 main_c_7
  let main_v23 : IVec S_ 1 := andi main_v18 main_v22
  let main_v24 : FVec F S64x4096 .f32 := Host.absf main_arg5
  let main_cst_8 : FVec F S_ .f32 := constant S_ .f32 0x7F800000#32
  let main_v25 : FVec F S64x4096 .f32 := broadcastInDim S64x4096 ![] bcast_S_S64x4096 main_cst_8
  let main_v26 : IVec S64x4096 1 := cmpf .olt main_v24 main_v25
  let main_c_9 : IVec S_ 1 := constantI S_ 1 1#1
  let main_v27 : IVec S_ 1 := (fun x v => Host.reduce IntOp.andi x v reducesTo_S64x4096_S_d0_1 h_S_) main_v26 main_c_9
  let main_v28 : IVec S_ 1 := andi main_v23 main_v27
  let main_v29 : FVec F S4096x64 .f32 := Host.absf main_arg6
  let main_cst_10 : FVec F S_ .f32 := constant S_ .f32 0x7F800000#32
  let main_v30 : FVec F S4096x64 .f32 := broadcastInDim S4096x64 ![] bcast_S_S4096x64 main_cst_10
  let main_v31 : IVec S4096x64 1 := cmpf .olt main_v29 main_v30
  let main_c_11 : IVec S_ 1 := constantI S_ 1 1#1
  let main_v32 : IVec S_ 1 := (fun x v => Host.reduce IntOp.andi x v reducesTo_S4096x64_S_d0_1 h_S_) main_v31 main_c_11
  let main_v33 : IVec S_ 1 := andi main_v28 main_v32
  main_v33

def fn {F : FTy → Type} [FloatOps F] (main_arg0 : FVec F S4x2048x4096 .f32) (main_arg1 : FVec F S4096x4096 .f32) (main_arg2 : FVec F S4096 .f32) (main_arg3 : FVec F S64x4096 .f32) (main_arg4 : FVec F S4096x64 .f32) (main_arg5 : FVec F S64x4096 .f32) (main_arg6 : FVec F S4096x64 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S64x4096 .f32 := Host.absf main_arg3
  let main_cst_4 : FVec F S_ .f32 := constant S_ .f32 0x7F800000#32
  let main_v15 : FVec F S64x4096 .f32 := broadcastInDim S64x4096 ![] bcast_S_S64x4096 main_cst_4
  let main_v16 : IVec S64x4096 1 := cmpf .olt main_v14 main_v15
  fn_part1 (F := F) main_arg4 main_arg5 main_arg6 main_v13 main_v16
-- ==== Kernel.lean ====
abbrev S4x2048x4096 : Shape := ⟨3, ![4, 2048, 4096]⟩
abbrev S4096x4096 : Shape := ⟨2, ![4096, 4096]⟩
abbrev S4096 : Shape := ⟨1, ![4096]⟩
abbrev S64x4096 : Shape := ⟨2, ![64, 4096]⟩
abbrev S4096x64 : Shape := ⟨2, ![4096, 64]⟩
abbrev S8192x4096 : Shape := ⟨2, ![8192, 4096]⟩
abbrev S_ : Shape := ⟨0, ![]⟩
abbrev S128x4096 : Shape := ⟨2, ![128, 4096]⟩
abbrev S4096x128 : Shape := ⟨2, ![4096, 128]⟩
abbrev S1x4096 : Shape := ⟨2, ![1, 4096]⟩
abbrev S2048x1024 : Shape := ⟨2, ![2048, 1024]⟩
abbrev S1024x1024 : Shape := ⟨2, ![1024, 1024]⟩
abbrev S128x1024 : Shape := ⟨2, ![128, 1024]⟩
abbrev S1024x128 : Shape := ⟨2, ![1024, 128]⟩
abbrev S1x1024 : Shape := ⟨2, ![1, 1024]⟩
abbrev S2048x128 : Shape := ⟨2, ![2048, 128]⟩

abbrev nBuf : Space → Nat
  | .hbm => 23
  | .vmem => 14
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S64x4096, .f32⟩
  | .hbm, ⟨4, _⟩ => ⟨S4096x64, .f32⟩
  | .hbm, ⟨5, _⟩ => ⟨S64x4096, .f32⟩
  | .hbm, ⟨6, _⟩ => ⟨S4096x64, .f32⟩
  | .hbm, ⟨7, _⟩ => ⟨S8192x4096, .f32⟩
  | .hbm, ⟨8, _⟩ => ⟨S8192x4096, .bf16⟩
  | .hbm, ⟨9, _⟩ => ⟨S64x4096, .f32⟩
  | .hbm, ⟨10, _⟩ => ⟨S4096x64, .f32⟩
  | .hbm, ⟨11, _⟩ => ⟨S_, .i32⟩
  | .hbm, ⟨12, _⟩ => ⟨S_, .f32⟩
  | .hbm, ⟨13, _⟩ => ⟨S128x4096, .f32⟩
  | .hbm, ⟨14, _⟩ => ⟨S128x4096, .bf16⟩
  | .hbm, ⟨15, _⟩ => ⟨S_, .i32⟩
  | .hbm, ⟨16, _⟩ => ⟨S_, .f32⟩
  | .hbm, ⟨17, _⟩ => ⟨S4096x128, .f32⟩
  | .hbm, ⟨18, _⟩ => ⟨S4096x128, .bf16⟩
  | .hbm, ⟨19, _⟩ => ⟨S4096x4096, .bf16⟩
  | .hbm, ⟨20, _⟩ => ⟨S1x4096, .f32⟩
  | .hbm, ⟨21, _⟩ => ⟨S8192x4096, .f32⟩
  | .hbm, ⟨22, _⟩ => ⟨S4x2048x4096, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S128x1024, .bf16⟩
  | .local _ .vmem, ⟨5, _⟩ => ⟨S128x1024, .bf16⟩
  | .local _ .vmem, ⟨6, _⟩ => ⟨S1024x128, .bf16⟩
  | .local _ .vmem, ⟨7, _⟩ => ⟨S1024x128, .bf16⟩
  | .local _ .vmem, ⟨8, _⟩ => ⟨S1x1024, .f32⟩
  | .local _ .vmem, ⟨9, _⟩ => ⟨S1x1024, .f32⟩
  | .local _ .vmem, ⟨10, _⟩ => ⟨S2048x1024, .f32⟩
  | .local _ .vmem, ⟨11, _⟩ => ⟨S2048x1024, .f32⟩
  | .local _ .vmem, ⟨12, _⟩ => ⟨S2048x1024, .f32⟩
  | .local _ .vmem, ⟨13, _⟩ => ⟨S2048x128, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_call1_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 4], ![false, false, false]⟩

def k0_cond4 (i : grid0.Coords) : BitVec 1 :=
  let arg2 : BitVec 32 := BitVec.ofNat 32 (i 2).val
  let c3_i32 : BitVec 32 := 3#32
  let v21 : BitVec 1 := Scalar.cmpi .eq arg2 c3_i32
  let v22 : BitVec 32 := Scalar.extui v21
  let c0_i32_13 : BitVec 32 := 0#32
  let v23 : BitVec 1 := Scalar.cmpi .ne v22 c0_i32_13
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S2048x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S4x2048x4096_S8192x4096 : S4x2048x4096.ShapeCasts S8192x4096
  bitsLt_bf16_f32 : FTy.bits .bf16 < FTy.bits .f32
  pads_S64x4096_S128x4096_0640_000 : S64x4096.Pads (![0, 0] : Fin 2 → Nat) ![64, 0] ![0, 0] S128x4096
  h_S_ : 0 < S_.numel
  pads_S4096x64_S4096x128_000_0640 : S4096x64.Pads (![0, 0] : Fin 2 → Nat) ![0, 64] ![0, 0] S4096x128
  shapeCasts_S4096_S1x4096 : S4096.ShapeCasts S1x4096
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  shapeCasts_S8192x4096_S4x2048x4096 : S8192x4096.ShapeCasts S4x2048x4096
  dot_S2048x1024_S1024x1024_S2048x1024_1_1_0_0_n_n_wf : DotDims.WF S2048x1024 S1024x1024 S2048x1024 [1] [1] [0] [0] [] []
  dot_S2048x1024_S128x1024_S2048x128_1_1_0_0_n_n_wf : DotDims.WF S2048x1024 S128x1024 S2048x128 [1] [1] [0] [0] [] []
  dot_S2048x128_S1024x128_S2048x1024_1_1_0_0_n_n_wf : DotDims.WF S2048x128 S1024x128 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x4096.size a
  hwx0_0 : ∀ i : grid0.Coords, EltTy.bits .bf16 = 32 ∨ (Rect.block (s := S8192x4096) S2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S128x4096.size a
  hwx0_2 : ∀ i : grid0.Coords, EltTy.bits .bf16 = 32 ∨ (Rect.block (s := S128x4096) S128x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S4096x128.size a
  hwx0_3 : ∀ i : grid0.Coords, EltTy.bits .bf16 = 32 ∨ (Rect.block (s := S4096x128) S1024x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x1024.size a ≤ S8192x4096.size a
  hwx0_5 : ∀ i : grid0.Coords, EltTy.bits .f32 = 32 ∨ (Rect.block (s := S8192x4096) S2048x1024.size (cc0_transform_5 i) (hinb0_5 i)).WholeWords (EltTy.packing .f32)

variable [Facts₀]

def dot_S2048x1024_S1024x1024_S2048x1024_1_1_0_0_n_n : DotDims S2048x1024 S1024x1024 S2048x1024 where
  lhsContracting := [1]
  rhsContracting := [1]
  lhsNonContracting := [0]
  rhsNonContracting := [0]
  lhsBatch := []
  rhsBatch := []
  wf := dot_S2048x1024_S1024x1024_S2048x1024_1_1_0_0_n_n_wf
def dot_S2048x1024_S128x1024_S2048x128_1_1_0_0_n_n : DotDims S2048x1024 S128x1024 S2048x128 where
  lhsContracting := [1]
  rhsContracting := [1]
  lhsNonContracting := [0]
  rhsNonContracting := [0]
  lhsBatch := []
  rhsBatch := []
  wf := dot_S2048x1024_S128x1024_S2048x128_1_1_0_0_n_n_wf
def dot_S2048x128_S1024x128_S2048x1024_1_1_0_0_n_n : DotDims S2048x128 S1024x128 S2048x1024 where
  lhsContracting := [1]
  rhsContracting := [1]
  lhsNonContracting := [0]
  rhsNonContracting := [0]
  lhsBatch := []
  rhsBatch := []
  wf := dot_S2048x128_S1024x128_S2048x1024_1_1_0_0_n_n_wf

abbrev win0_0 : Pipeline.Window sig grid0 :=
  Pipeline.Window.ofSpec (Memref.whole main_v1) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1024x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v10) S2048x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond4 i == 1#1) | ⟨_ + 6, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S64x4096 : Shape := ⟨2, ![64, 4096]⟩
abbrev S4096x64 : Shape := ⟨2, ![4096, 64]⟩
abbrev S1x1x4096 : Shape := ⟨3, ![1, 1, 4096]⟩
abbrev S4x2048x64 : Shape := ⟨3, ![4, 2048, 64]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S64x4096, .f32⟩
  | .hbm, ⟨4, _⟩ => ⟨S4096x64, .f32⟩
  | .hbm, ⟨5, _⟩ => ⟨S64x4096, .f32⟩
  | .hbm, ⟨6, _⟩ => ⟨S4096x64, .f32⟩
  | .hbm, ⟨7, _⟩ => ⟨S4x2048x4096, .f32⟩
  | .hbm, ⟨8, _⟩ => ⟨S1x1x4096, .f32⟩
  | .hbm, ⟨9, _⟩ => ⟨S4x2048x4096, .f32⟩
  | .hbm, ⟨10, _⟩ => ⟨S4x2048x4096, .f32⟩
  | .hbm, ⟨11, _⟩ => ⟨S4x2048x64, .f32⟩
  | .hbm, ⟨12, _⟩ => ⟨S4x2048x64, .f32⟩
  | .hbm, ⟨13, _⟩ => ⟨S4x2048x64, .f32⟩
  | .hbm, ⟨14, _⟩ => ⟨S4x2048x4096, .f32⟩
  | .hbm, ⟨15, _⟩ => ⟨S4x2048x4096, .f32⟩
  | .hbm, ⟨16, _⟩ => ⟨S4x2048x4096, .f32⟩
  | .hbm, ⟨17, _⟩ => ⟨S_, .f32⟩
  | .hbm, ⟨18, _⟩ => ⟨S4x2048x4096, .f32⟩
  | .hbm, ⟨19, _⟩ => ⟨S4x2048x4096, .f32⟩
  | .hbm, ⟨20, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  bcast_S_S4x2048x4096 : S_.BroadcastsInDim S4x2048x4096 (![] : Fin 0 → Fin S4x2048x4096.rank)
  dot_S4x2048x4096_S4096x4096_S4x2048x4096_2_1_01_0_n_n_wf : DotDims.WF S4x2048x4096 S4096x4096 S4x2048x4096 [2] [1] [0, 1] [0] [] []
  dot_S4x2048x4096_S64x4096_S4x2048x64_2_1_01_0_n_n_wf : DotDims.WF S4x2048x4096 S64x4096 S4x2048x64 [2] [1] [0, 1] [0] [] []
  dot_S4x2048x64_S4096x64_S4x2048x4096_2_1_01_0_n_n_wf : DotDims.WF S4x2048x64 S4096x64 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4x2048x4096_S64x4096_S4x2048x64_2_1_01_0_n_n : DotDims S4x2048x4096 S64x4096 S4x2048x64 where
  lhsContracting := [2]
  rhsContracting := [1]
  lhsNonContracting := [0, 1]
  rhsNonContracting := [0]
  lhsBatch := []
  rhsBatch := []
  wf := dot_S4x2048x4096_S64x4096_S4x2048x64_2_1_01_0_n_n_wf
def dot_S4x2048x64_S4096x64_S4x2048x4096_2_1_01_0_n_n : DotDims S4x2048x64 S4096x64 S4x2048x4096 where
  lhsContracting := [2]
  rhsContracting := [1]
  lhsNonContracting := [0, 1]
  rhsNonContracting := [0]
  lhsBatch := []
  rhsBatch := []
  wf := dot_S4x2048x64_S4096x64_S4x2048x4096_2_1_01_0_n_n_wf

class Facts : Prop extends Facts₀ where

variable [Facts]
-- ==== Proof.K.Cases.lean ====
/-
  The grid of the one kernel launch is 4 × 4 × 4: a point t = 16·i + 4·j + k is row-tile i, column-tile j and
  contraction step k (k runs fastest).  The body branches four times on the point:
    * k = 0           : the output-tile accumulator is reset to zero;
    * j = 0 and k = 0 : the rank-128 intermediate accumulator is reset to zero;
    * j = 0           : the intermediate accumulator takes this step's contribution x·ALᵀ;
    * k = 3           : the finished tile (accumulator + bias + ¼·intermediate·BRᵀ) is stored to the output block.
  This module decides each condition over the 64 points in closed form, records where the output window is idle
  (k ≠ 3: nothing stored, nothing written back) and names the memrefs the body is called with.
-/
import proofs.«119846_j73478300500409_2_alg».proof.Proof.Gen.Kernel.Frame
import proofs.«119846_j73478300500409_2_alg».proof.Proof.Gen.Kernel.Skeleton

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The four conditions, in closed form over the points -/

/-- "k = 0", as the body computes it from the coordinates. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- "j = 0 and k = 0". -/
abbrev cond0_1 (i : grid0.Coords) : Prop := (Scalar.cmpi .ne (Scalar.extui (Scalar.andi (Scalar.cmpi .eq (BitVec.ofNat 32 (i 1).val) 0#32) (Scalar.cmpi .eq (BitVec.ofNat 32 (i 2).val) 0#32))) 0#32) = 1#1
theorem hcond0_1 : ∀ t : Fin cfg0.N, cond0_1 (grid0.coords t) ↔ t.val % 16 = 0 :=
  (by decide +kernel : ∀ t : Fin grid0.N, cond0_1 (grid0.coords t) ↔ t.val % 16 = 0)

/-- "j = 0". -/
abbrev cond0_2 (i : grid0.Coords) : Prop := (Scalar.cmpi .ne (Scalar.extui (Scalar.cmpi .eq (BitVec.ofNat 32 (i 1).val) 0#32)) 0#32) = 1#1
theorem hcond0_2 : ∀ t : Fin cfg0.N, cond0_2 (grid0.coords t) ↔ t.val % 16 < 4 :=
  (by decide +kernel : ∀ t : Fin grid0.N, cond0_2 (grid0.coords t) ↔ t.val % 16 < 4)

/-- "k = 3". -/
abbrev cond0_3 (i : grid0.Coords) : Prop := k0_cond4 i = 1#1
theorem hcond0_3 : ∀ t : Fin cfg0.N, cond0_3 (grid0.coords t) ↔ t.val % 4 = 3 :=
  (by decide +kernel : ∀ t : Fin grid0.N, cond0_3 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Off the last contraction step the output block is neither stored into nor written back. -/
theorem idleAt0_5 : ∀ t : Fin cfg0.N, ¬cond0_3 (grid0.coords t) → cfg0.idle 5 (grid0.coords t) = true := by decide +kernel
theorem noFlush0_5 : ∀ t : Fin cfg0.N, ¬cond0_3 (grid0.coords t) → (cfg0.win 5).flush t = false := by decide +kernel
/-- At the last contraction step it is stored whole. -/
theorem liveAt0_5 : ∀ t : Fin cfg0.N, cond0_3 (grid0.coords t) → cfg0.idle 5 (grid0.coords t) = false := by decide +kernel

/-! ## The memrefs the body is called with -/

abbrev ms0_0 (t : Fin cfg0.N) : Memref sig .tc .vmem S2048x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2048x1024 .f32 := win0_5.stage (cfg0.slots t 5)
abbrev hs0_5 (t : Fin cfg0.N) : (ms0_5 t).IsWhole := hstage0_5 ((cfg0.slots t 5).cast nbuf0_5)
/-- The two accumulators: whole scoped buffers of the kernel's own. -/
abbrev scM0_0 : Memref sig .tc .vmem S2048x1024 .f32 := Memref.whole cc0_scratch0
abbrev scM0_1 : Memref sig .tc .vmem S2048x128 .f32 := Memref.whole cc0_scratch1

/-- The region's class invariant, its two accumulators named: each whole at some contents, beside the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Gen

end
-- ==== Proof.K.RunStart.lean ====
/-
  The body at a point with j = 0 and k = 0 (the first step of a row-tile): both accumulators are reset to zero and then take this step's products, x·Wᵀ into the output-tile accumulator and x·ALᵀ into the intermediate one; the output block is not touched. What either accumulator held before does not matter.
  The statement: on whole memrefs holding the point's input blocks, the body runs to any continuation that is handed
  the inputs back as they were and each buffer it stored into with its stores written; the stores themselves (the
  lists of pieces) are found by running the body.
-/
import proofs.«119846_j73478300500409_2_alg».proof.Proof.K.Cases

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runStart (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x128 .f32) (harg10 : arg10.IsWhole) (hc0 : cond0_0 i) (hc1 : cond0_1 i) (hc2 : cond0_2 i) (hc3 : ¬cond0_3 i)
    (x0 : Vec F S2048x1024 .bf16) (x1 : Vec F S1024x1024 .bf16) (x2 : Vec F S128x1024 .bf16) (x3 : Vec F S1024x128 .bf16) (x4 : Vec F S1x1024 .f32) :
    Σ' (LS0 : List (View.Piece (Elt F) S2048x1024 .f32)), { LS1 : List (View.Piece (Elt F) S2048x128 .f32) //
      ∀ (xi5 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__kernel i arg3 harg3 arg4 harg4 arg5 harg5 arg6 harg6 arg7 harg7 arg8 harg8 arg9 harg9 arg10 harg10) K } := by
  refine ⟨?_, ?_, fun xi5 E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, %hfs0, HS0⟩, ⟨%ds1, %fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    obtain rfl := harg9.eq_unread hfs0; obtain rfl := harg10.eq_unread hfs1
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]
    · iexists _; iexact HS0
    iexists _; iexact HS1

end Cert.Kernel.Gen

end
-- ==== Proof.K.RunDownMid.lean ====
/-
  The body at a point with j = 0 and k = 1 or 2: both accumulators take this step's products on top of what the step before left; the output block is not touched.
  The statement: on whole memrefs holding the point's input blocks, the body runs to any continuation that is handed
  the inputs back as they were and each buffer it stored into with its stores written; the stores themselves (the
  lists of pieces) are found by running the body.
-/
import proofs.«119846_j73478300500409_2_alg».proof.Proof.K.RunStart

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runDownMid (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x128 .f32) (harg10 : arg10.IsWhole) (hc0 : ¬cond0_0 i) (hc1 : ¬cond0_1 i) (hc2 : cond0_2 i) (hc3 : ¬cond0_3 i)
    (x0 : Vec F S2048x1024 .bf16) (x1 : Vec F S1024x1024 .bf16) (x2 : Vec F S128x1024 .bf16) (x3 : Vec F S1024x128 .bf16) (x4 : Vec F S1x1024 .f32) (xs0 : Vec F S2048x1024 .f32) (xs1 : Vec F S2048x128 .f32) :
    Σ' (LS0 : List (View.Piece (Elt F) S2048x1024 .f32)), { LS1 : List (View.Piece (Elt F) S2048x128 .f32) //
      ∀ (xi5 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__kernel i arg3 harg3 arg4 harg4 arg5 harg5 arg6 harg6 arg7 harg7 arg8 harg8 arg9 harg9 arg10 harg10) K } := by
  refine ⟨?_, ?_, fun xi5 E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    obtain rfl := harg9.eq_unread hfs0; obtain rfl := harg10.eq_unread hfs1
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]
    · iexists _; iexact HS0
    iexists _; iexact HS1

end Cert.Kernel.Gen

end
-- ==== Proof.K.RunDownLast.lean ====
/-
  The body at a point with j = 0 and k = 3: both accumulators take the last step's products, and the finished tile — accumulator + bias + ¼·(intermediate·BRᵀ) — is stored whole into the output block.
  The statement: on whole memrefs holding the point's input blocks, the body runs to any continuation that is handed
  the inputs back as they were and each buffer it stored into with its stores written; the stores themselves (the
  lists of pieces) are found by running the body.
-/
import proofs.«119846_j73478300500409_2_alg».proof.Proof.K.RunDownMid

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runDownLast (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x128 .f32) (harg10 : arg10.IsWhole) (hc0 : ¬cond0_0 i) (hc1 : ¬cond0_1 i) (hc2 : cond0_2 i) (hc3 : cond0_3 i)
    (x0 : Vec F S2048x1024 .bf16) (x1 : Vec F S1024x1024 .bf16) (x2 : Vec F S128x1024 .bf16) (x3 : Vec F S1024x128 .bf16) (x4 : Vec F S1x1024 .f32) (xs0 : Vec F S2048x1024 .f32) (xs1 : Vec F S2048x128 .f32) :
    Σ' (L5 : List (View.Piece (Elt F) S2048x1024 .f32)), Σ' (LS0 : List (View.Piece (Elt F) S2048x1024 .f32)), { LS1 : List (View.Piece (Elt F) S2048x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__kernel i arg3 harg3 arg4 harg4 arg5 harg5 arg6 harg6 arg7 harg7 arg8 harg8 arg9 harg9 arg10 harg10) K } := by
  refine ⟨?_, ?_, ?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, %hf5, H5⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    obtain rfl := harg9.eq_unread hfs0; obtain rfl := harg10.eq_unread hfs1
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; iexact H5
    isplitl [HS0]
    · iexists _; iexact HS0
    iexists _; iexact HS1

end Cert.Kernel.Gen

end
-- ==== Proof.K.RunReset.lean ====
/-
  The body at a point with j ≠ 0 and k = 0: the output-tile accumulator is reset and takes this step's product; the intermediate accumulator, complete since the j = 0 sweep, is only kept.
  The statement: on whole memrefs holding the point's input blocks, the body runs to any continuation that is handed
  the inputs back as they were and each buffer it stored into with its stores written; the stores themselves (the
  lists of pieces) are found by running the body.
-/
import proofs.«119846_j73478300500409_2_alg».proof.Proof.K.RunDownLast

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runReset (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x128 .f32) (harg10 : arg10.IsWhole) (hc0 : cond0_0 i) (hc1 : ¬cond0_1 i) (hc2 : ¬cond0_2 i) (hc3 : ¬cond0_3 i)
    (x0 : Vec F S2048x1024 .bf16) (x1 : Vec F S1024x1024 .bf16) (x2 : Vec F S128x1024 .bf16) (x3 : Vec F S1024x128 .bf16) (x4 : Vec F S1x1024 .f32) (xs1 : Vec F S2048x128 .f32) :
    { LS0 : List (View.Piece (Elt F) S2048x1024 .f32) //
      ∀ (xi5 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d) ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0) ∗ owns (c : Thread nD τ) arg10 fullShare xs1) -∗ K ⟨⟩))
          ⊢ wp frame (wpE (defs₀ (F := F)) Variants.none c none) E (cc0__kernel i arg3 harg3 arg4 harg4 arg5 harg5 arg6 harg6 arg7 harg7 arg8 harg8 arg9 harg9 arg10 harg10) K } := by
  refine ⟨?_, fun xi5 E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    obtain rfl := harg9.eq_unread hfs0; obtain rfl := harg10.eq_unread hfs1
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]
    · iexists _; iexact HS0
    iexists _; isplitr; · ipureintro; exact harg10.read_unread _
    iexact HS1

end Cert.Kernel.Gen

end
-- ==== Proof.K.RunMid.lean ====
/-
  The body at a point with j ≠ 0 and k = 1 or 2: the output-tile accumulator takes this step's product; the intermediate accumulator is kept.
  The statement: on whole memrefs holding the point's input blocks, the body runs to any continuation that is handed
  the inputs back as they were and each buffer it stored into with its stores written; the stores themselves (the
  lists of pieces) are found by running the body.
-/
import proofs.«119846_j73478300500409_2_alg».proof.Proof.K.RunReset

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runMid (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x128 .f32) (harg10 : arg10.IsWhole) (hc0 : ¬cond0_0 i) (hc1 : ¬cond0_1 i) (hc2 : ¬cond0_2 i) (hc3 : ¬cond0_3 i)
    (x0 : Vec F S2048x1024 .bf16) (x1 : Vec F S1024x1024 .bf16) (x2 : Vec F S128x1024 .bf16) (x3 : Vec F S1024x128 .bf16) (x4 : Vec F S1x1024 .f32) (xs0 : Vec F S2048x1024 .f32) (xs1 : Vec F S2048x128 .f32) :
    { LS0 : List (View.Piece (Elt F) S2048x1024 .f32) //
      ∀ (xi5 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0) ∗ owns (c : Thread nD τ) arg10 fullShare xs1) -∗ K ⟨⟩))
          ⊢ wp frame (wpE (defs₀ (F := F)) Variants.none c none) E (cc0__kernel i arg3 harg3 arg4 harg4 arg5 harg5 arg6 harg6 arg7 harg7 arg8 harg8 arg9 harg9 arg10 harg10) K } := by
  refine ⟨?_, fun xi5 E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    obtain rfl := harg9.eq_unread hfs0; obtain rfl := harg10.eq_unread hfs1
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]
    · iexists _; iexact HS0
    iexists _; isplitr; · ipureintro; exact harg10.read_unread _
    iexact HS1

end Cert.Kernel.Gen

end
-- ==== Proof.K.RunLast.lean ====
/-
  The body at a point with j ≠ 0 and k = 3: the output-tile accumulator takes the last step's product, the intermediate accumulator is read, and the finished tile is stored whole into the output block.
  The statement: on whole memrefs holding the point's input blocks, the body runs to any continuation that is handed
  the inputs back as they were and each buffer it stored into with its stores written; the stores themselves (the
  lists of pieces) are found by running the body.
-/
import proofs.«119846_j73478300500409_2_alg».proof.Proof.K.RunMid

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runLast (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x128 .f32) (harg10 : arg10.IsWhole) (hc0 : ¬cond0_0 i) (hc1 : ¬cond0_1 i) (hc2 : ¬cond0_2 i) (hc3 : cond0_3 i)
    (x0 : Vec F S2048x1024 .bf16) (x1 : Vec F S1024x1024 .bf16) (x2 : Vec F S128x1024 .bf16) (x3 : Vec F S1024x128 .bf16) (x4 : Vec F S1x1024 .f32) (xs0 : Vec F S2048x1024 .f32) (xs1 : Vec F S2048x128 .f32) :
    Σ' (L5 : List (View.Piece (Elt F) S2048x1024 .f32)), { LS0 : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0) ∗ owns (c : Thread nD τ) arg10 fullShare xs1) -∗ K ⟨⟩))
          ⊢ wp frame (wpE (defs₀ (F := F)) Variants.none c none) E (cc0__kernel i arg3 harg3 arg4 harg4 arg5 harg5 arg6 harg6 arg7 harg7 arg8 harg8 arg9 harg9 arg10 harg10) K } := by
  refine ⟨?_, ?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, %hf5, H5⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    obtain rfl := harg9.eq_unread hfs0; obtain rfl := harg10.eq_unread hfs1
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; iexact H5
    isplitl [HS0]
    · iexists _; iexact HS0
    iexists _; isplitr; · ipureintro; exact harg10.read_unread _
    iexact HS1

end Cert.Kernel.Gen

end
-- ==== Proof.K.Body.lean ====
/-
  The launch's proof data and the body's obligation at every point.

  After the body at point t the two accumulators hold what the point's case leaves in them — the case selected by
  t mod 4 (the contraction step k) and t mod 16 (whether the column-tile j is 0) — computed from the point's input
  blocks and, except after a reset, from what the point before left (`stAt`, by recursion on the point).  The
  region's invariant carries both accumulators at exactly those contents from one point to the next; the output
  block's staging buffer holds the finished tile after the points with k = 3 and is handed back untouched at the others.
-/
import proofs.«119846_j73478300500409_2_alg».proof.Proof.K.RunLast

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The views through which the buffers' contents are stated. -/
abbrev VO0_5 : View sig .tc .vmem S2048x1024 .f32 := (Memref.whole cc0_stg5_0 : Memref sig .tc .vmem S2048x1024 .f32).view
abbrev VS0_0 : View sig .tc .vmem S2048x1024 .f32 := scM0_0.view
abbrev VS0_1 : View sig .tc .vmem S2048x128 .f32 := scM0_1.view

/-! ### j = 0 and k = 0 (the first step of a row-tile) -/

theorem accCoverStart (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x128 .f32) (harg10 : arg10.IsWhole) (hc0 : cond0_0 i) (hc1 : cond0_1 i) (hc2 : cond0_2 i) (hc3 : ¬cond0_3 i)
    (x0 : Vec F S2048x1024 .bf16) (x1 : Vec F S1024x1024 .bf16) (x2 : Vec F S128x1024 .bf16) (x3 : Vec F S1024x128 .bf16) (x4 : Vec F S1x1024 .f32) (y : S2048x1024.Idx) : ∃ pc ∈ (runStart c i arg3 harg3 arg4 harg4 arg5 harg5 arg6 harg6 arg7 harg7 arg8 harg8 arg9 harg9 arg10 harg10 hc0 hc1 hc2 hc3 x0 x1 x2 x3 x4).1, y ∈ pc.1.set :=
  View.cover_of_tiledL (runStart c i arg3 harg3 arg4 harg4 arg5 harg5 arg6 harg6 arg7 harg7 arg8 harg8 arg9 harg9 arg10 harg10 hc0 hc1 hc2 hc3 x0 x1 x2 x3 x4).1 S2048x1024.size (by sl_kernel_rfl) y
/-- What the output-tile accumulator holds after the body: its stores read back. -/
def accStart (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x128 .f32) (harg10 : arg10.IsWhole) (hc0 : cond0_0 i) (hc1 : cond0_1 i) (hc2 : cond0_2 i) (hc3 : ¬cond0_3 i)
    (x0 : Vec F S2048x1024 .bf16) (x1 : Vec F S1024x1024 .bf16) (x2 : Vec F S128x1024 .bf16) (x3 : Vec F S1024x128 .bf16) (x4 : Vec F S1x1024 .f32) : Vec F S2048x1024 .f32 :=
  VS0_0.read (Elt F) (VS0_0.writes (Elt F) VS0_0.junk (runStart c i arg3 harg3 arg4 harg4 arg5 harg5 arg6 harg6 arg7 harg7 arg8 harg8 arg9 harg9 arg10 harg10 hc0 hc1 hc2 hc3 x0 x1 x2 x3 x4).1)

theorem midCoverStart (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x128 .f32) (harg10 : arg10.IsWhole) (hc0 : cond0_0 i) (hc1 : cond0_1 i) (hc2 : cond0_2 i) (hc3 : ¬cond0_3 i)
    (x0 : Vec F S2048x1024 .bf16) (x1 : Vec F S1024x1024 .bf16) (x2 : Vec F S128x1024 .bf16) (x3 : Vec F S1024x128 .bf16) (x4 : Vec F S1x1024 .f32) (y : S2048x128.Idx) : ∃ pc ∈ (runStart c i arg3 harg3 arg4 harg4 arg5 harg5 arg6 harg6 arg7 harg7 arg8 harg8 arg9 harg9 arg10 harg10 hc0 hc1 hc2 hc3 x0 x1 x2 x3 x4).2.1, y ∈ pc.1.set :=
  View.cover_of_tiledL (runStart c i arg3 harg3 arg4 harg4 arg5 harg5 arg6 harg6 arg7 harg7 arg8 harg8 arg9 harg9 arg10 harg10 hc0 hc1 hc2 hc3 x0 x1 x2 x3 x4).2.1 S2048x128.size (by sl_kernel_rfl) y
/-- What the intermediate accumulator holds after the body. -/
def midStart (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x128 .f32) (harg10 : arg10.IsWhole) (hc0 : cond0_0 i) (hc1 : cond0_1 i) (hc2 : cond0_2 i) (hc3 : ¬cond0_3 i)
    (x0 : Vec F S2048x1024 .bf16) (x1 : Vec F S1024x1024 .bf16) (x2 : Vec F S128x1024 .bf16) (x3 : Vec F S1024x128 .bf16) (x4 : Vec F S1x1024 .f32) : Vec F S2048x128 .f32 :=
  VS0_1.read (Elt F) (VS0_1.writes (Elt F) VS0_1.junk (runStart c i arg3 harg3 arg4 harg4 arg5 harg5 arg6 harg6 arg7 harg7 arg8 harg8 arg9 harg9 arg10 harg10 hc0 hc1 hc2 hc3 x0 x1 x2 x3 x4).2.1)

/-! ### j = 0 and k = 1 or 2 -/

theorem accCoverDownMid (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x128 .f32) (harg10 : arg10.IsWhole) (hc0 : ¬cond0_0 i) (hc1 : ¬cond0_1 i) (hc2 : cond0_2 i) (hc3 : ¬cond0_3 i)
    (x0 : Vec F S2048x1024 .bf16) (x1 : Vec F S1024x1024 .bf16) (x2 : Vec F S128x1024 .bf16) (x3 : Vec F S1024x128 .bf16) (x4 : Vec F S1x1024 .f32) (xs0 : Vec F S2048x1024 .f32) (xs1 : Vec F S2048x128 .f32) (y : S2048x1024.Idx) : ∃ pc ∈ (runDownMid c i arg3 harg3 arg4 harg4 arg5 harg5 arg6 harg6 arg7 harg7 arg8 harg8 arg9 harg9 arg10 harg10 hc0 hc1 hc2 hc3 x0 x1 x2 x3 x4 xs0 xs1).1, y ∈ pc.1.set :=
  View.cover_of_tiledL (runDownMid c i arg3 harg3 arg4 harg4 arg5 harg5 arg6 harg6 arg7 harg7 arg8 harg8 arg9 harg9 arg10 harg10 hc0 hc1 hc2 hc3 x0 x1 x2 x3 x4 xs0 xs1).1 S2048x1024.size (by sl_kernel_rfl) y
/-- What the output-tile accumulator holds after the body: its stores read back. -/
def accDownMid (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x128 .f32) (harg10 : arg10.IsWhole) (hc0 : ¬cond0_0 i) (hc1 : ¬cond0_1 i) (hc2 : cond0_2 i) (hc3 : ¬cond0_3 i)
    (x0 : Vec F S2048x1024 .bf16) (x1 : Vec F S1024x1024 .bf16) (x2 : Vec F S128x1024 .bf16) (x3 : Vec F S1024x128 .bf16) (x4 : Vec F S1x1024 .f32) (xs0 : Vec F S2048x1024 .f32) (xs1 : Vec F S2048x128 .f32) : Vec F S2048x1024 .f32 :=
  VS0_0.read (Elt F) (VS0_0.writes (Elt F) VS0_0.junk (runDownMid c i arg3 harg3 arg4 harg4 arg5 harg5 arg6 harg6 arg7 harg7 arg8 harg8 arg9 harg9 arg10 harg10 hc0 hc1 hc2 hc3 x0 x1 x2 x3 x4 xs0 xs1).1)

theorem midCoverDownMid (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x128 .f32) (harg10 : arg10.IsWhole) (hc0 : ¬cond0_0 i) (hc1 : ¬cond0_1 i) (hc2 : cond0_2 i) (hc3 : ¬cond0_3 i)
    (x0 : Vec F S2048x1024 .bf16) (x1 : Vec F S1024x1024 .bf16) (x2 : Vec F S128x1024 .bf16) (x3 : Vec F S1024x128 .bf16) (x4 : Vec F S1x1024 .f32) (xs0 : Vec F S2048x1024 .f32) (xs1 : Vec F S2048x128 .f32) (y : S2048x128.Idx) : ∃ pc ∈ (runDownMid c i arg3 harg3 arg4 harg4 arg5 harg5 arg6 harg6 arg7 harg7 arg8 harg8 arg9 harg9 arg10 harg10 hc0 hc1 hc2 hc3 x0 x1 x2 x3 x4 xs0 xs1).2.1, y ∈ pc.1.set :=
  View.cover_of_tiledL (runDownMid c i arg3 harg3 arg4 harg4 arg5 harg5 arg6 harg6 arg7 harg7 arg8 harg8 arg9 harg9 arg10 harg10 hc0 hc1 hc2 hc3 x0 x1 x2 x3 x4 xs0 xs1).2.1 S2048x128.size (by sl_kernel_rfl) y
/-- What the intermediate accumulator holds after the body. -/
def midDownMid (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x128 .f32) (harg10 : arg10.IsWhole) (hc0 : ¬cond0_0 i) (hc1 : ¬cond0_1 i) (hc2 : cond0_2 i) (hc3 : ¬cond0_3 i)
    (x0 : Vec F S2048x1024 .bf16) (x1 : Vec F S1024x1024 .bf16) (x2 : Vec F S128x1024 .bf16) (x3 : Vec F S1024x128 .bf16) (x4 : Vec F S1x1024 .f32) (xs0 : Vec F S2048x1024 .f32) (xs1 : Vec F S2048x128 .f32) : Vec F S2048x128 .f32 :=
  VS0_1.read (Elt F) (VS0_1.writes (Elt F) VS0_1.junk (runDownMid c i arg3 harg3 arg4 harg4 arg5 harg5 arg6 harg6 arg7 harg7 arg8 harg8 arg9 harg9 arg10 harg10 hc0 hc1 hc2 hc3 x0 x1 x2 x3 x4 xs0 xs1).2.1)

/-! ### j = 0 and k = 3 -/

theorem accCoverDownLast (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x128 .f32) (harg10 : arg10.IsWhole) (hc0 : ¬cond0_0 i) (hc1 : ¬cond0_1 i) (hc2 : cond0_2 i) (hc3 : cond0_3 i)
    (x0 : Vec F S2048x1024 .bf16) (x1 : Vec F S1024x1024 .bf16) (x2 : Vec F S128x1024 .bf16) (x3 : Vec F S1024x128 .bf16) (x4 : Vec F S1x1024 .f32) (xs0 : Vec F S2048x1024 .f32) (xs1 : Vec F S2048x128 .f32) (y : S2048x1024.Idx) : ∃ pc ∈ (runDownLast c i arg3 harg3 arg4 harg4 arg5 harg5 arg6 harg6 arg7 harg7 arg8 harg8 arg9 harg9 arg10 harg10 hc0 hc1 hc2 hc3 x0 x1 x2 x3 x4 xs0 xs1).2.1, y ∈ pc.1.set :=
  View.cover_of_tiledL (runDownLast c i arg3 harg3 arg4 harg4 arg5 harg5 arg6 harg6 arg7 harg7 arg8 harg8 arg9 harg9 arg10 harg10 hc0 hc1 hc2 hc3 x0 x1 x2 x3 x4 xs0 xs1).2.1 S2048x1024.size (by sl_kernel_rfl) y
/-- What the output-tile accumulator holds after the body: its stores read back. -/
def accDownLast (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x128 .f32) (harg10 : arg10.IsWhole) (hc0 : ¬cond0_0 i) (hc1 : ¬cond0_1 i) (hc2 : cond0_2 i) (hc3 : cond0_3 i)
    (x0 : Vec F S2048x1024 .bf16) (x1 : Vec F S1024x1024 .bf16) (x2 : Vec F S128x1024 .bf16) (x3 : Vec F S1024x128 .bf16) (x4 : Vec F S1x1024 .f32) (xs0 : Vec F S2048x1024 .f32) (xs1 : Vec F S2048x128 .f32) : Vec F S2048x1024 .f32 :=
  VS0_0.read (Elt F) (VS0_0.writes (Elt F) VS0_0.junk (runDownLast c i arg3 harg3 arg4 harg4 arg5 harg5 arg6 harg6 arg7 harg7 arg8 harg8 arg9 harg9 arg10 harg10 hc0 hc1 hc2 hc3 x0 x1 x2 x3 x4 xs0 xs1).2.1)

theorem midCoverDownLast (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x128 .f32) (harg10 : arg10.IsWhole) (hc0 : ¬cond0_0 i) (hc1 : ¬cond0_1 i) (hc2 : cond0_2 i) (hc3 : cond0_3 i)
    (x0 : Vec F S2048x1024 .bf16) (x1 : Vec F S1024x1024 .bf16) (x2 : Vec F S128x1024 .bf16) (x3 : Vec F S1024x128 .bf16) (x4 : Vec F S1x1024 .f32) (xs0 : Vec F S2048x1024 .f32) (xs1 : Vec F S2048x128 .f32) (y : S2048x128.Idx) : ∃ pc ∈ (runDownLast c i arg3 harg3 arg4 harg4 arg5 harg5 arg6 harg6 arg7 harg7 arg8 harg8 arg9 harg9 arg10 harg10 hc0 hc1 hc2 hc3 x0 x1 x2 x3 x4 xs0 xs1).2.2.1, y ∈ pc.1.set :=
  View.cover_of_tiledL (runDownLast c i arg3 harg3 arg4 harg4 arg5 harg5 arg6 harg6 arg7 harg7 arg8 harg8 arg9 harg9 arg10 harg10 hc0 hc1 hc2 hc3 x0 x1 x2 x3 x4 xs0 xs1).2.2.1 S2048x128.size (by sl_kernel_rfl) y
/-- What the intermediate accumulator holds after the body. -/
def midDownLast (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x128 .f32) (harg10 : arg10.IsWhole) (hc0 : ¬cond0_0 i) (hc1 : ¬cond0_1 i) (hc2 : cond0_2 i) (hc3 : cond0_3 i)
    (x0 : Vec F S2048x1024 .bf16) (x1 : Vec F S1024x1024 .bf16) (x2 : Vec F S128x1024 .bf16) (x3 : Vec F S1024x128 .bf16) (x4 : Vec F S1x1024 .f32) (xs0 : Vec F S2048x1024 .f32) (xs1 : Vec F S2048x128 .f32) : Vec F S2048x128 .f32 :=
  VS0_1.read (Elt F) (VS0_1.writes (Elt F) VS0_1.junk (runDownLast c i arg3 harg3 arg4 harg4 arg5 harg5 arg6 harg6 arg7 harg7 arg8 harg8 arg9 harg9 arg10 harg10 hc0 hc1 hc2 hc3 x0 x1 x2 x3 x4 xs0 xs1).2.2.1)

theorem outCoverDownLast (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x128 .f32) (harg10 : arg10.IsWhole) (hc0 : ¬cond0_0 i) (hc1 : ¬cond0_1 i) (hc2 : cond0_2 i) (hc3 : cond0_3 i)
    (x0 : Vec F S2048x1024 .bf16) (x1 : Vec F S1024x1024 .bf16) (x2 : Vec F S128x1024 .bf16) (x3 : Vec F S1024x128 .bf16) (x4 : Vec F S1x1024 .f32) (xs0 : Vec F S2048x1024 .f32) (xs1 : Vec F S2048x128 .f32) (y : S2048x1024.Idx) : ∃ pc ∈ (runDownLast c i arg3 harg3 arg4 harg4 arg5 harg5 arg6 harg6 arg7 harg7 arg8 harg8 arg9 harg9 arg10 harg10 hc0 hc1 hc2 hc3 x0 x1 x2 x3 x4 xs0 xs1).1, y ∈ pc.1.set :=
  View.cover_of_tiledL (runDownLast c i arg3 harg3 arg4 harg4 arg5 harg5 arg6 harg6 arg7 harg7 arg8 harg8 arg9 harg9 arg10 harg10 hc0 hc1 hc2 hc3 x0 x1 x2 x3 x4 xs0 xs1).1 S2048x1024.size (by sl_kernel_rfl) y
/-- What the output block's staging buffer holds after the body. -/
def outDownLast (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x128 .f32) (harg10 : arg10.IsWhole) (hc0 : ¬cond0_0 i) (hc1 : ¬cond0_1 i) (hc2 : cond0_2 i) (hc3 : cond0_3 i)
    (x0 : Vec F S2048x1024 .bf16) (x1 : Vec F S1024x1024 .bf16) (x2 : Vec F S128x1024 .bf16) (x3 : Vec F S1024x128 .bf16) (x4 : Vec F S1x1024 .f32) (xs0 : Vec F S2048x1024 .f32) (xs1 : Vec F S2048x128 .f32) : Vec F S2048x1024 .f32 :=
  VO0_5.read (Elt F) (VO0_5.writes (Elt F) VO0_5.junk (runDownLast c i arg3 harg3 arg4 harg4 arg5 harg5 arg6 harg6 arg7 harg7 arg8 harg8 arg9 harg9 arg10 harg10 hc0 hc1 hc2 hc3 x0 x1 x2 x3 x4 xs0 xs1).1)

/-! ### j ≠ 0 and k = 0 -/

theorem accCoverReset (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x128 .f32) (harg10 : arg10.IsWhole) (hc0 : cond0_0 i) (hc1 : ¬cond0_1 i) (hc2 : ¬cond0_2 i) (hc3 : ¬cond0_3 i)
    (x0 : Vec F S2048x1024 .bf16) (x1 : Vec F S1024x1024 .bf16) (x2 : Vec F S128x1024 .bf16) (x3 : Vec F S1024x128 .bf16) (x4 : Vec F S1x1024 .f32) (xs1 : Vec F S2048x128 .f32) (y : S2048x1024.Idx) : ∃ pc ∈ (runReset c i arg3 harg3 arg4 harg4 arg5 harg5 arg6 harg6 arg7 harg7 arg8 harg8 arg9 harg9 arg10 harg10 hc0 hc1 hc2 hc3 x0 x1 x2 x3 x4 xs1).1, y ∈ pc.1.set :=
  View.cover_of_tiledL (runReset c i arg3 harg3 arg4 harg4 arg5 harg5 arg6 harg6 arg7 harg7 arg8 harg8 arg9 harg9 arg10 harg10 hc0 hc1 hc2 hc3 x0 x1 x2 x3 x4 xs1).1 S2048x1024.size (by sl_kernel_rfl) y
/-- What the output-tile accumulator holds after the body: its stores read back. -/
def accReset (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x128 .f32) (harg10 : arg10.IsWhole) (hc0 : cond0_0 i) (hc1 : ¬cond0_1 i) (hc2 : ¬cond0_2 i) (hc3 : ¬cond0_3 i)
    (x0 : Vec F S2048x1024 .bf16) (x1 : Vec F S1024x1024 .bf16) (x2 : Vec F S128x1024 .bf16) (x3 : Vec F S1024x128 .bf16) (x4 : Vec F S1x1024 .f32) (xs1 : Vec F S2048x128 .f32) : Vec F S2048x1024 .f32 :=
  VS0_0.read (Elt F) (VS0_0.writes (Elt F) VS0_0.junk (runReset c i arg3 harg3 arg4 harg4 arg5 harg5 arg6 harg6 arg7 harg7 arg8 harg8 arg9 harg9 arg10 harg10 hc0 hc1 hc2 hc3 x0 x1 x2 x3 x4 xs1).1)

/-! ### j ≠ 0 and k = 1 or 2 -/

theorem accCoverMid (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x128 .f32) (harg10 : arg10.IsWhole) (hc0 : ¬cond0_0 i) (hc1 : ¬cond0_1 i) (hc2 : ¬cond0_2 i) (hc3 : ¬cond0_3 i)
    (x0 : Vec F S2048x1024 .bf16) (x1 : Vec F S1024x1024 .bf16) (x2 : Vec F S128x1024 .bf16) (x3 : Vec F S1024x128 .bf16) (x4 : Vec F S1x1024 .f32) (xs0 : Vec F S2048x1024 .f32) (xs1 : Vec F S2048x128 .f32) (y : S2048x1024.Idx) : ∃ pc ∈ (runMid c i arg3 harg3 arg4 harg4 arg5 harg5 arg6 harg6 arg7 harg7 arg8 harg8 arg9 harg9 arg10 harg10 hc0 hc1 hc2 hc3 x0 x1 x2 x3 x4 xs0 xs1).1, y ∈ pc.1.set :=
  View.cover_of_tiledL (runMid c i arg3 harg3 arg4 harg4 arg5 harg5 arg6 harg6 arg7 harg7 arg8 harg8 arg9 harg9 arg10 harg10 hc0 hc1 hc2 hc3 x0 x1 x2 x3 x4 xs0 xs1).1 S2048x1024.size (by sl_kernel_rfl) y
/-- What the output-tile accumulator holds after the body: its stores read back. -/
def accMid (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x128 .f32) (harg10 : arg10.IsWhole) (hc0 : ¬cond0_0 i) (hc1 : ¬cond0_1 i) (hc2 : ¬cond0_2 i) (hc3 : ¬cond0_3 i)
    (x0 : Vec F S2048x1024 .bf16) (x1 : Vec F S1024x1024 .bf16) (x2 : Vec F S128x1024 .bf16) (x3 : Vec F S1024x128 .bf16) (x4 : Vec F S1x1024 .f32) (xs0 : Vec F S2048x1024 .f32) (xs1 : Vec F S2048x128 .f32) : Vec F S2048x1024 .f32 :=
  VS0_0.read (Elt F) (VS0_0.writes (Elt F) VS0_0.junk (runMid c i arg3 harg3 arg4 harg4 arg5 harg5 arg6 harg6 arg7 harg7 arg8 harg8 arg9 harg9 arg10 harg10 hc0 hc1 hc2 hc3 x0 x1 x2 x3 x4 xs0 xs1).1)

/-! ### j ≠ 0 and k = 3 -/

theorem accCoverLast (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x128 .f32) (harg10 : arg10.IsWhole) (hc0 : ¬cond0_0 i) (hc1 : ¬cond0_1 i) (hc2 : ¬cond0_2 i) (hc3 : cond0_3 i)
    (x0 : Vec F S2048x1024 .bf16) (x1 : Vec F S1024x1024 .bf16) (x2 : Vec F S128x1024 .bf16) (x3 : Vec F S1024x128 .bf16) (x4 : Vec F S1x1024 .f32) (xs0 : Vec F S2048x1024 .f32) (xs1 : Vec F S2048x128 .f32) (y : S2048x1024.Idx) : ∃ pc ∈ (runLast c i arg3 harg3 arg4 harg4 arg5 harg5 arg6 harg6 arg7 harg7 arg8 harg8 arg9 harg9 arg10 harg10 hc0 hc1 hc2 hc3 x0 x1 x2 x3 x4 xs0 xs1).2.1, y ∈ pc.1.set :=
  View.cover_of_tiledL (runLast c i arg3 harg3 arg4 harg4 arg5 harg5 arg6 harg6 arg7 harg7 arg8 harg8 arg9 harg9 arg10 harg10 hc0 hc1 hc2 hc3 x0 x1 x2 x3 x4 xs0 xs1).2.1 S2048x1024.size (by sl_kernel_rfl) y
/-- What the output-tile accumulator holds after the body: its stores read back. -/
def accLast (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x128 .f32) (harg10 : arg10.IsWhole) (hc0 : ¬cond0_0 i) (hc1 : ¬cond0_1 i) (hc2 : ¬cond0_2 i) (hc3 : cond0_3 i)
    (x0 : Vec F S2048x1024 .bf16) (x1 : Vec F S1024x1024 .bf16) (x2 : Vec F S128x1024 .bf16) (x3 : Vec F S1024x128 .bf16) (x4 : Vec F S1x1024 .f32) (xs0 : Vec F S2048x1024 .f32) (xs1 : Vec F S2048x128 .f32) : Vec F S2048x1024 .f32 :=
  VS0_0.read (Elt F) (VS0_0.writes (Elt F) VS0_0.junk (runLast c i arg3 harg3 arg4 harg4 arg5 harg5 arg6 harg6 arg7 harg7 arg8 harg8 arg9 harg9 arg10 harg10 hc0 hc1 hc2 hc3 x0 x1 x2 x3 x4 xs0 xs1).2.1)

theorem outCoverLast (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x128 .f32) (harg10 : arg10.IsWhole) (hc0 : ¬cond0_0 i) (hc1 : ¬cond0_1 i) (hc2 : ¬cond0_2 i) (hc3 : cond0_3 i)
    (x0 : Vec F S2048x1024 .bf16) (x1 : Vec F S1024x1024 .bf16) (x2 : Vec F S128x1024 .bf16) (x3 : Vec F S1024x128 .bf16) (x4 : Vec F S1x1024 .f32) (xs0 : Vec F S2048x1024 .f32) (xs1 : Vec F S2048x128 .f32) (y : S2048x1024.Idx) : ∃ pc ∈ (runLast c i arg3 harg3 arg4 harg4 arg5 harg5 arg6 harg6 arg7 harg7 arg8 harg8 arg9 harg9 arg10 harg10 hc0 hc1 hc2 hc3 x0 x1 x2 x3 x4 xs0 xs1).1, y ∈ pc.1.set :=
  View.cover_of_tiledL (runLast c i arg3 harg3 arg4 harg4 arg5 harg5 arg6 harg6 arg7 harg7 arg8 harg8 arg9 harg9 arg10 harg10 hc0 hc1 hc2 hc3 x0 x1 x2 x3 x4 xs0 xs1).1 S2048x1024.size (by sl_kernel_rfl) y
/-- What the output block's staging buffer holds after the body. -/
def outLast (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x128 .f32) (harg10 : arg10.IsWhole) (hc0 : ¬cond0_0 i) (hc1 : ¬cond0_1 i) (hc2 : ¬cond0_2 i) (hc3 : cond0_3 i)
    (x0 : Vec F S2048x1024 .bf16) (x1 : Vec F S1024x1024 .bf16) (x2 : Vec F S128x1024 .bf16) (x3 : Vec F S1024x128 .bf16) (x4 : Vec F S1x1024 .f32) (xs0 : Vec F S2048x1024 .f32) (xs1 : Vec F S2048x128 .f32) : Vec F S2048x1024 .f32 :=
  VO0_5.read (Elt F) (VO0_5.writes (Elt F) VO0_5.junk (runLast c i arg3 harg3 arg4 harg4 arg5 harg5 arg6 harg6 arg7 harg7 arg8 harg8 arg9 harg9 arg10 harg10 hc0 hc1 hc2 hc3 x0 x1 x2 x3 x4 xs0 xs1).1)

/-! ## The conditions at a point, from its number -/

theorem hk0 (t : Fin cfg0.N) (h : t.val % 4 = 0) : cond0_0 (grid0.coords t) := (hcond0_0 t).mpr h
theorem nk0 (t : Fin cfg0.N) (h : ¬t.val % 4 = 0) : ¬cond0_0 (grid0.coords t) := fun h' => h ((hcond0_0 t).mp h')
theorem hjk0 (t : Fin cfg0.N) (h : t.val % 16 = 0) : cond0_1 (grid0.coords t) := (hcond0_1 t).mpr h
theorem njk0 (t : Fin cfg0.N) (h : ¬t.val % 16 = 0) : ¬cond0_1 (grid0.coords t) := fun h' => h ((hcond0_1 t).mp h')
theorem hj0 (t : Fin cfg0.N) (h : t.val % 16 < 4) : cond0_2 (grid0.coords t) := (hcond0_2 t).mpr h
theorem nj0 (t : Fin cfg0.N) (h : ¬t.val % 16 < 4) : ¬cond0_2 (grid0.coords t) := fun h' => h ((hcond0_2 t).mp h')
theorem hk3 (t : Fin cfg0.N) (h : t.val % 4 = 3) : cond0_3 (grid0.coords t) := (hcond0_3 t).mpr h
theorem nk3 (t : Fin cfg0.N) (h : ¬t.val % 4 = 3) : ¬cond0_3 (grid0.coords t) := fun h' => h ((hcond0_3 t).mp h')

/-! ## What the buffers hold after each point -/

/-- One point: from what the two accumulators held (`pa`, `pb`), what the output block's buffer and the two
    accumulators hold after the body at `t` — the case read off the point's number. Where the case stores nothing
    into the output block the first component is a placeholder nothing consults. -/
def stepAt (c : Dev nD) (t : Fin cfg0.N) (pa : Vec F S2048x1024 .f32) (pb : Vec F S2048x128 .f32) :
    Vec F S2048x1024 .f32 × Vec F S2048x1024 .f32 × Vec F S2048x128 .f32 :=
  if h0 : t.val % 4 = 0 then
    if h1 : t.val % 16 = 0 then (VO0_5.read (Elt F) VO0_5.junk, accStart c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (hk0 t h0) (hjk0 t h1) (hj0 t (by omega)) (nk3 t (by omega)) (iblk m c 0 t) (iblk m c 1 t) (iblk m c 2 t) (iblk m c 3 t) (iblk m c 4 t), midStart c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (hk0 t h0) (hjk0 t h1) (hj0 t (by omega)) (nk3 t (by omega)) (iblk m c 0 t) (iblk m c 1 t) (iblk m c 2 t) (iblk m c 3 t) (iblk m c 4 t))
    else (VO0_5.read (Elt F) VO0_5.junk, accReset c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (hk0 t h0) (njk0 t h1) (nj0 t (by omega)) (nk3 t (by omega)) (iblk m c 0 t) (iblk m c 1 t) (iblk m c 2 t) (iblk m c 3 t) (iblk m c 4 t) pb, pb)
  else if h3 : t.val % 4 = 3 then
    if h2 : t.val % 16 < 4 then (outDownLast c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (nk0 t h0) (njk0 t (by omega)) (hj0 t h2) (hk3 t h3) (iblk m c 0 t) (iblk m c 1 t) (iblk m c 2 t) (iblk m c 3 t) (iblk m c 4 t) pa pb, accDownLast c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (nk0 t h0) (njk0 t (by omega)) (hj0 t h2) (hk3 t h3) (iblk m c 0 t) (iblk m c 1 t) (iblk m c 2 t) (iblk m c 3 t) (iblk m c 4 t) pa pb, midDownLast c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (nk0 t h0) (njk0 t (by omega)) (hj0 t h2) (hk3 t h3) (iblk m c 0 t) (iblk m c 1 t) (iblk m c 2 t) (iblk m c 3 t) (iblk m c 4 t) pa pb)
    else (outLast c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (nk0 t h0) (njk0 t (by omega)) (nj0 t h2) (hk3 t h3) (iblk m c 0 t) (iblk m c 1 t) (iblk m c 2 t) (iblk m c 3 t) (iblk m c 4 t) pa pb, accLast c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (nk0 t h0) (njk0 t (by omega)) (nj0 t h2) (hk3 t h3) (iblk m c 0 t) (iblk m c 1 t) (iblk m c 2 t) (iblk m c 3 t) (iblk m c 4 t) pa pb, pb)
  else
    if h2 : t.val % 16 < 4 then (VO0_5.read (Elt F) VO0_5.junk, accDownMid c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (nk0 t h0) (njk0 t (by omega)) (hj0 t h2) (nk3 t h3) (iblk m c 0 t) (iblk m c 1 t) (iblk m c 2 t) (iblk m c 3 t) (iblk m c 4 t) pa pb, midDownMid c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (nk0 t h0) (njk0 t (by omega)) (hj0 t h2) (nk3 t h3) (iblk m c 0 t) (iblk m c 1 t) (iblk m c 2 t) (iblk m c 3 t) (iblk m c 4 t) pa pb)
    else (VO0_5.read (Elt F) VO0_5.junk, accMid c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (nk0 t h0) (njk0 t (by omega)) (nj0 t h2) (nk3 t h3) (iblk m c 0 t) (iblk m c 1 t) (iblk m c 2 t) (iblk m c 3 t) (iblk m c 4 t) pa pb, pb)

theorem stepAt_Start (c : Dev nD) (t : Fin cfg0.N) (pa : Vec F S2048x1024 .f32) (pb : Vec F S2048x128 .f32) (h0 : t.val % 4 = 0) (h1 : t.val % 16 = 0) :
    stepAt m c t pa pb = (VO0_5.read (Elt F) VO0_5.junk, accStart c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (hk0 t h0) (hjk0 t h1) (hj0 t (by omega)) (nk3 t (by omega)) (iblk m c 0 t) (iblk m c 1 t) (iblk m c 2 t) (iblk m c 3 t) (iblk m c 4 t), midStart c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (hk0 t h0) (hjk0 t h1) (hj0 t (by omega)) (nk3 t (by omega)) (iblk m c 0 t) (iblk m c 1 t) (iblk m c 2 t) (iblk m c 3 t) (iblk m c 4 t)) :=
  (dif_pos h0).trans (dif_pos h1)
theorem stepAt_DownMid (c : Dev nD) (t : Fin cfg0.N) (pa : Vec F S2048x1024 .f32) (pb : Vec F S2048x128 .f32) (h0 : ¬t.val % 4 = 0) (h3 : ¬t.val % 4 = 3) (h2 : t.val % 16 < 4) :
    stepAt m c t pa pb = (VO0_5.read (Elt F) VO0_5.junk, accDownMid c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (nk0 t h0) (njk0 t (by omega)) (hj0 t h2) (nk3 t h3) (iblk m c 0 t) (iblk m c 1 t) (iblk m c 2 t) (iblk m c 3 t) (iblk m c 4 t) pa pb, midDownMid c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (nk0 t h0) (njk0 t (by omega)) (hj0 t h2) (nk3 t h3) (iblk m c 0 t) (iblk m c 1 t) (iblk m c 2 t) (iblk m c 3 t) (iblk m c 4 t) pa pb) :=
  (dif_neg h0).trans ((dif_neg h3).trans (dif_pos h2))
theorem stepAt_DownLast (c : Dev nD) (t : Fin cfg0.N) (pa : Vec F S2048x1024 .f32) (pb : Vec F S2048x128 .f32) (h0 : ¬t.val % 4 = 0) (h3 : t.val % 4 = 3) (h2 : t.val % 16 < 4) :
    stepAt m c t pa pb = (outDownLast c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (nk0 t h0) (njk0 t (by omega)) (hj0 t h2) (hk3 t h3) (iblk m c 0 t) (iblk m c 1 t) (iblk m c 2 t) (iblk m c 3 t) (iblk m c 4 t) pa pb, accDownLast c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (nk0 t h0) (njk0 t (by omega)) (hj0 t h2) (hk3 t h3) (iblk m c 0 t) (iblk m c 1 t) (iblk m c 2 t) (iblk m c 3 t) (iblk m c 4 t) pa pb, midDownLast c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (nk0 t h0) (njk0 t (by omega)) (hj0 t h2) (hk3 t h3) (iblk m c 0 t) (iblk m c 1 t) (iblk m c 2 t) (iblk m c 3 t) (iblk m c 4 t) pa pb) :=
  (dif_neg h0).trans ((dif_pos h3).trans (dif_pos h2))
theorem stepAt_Reset (c : Dev nD) (t : Fin cfg0.N) (pa : Vec F S2048x1024 .f32) (pb : Vec F S2048x128 .f32) (h0 : t.val % 4 = 0) (h1 : ¬t.val % 16 = 0) :
    stepAt m c t pa pb = (VO0_5.read (Elt F) VO0_5.junk, accReset c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (hk0 t h0) (njk0 t h1) (nj0 t (by omega)) (nk3 t (by omega)) (iblk m c 0 t) (iblk m c 1 t) (iblk m c 2 t) (iblk m c 3 t) (iblk m c 4 t) pb, pb) :=
  (dif_pos h0).trans (dif_neg h1)
theorem stepAt_Mid (c : Dev nD) (t : Fin cfg0.N) (pa : Vec F S2048x1024 .f32) (pb : Vec F S2048x128 .f32) (h0 : ¬t.val % 4 = 0) (h3 : ¬t.val % 4 = 3) (h2 : ¬t.val % 16 < 4) :
    stepAt m c t pa pb = (VO0_5.read (Elt F) VO0_5.junk, accMid c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (nk0 t h0) (njk0 t (by omega)) (nj0 t h2) (nk3 t h3) (iblk m c 0 t) (iblk m c 1 t) (iblk m c 2 t) (iblk m c 3 t) (iblk m c 4 t) pa pb, pb) :=
  (dif_neg h0).trans ((dif_neg h3).trans (dif_neg h2))
theorem stepAt_Last (c : Dev nD) (t : Fin cfg0.N) (pa : Vec F S2048x1024 .f32) (pb : Vec F S2048x128 .f32) (h0 : ¬t.val % 4 = 0) (h3 : t.val % 4 = 3) (h2 : ¬t.val % 16 < 4) :
    stepAt m c t pa pb = (outLast c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (nk0 t h0) (njk0 t (by omega)) (nj0 t h2) (hk3 t h3) (iblk m c 0 t) (iblk m c 1 t) (iblk m c 2 t) (iblk m c 3 t) (iblk m c 4 t) pa pb, accLast c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (nk0 t h0) (njk0 t (by omega)) (nj0 t h2) (hk3 t h3) (iblk m c 0 t) (iblk m c 1 t) (iblk m c 2 t) (iblk m c 3 t) (iblk m c 4 t) pa pb, pb) :=
  (dif_neg h0).trans ((dif_pos h3).trans (dif_neg h2))

/-- The state after point `n`: the step at `n` from the state after `n - 1` (at the first point from anything:
    its case resets both accumulators). -/
def stAt (c : Dev nD) : (n : ℕ) → n < cfg0.N → Vec F S2048x1024 .f32 × Vec F S2048x1024 .f32 × Vec F S2048x128 .f32
  | 0, hn => stepAt m c ⟨0, hn⟩ (VS0_0.read (Elt F) VS0_0.junk) (VS0_1.read (Elt F) VS0_1.junk)
  | n + 1, hn => stepAt m c ⟨n + 1, hn⟩ (stAt c n (Nat.lt_of_succ_lt hn)).2.1 (stAt c n (Nat.lt_of_succ_lt hn)).2.2

/-- The accumulators as the point before `t` left them. -/
abbrev prevAcc (c : Dev nD) (t : Fin cfg0.N) : Vec F S2048x1024 .f32 := (stAt m c (t.val - 1) (Nat.lt_of_le_of_lt (Nat.sub_le _ _) t.isLt)).2.1
abbrev prevMid (c : Dev nD) (t : Fin cfg0.N) : Vec F S2048x128 .f32 := (stAt m c (t.val - 1) (Nat.lt_of_le_of_lt (Nat.sub_le _ _) t.isLt)).2.2

theorem stAt_zero (c : Dev nD) (t : Fin cfg0.N) (hz : t.val = 0) :
    stAt m c t.val t.isLt = stepAt m c t (VS0_0.read (Elt F) VS0_0.junk) (VS0_1.read (Elt F) VS0_1.junk) := by
  obtain ⟨n, hn⟩ := t
  cases n with
  | zero => rfl
  | succ n => exact absurd hz (Nat.succ_ne_zero n)

theorem stAt_pos (c : Dev nD) (t : Fin cfg0.N) (hz : t.val ≠ 0) :
    stAt m c t.val t.isLt = stepAt m c t (prevAcc m c t) (prevMid m c t) := by
  obtain ⟨n, hn⟩ := t
  cases n with
  | zero => exact absurd rfl hz
  | succ n => rfl

/-- The region's invariant before position `n`: before the first point the class's (both accumulators at anything);
    afterwards each accumulator at what the point before left, beside the generator register. -/
def PhiS (c : Dev nD) : (n : ℕ) → n ≤ cfg0.N → sProp 𝕄
  | 0, _ => Pipeline.ΦA spec0 c
  | n + 1, hn => iprop(iprop(owns (c : Thread nD τ) scM0_0 fullShare ((stAt m c n hn).2.1) ∗ owns (c : Thread nD τ) scM0_1 fullShare ((stAt m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((stAt m c n hn).2.1) ∗ owns (c : Thread nD τ) scM0_1 fullShare ((stAt m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((stAt m c (n - 1) (by omega)).2.1) ∗ owns (c : Thread nD τ) scM0_1 fullShare ((stAt m c (n - 1) (by omega)).2.2)) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (stAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (stAt m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- The body at any point: the inputs' buffers hold their blocks; the point's number says which case it is in; the
    invariant hands the body both accumulators at what the point before left (at anything before the first point) and
    takes them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  have hN : t.val < 64 := lt_of_lt_of_eq t.isLt (show cfg0.N = 64 from N_0)
  by_cases h0 : t.val % 4 = 0
  · by_cases h1 : t.val % 16 = 0
    · by_cases hz : t.val = 0
      · rw [Dat.leavesExact_idle (dats m 0 c) 5 t (idleAt0_5 t (nk3 t (by omega))) (noFlush0_5 t (nk3 t (by omega)))]
        rw [stAt_zero m c t hz, stepAt_Start m c t (VS0_0.read (Elt F) VS0_0.junk) (VS0_1.read (Elt F) VS0_1.junk) h0 h1]
        dsimp only
        unfold accStart midStart
        rw [PhiS_castSucc m c t, PhiS_zero m c _ _ hz, PhiA0_eq]
        iintro ⟨⟨⟨HS0, HS1⟩, Hg⟩, Ho, ⟨%d0, H0⟩, ⟨%d1, H1⟩, ⟨%d2, H2⟩, ⟨%d3, H3⟩, ⟨%d4, H4⟩, ⟨%d5, H5⟩⟩
        iapply ((runStart c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (hk0 t h0) (hjk0 t h1) (hj0 t (by omega)) (nk3 t (by omega)) (iblk m c 0 t) (iblk m c 1 t) (iblk m c 2 t) (iblk m c 3 t) (iblk m c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, H5, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (accCoverStart c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (hk0 t h0) (hjk0 t h1) (hj0 t (by omega)) (nk3 t (by omega)) (iblk m c 0 t) (iblk m c 1 t) (iblk m c 2 t) (iblk m c 3 t) (iblk m c 4 t))
            · unfold owns; iexists _; isplitr
              swap; · iexact HS1
              ipureintro; exact View.read_writes_of_cover _ _ _ _ _ (midCoverStart c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (hk0 t h0) (hjk0 t h1) (hj0 t (by omega)) (nk3 t (by omega)) (iblk m c 0 t) (iblk m c 1 t) (iblk m c 2 t) (iblk m c 3 t) (iblk m c 4 t))
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [Dat.leavesExact_idle (dats m 0 c) 5 t (idleAt0_5 t (nk3 t (by omega))) (noFlush0_5 t (nk3 t (by omega)))]
        rw [stAt_pos m c t hz, stepAt_Start m c t (prevAcc m c t) (prevMid m c t) h0 h1]
        dsimp only
        unfold accStart midStart
        rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩, ⟨%d5, H5⟩⟩
        iapply ((runStart c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (hk0 t h0) (hjk0 t h1) (hj0 t (by omega)) (nk3 t (by omega)) (iblk m c 0 t) (iblk m c 1 t) (iblk m c 2 t) (iblk m c 3 t) (iblk m c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        isplitl [HS1]; · iexists _; iexact HS1
        iintro ⟨H0, H1, H2, H3, H4, H5, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (accCoverStart c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (hk0 t h0) (hjk0 t h1) (hj0 t (by omega)) (nk3 t (by omega)) (iblk m c 0 t) (iblk m c 1 t) (iblk m c 2 t) (iblk m c 3 t) (iblk m c 4 t))
            · unfold owns; iexists _; isplitr
              swap; · iexact HS1
              ipureintro; exact View.read_writes_of_cover _ _ _ _ _ (midCoverStart c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (hk0 t h0) (hjk0 t h1) (hj0 t (by omega)) (nk3 t (by omega)) (iblk m c 0 t) (iblk m c 1 t) (iblk m c 2 t) (iblk m c 3 t) (iblk m c 4 t))
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
    · have hz : t.val ≠ 0 := by omega
      rw [Dat.leavesExact_idle (dats m 0 c) 5 t (idleAt0_5 t (nk3 t (by omega))) (noFlush0_5 t (nk3 t (by omega)))]
      rw [stAt_pos m c t hz, stepAt_Reset m c t (prevAcc m c t) (prevMid m c t) h0 h1]
      dsimp only
      unfold accReset
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((runReset c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (hk0 t h0) (njk0 t h1) (nj0 t (by omega)) (nk3 t (by omega)) (iblk m c 0 t) (iblk m c 1 t) (iblk m c 2 t) (iblk m c 3 t) (iblk m c 4 t) (prevMid m c t)).2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexact HS1
      iintro ⟨H0, H1, H2, H3, H4, H5, ⟨%es0, HS0⟩, HS1⟩
      isplitl [HS0 HS1 Hg]
      · isplitl [HS0 HS1]
        · isplitl [HS0]
          · unfold owns; iexists _; isplitr
            swap; · iexact HS0
            ipureintro; exact View.read_writes_of_cover _ _ _ _ _ (accCoverReset c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (hk0 t h0) (njk0 t h1) (nj0 t (by omega)) (nk3 t (by omega)) (iblk m c 0 t) (iblk m c 1 t) (iblk m c 2 t) (iblk m c 3 t) (iblk m c 4 t) (prevMid m c t))
          · iexact HS1
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · by_cases h3 : t.val % 4 = 3
    · by_cases h2 : t.val % 16 < 4
      · have hz : t.val ≠ 0 := by omega
        rw [show (dats m 0 c).leavesExact 5 t = owns (c : Thread nD τ) (ms0_5 t) fullShare ((dats m 0 c).after 5 t) from by
          unfold Dat.leavesExact; rw [liveAt0_5 t (hk3 t h3)], after0_5]
        rw [stAt_pos m c t hz, stepAt_DownLast m c t (prevAcc m c t) (prevMid m c t) h0 h3 h2]
        dsimp only
        unfold accDownLast midDownLast outDownLast
        rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩, ⟨%d5, H5⟩⟩
        iapply ((runDownLast c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (nk0 t h0) (njk0 t (by omega)) (hj0 t h2) (hk3 t h3) (iblk m c 0 t) (iblk m c 1 t) (iblk m c 2 t) (iblk m c 3 t) (iblk m c 4 t) (prevAcc m c t) (prevMid m c t)).2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        iintro ⟨H0, H1, H2, H3, H4, ⟨%e5, H5⟩, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (accCoverDownLast c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (nk0 t h0) (njk0 t (by omega)) (hj0 t h2) (hk3 t h3) (iblk m c 0 t) (iblk m c 1 t) (iblk m c 2 t) (iblk m c 3 t) (iblk m c 4 t) (prevAcc m c t) (prevMid m c t))
            · unfold owns; iexists _; isplitr
              swap; · iexact HS1
              ipureintro; exact View.read_writes_of_cover _ _ _ _ _ (midCoverDownLast c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (nk0 t h0) (njk0 t (by omega)) (hj0 t h2) (hk3 t h3) (iblk m c 0 t) (iblk m c 1 t) (iblk m c 2 t) (iblk m c 3 t) (iblk m c 4 t) (prevAcc m c t) (prevMid m c t))
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (outCoverDownLast c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (nk0 t h0) (njk0 t (by omega)) (hj0 t h2) (hk3 t h3) (iblk m c 0 t) (iblk m c 1 t) (iblk m c 2 t) (iblk m c 3 t) (iblk m c 4 t) (prevAcc m c t) (prevMid m c t))
      · have hz : t.val ≠ 0 := by omega
        rw [show (dats m 0 c).leavesExact 5 t = owns (c : Thread nD τ) (ms0_5 t) fullShare ((dats m 0 c).after 5 t) from by
          unfold Dat.leavesExact; rw [liveAt0_5 t (hk3 t h3)], after0_5]
        rw [stAt_pos m c t hz, stepAt_Last m c t (prevAcc m c t) (prevMid m c t) h0 h3 h2]
        dsimp only
        unfold accLast outLast
        rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩, ⟨%d5, H5⟩⟩
        iapply ((runLast c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (nk0 t h0) (njk0 t (by omega)) (nj0 t h2) (hk3 t h3) (iblk m c 0 t) (iblk m c 1 t) (iblk m c 2 t) (iblk m c 3 t) (iblk m c 4 t) (prevAcc m c t) (prevMid m c t)).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        iintro ⟨H0, H1, H2, H3, H4, ⟨%e5, H5⟩, ⟨%es0, HS0⟩, HS1⟩
        isplitl [HS0 HS1 Hg]
        · isplitl [HS0 HS1]
          · isplitl [HS0]
            · unfold owns; iexists _; isplitr
              swap; · iexact HS0
              ipureintro; exact View.read_writes_of_cover _ _ _ _ _ (accCoverLast c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (nk0 t h0) (njk0 t (by omega)) (nj0 t h2) (hk3 t h3) (iblk m c 0 t) (iblk m c 1 t) (iblk m c 2 t) (iblk m c 3 t) (iblk m c 4 t) (prevAcc m c t) (prevMid m c t))
            · iexact HS1
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (outCoverLast c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (nk0 t h0) (njk0 t (by omega)) (nj0 t h2) (hk3 t h3) (iblk m c 0 t) (iblk m c 1 t) (iblk m c 2 t) (iblk m c 3 t) (iblk m c 4 t) (prevAcc m c t) (prevMid m c t))
    · by_cases h2 : t.val % 16 < 4
      · have hz : t.val ≠ 0 := by omega
        rw [Dat.leavesExact_idle (dats m 0 c) 5 t (idleAt0_5 t (nk3 t (by omega))) (noFlush0_5 t (nk3 t (by omega)))]
        rw [stAt_pos m c t hz, stepAt_DownMid m c t (prevAcc m c t) (prevMid m c t) h0 h3 h2]
        dsimp only
        unfold accDownMid midDownMid
        rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩, ⟨%d5, H5⟩⟩
        iapply ((runDownMid c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (nk0 t h0) (njk0 t (by omega)) (hj0 t h2) (nk3 t h3) (iblk m c 0 t) (iblk m c 1 t) (iblk m c 2 t) (iblk m c 3 t) (iblk m c 4 t) (prevAcc m c t) (prevMid m c t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, H5, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (accCoverDownMid c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (nk0 t h0) (njk0 t (by omega)) (hj0 t h2) (nk3 t h3) (iblk m c 0 t) (iblk m c 1 t) (iblk m c 2 t) (iblk m c 3 t) (iblk m c 4 t) (prevAcc m c t) (prevMid m c t))
            · unfold owns; iexists _; isplitr
              swap; · iexact HS1
              ipureintro; exact View.read_writes_of_cover _ _ _ _ _ (midCoverDownMid c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (nk0 t h0) (njk0 t (by omega)) (hj0 t h2) (nk3 t h3) (iblk m c 0 t) (iblk m c 1 t) (iblk m c 2 t) (iblk m c 3 t) (iblk m c 4 t) (prevAcc m c t) (prevMid m c t))
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · have hz : t.val ≠ 0 := by omega
        rw [Dat.leavesExact_idle (dats m 0 c) 5 t (idleAt0_5 t (nk3 t (by omega))) (noFlush0_5 t (nk3 t (by omega)))]
        rw [stAt_pos m c t hz, stepAt_Mid m c t (prevAcc m c t) (prevMid m c t) h0 h3 h2]
        dsimp only
        unfold accMid
        rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩, ⟨%d5, H5⟩⟩
        iapply ((runMid c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (nk0 t h0) (njk0 t (by omega)) (nj0 t h2) (nk3 t h3) (iblk m c 0 t) (iblk m c 1 t) (iblk m c 2 t) (iblk m c 3 t) (iblk m c 4 t) (prevAcc m c t) (prevMid m c t)).2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, H5, ⟨%es0, HS0⟩, HS1⟩
        isplitl [HS0 HS1 Hg]
        · isplitl [HS0 HS1]
          · isplitl [HS0]
            · unfold owns; iexists _; isplitr
              swap; · iexact HS0
              ipureintro; exact View.read_writes_of_cover _ _ _ _ _ (accCoverMid c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (nk0 t h0) (njk0 t (by omega)) (nj0 t h2) (nk3 t h3) (iblk m c 0 t) (iblk m c 1 t) (iblk m c 2 t) (iblk m c 3 t) (iblk m c 4 t) (prevAcc m c t) (prevMid m c t))
            · iexact HS1
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    · iexists _; iexact HS1
  iexact Hg

theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
/-- Every weakly fair execution of @main terminates, and every final state has every array of the launch at what the
    proof data computes and every other unscoped buffer as the host lines after the launch leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to the end, faults nowhere and leaves its seven argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.Kernel.Gen

end
-- ==== Proof.KI.Cases.lean ====
/-
  The grid of the one kernel launch is 4 × 4 × 4: a point t = 16·i + 4·j + k is row-tile i, column-tile j and
  contraction step k (k runs fastest).  The body branches four times on the point:
    * k = 0           : the output-tile accumulator is reset to zero;
    * j = 0 and k = 0 : the rank-128 intermediate accumulator is reset to zero;
    * j = 0           : the intermediate accumulator takes this step's contribution x·ALᵀ;
    * k = 3           : the finished tile (accumulator + bias + ¼·intermediate·BRᵀ) is stored to the output block.
  This module decides each condition over the 64 points in closed form, records where the output window is idle
  (k ≠ 3: nothing stored, nothing written back) and names the memrefs the body is called with.
-/
import proofs.«119846_j73478300500409_2_alg».proof.Proof.Gen.KernelIdeal.Frame
import proofs.«119846_j73478300500409_2_alg».proof.Proof.Gen.KernelIdeal.Skeleton

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The four conditions, in closed form over the points -/

/-- "k = 0", as the body computes it from the coordinates. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- "j = 0 and k = 0". -/
abbrev cond0_1 (i : grid0.Coords) : Prop := (Scalar.cmpi .ne (Scalar.extui (Scalar.andi (Scalar.cmpi .eq (BitVec.ofNat 32 (i 1).val) 0#32) (Scalar.cmpi .eq (BitVec.ofNat 32 (i 2).val) 0#32))) 0#32) = 1#1
theorem hcond0_1 : ∀ t : Fin cfg0.N, cond0_1 (grid0.coords t) ↔ t.val % 16 = 0 :=
  (by decide +kernel : ∀ t : Fin grid0.N, cond0_1 (grid0.coords t) ↔ t.val % 16 = 0)

/-- "j = 0". -/
abbrev cond0_2 (i : grid0.Coords) : Prop := (Scalar.cmpi .ne (Scalar.extui (Scalar.cmpi .eq (BitVec.ofNat 32 (i 1).val) 0#32)) 0#32) = 1#1
theorem hcond0_2 : ∀ t : Fin cfg0.N, cond0_2 (grid0.coords t) ↔ t.val % 16 < 4 :=
  (by decide +kernel : ∀ t : Fin grid0.N, cond0_2 (grid0.coords t) ↔ t.val % 16 < 4)

/-- "k = 3". -/
abbrev cond0_3 (i : grid0.Coords) : Prop := k0_cond4 i = 1#1
theorem hcond0_3 : ∀ t : Fin cfg0.N, cond0_3 (grid0.coords t) ↔ t.val % 4 = 3 :=
  (by decide +kernel : ∀ t : Fin grid0.N, cond0_3 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Off the last contraction step the output block is neither stored into nor written back. -/
theorem idleAt0_5 : ∀ t : Fin cfg0.N, ¬cond0_3 (grid0.coords t) → cfg0.idle 5 (grid0.coords t) = true := by decide +kernel
theorem noFlush0_5 : ∀ t : Fin cfg0.N, ¬cond0_3 (grid0.coords t) → (cfg0.win 5).flush t = false := by decide +kernel
/-- At the last contraction step it is stored whole. -/
theorem liveAt0_5 : ∀ t : Fin cfg0.N, cond0_3 (grid0.coords t) → cfg0.idle 5 (grid0.coords t) = false := by decide +kernel

/-! ## The memrefs the body is called with -/

abbrev ms0_0 (t : Fin cfg0.N) : Memref sig .tc .vmem S2048x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2048x1024 .f32 := win0_5.stage (cfg0.slots t 5)
abbrev hs0_5 (t : Fin cfg0.N) : (ms0_5 t).IsWhole := hstage0_5 ((cfg0.slots t 5).cast nbuf0_5)
/-- The two accumulators: whole scoped buffers of the kernel's own. -/
abbrev scM0_0 : Memref sig .tc .vmem S2048x1024 .f32 := Memref.whole cc0_scratch0
abbrev scM0_1 : Memref sig .tc .vmem S2048x128 .f32 := Memref.whole cc0_scratch1

/-- The region's class invariant, its two accumulators named: each whole at some contents, beside the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Gen

end
-- ==== Proof.KI.RunStart.lean ====
/-
  The body at a point with j = 0 and k = 0 (the first step of a row-tile): both accumulators are reset to zero and then take this step's products, x·Wᵀ into the output-tile accumulator and x·ALᵀ into the intermediate one; the output block is not touched. What either accumulator held before does not matter.
  The statement: on whole memrefs holding the point's input blocks, the body runs to any continuation that is handed
  the inputs back as they were and each buffer it stored into with its stores written; the stores themselves (the
  lists of pieces) are found by running the body.
-/
import proofs.«119846_j73478300500409_2_alg».proof.Proof.KI.Cases

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runStart (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x128 .f32) (harg10 : arg10.IsWhole) (hc0 : cond0_0 i) (hc1 : cond0_1 i) (hc2 : cond0_2 i) (hc3 : ¬cond0_3 i)
    (x0 : Vec F S2048x1024 .bf16) (x1 : Vec F S1024x1024 .bf16) (x2 : Vec F S128x1024 .bf16) (x3 : Vec F S1024x128 .bf16) (x4 : Vec F S1x1024 .f32) :
    Σ' (LS0 : List (View.Piece (Elt F) S2048x1024 .f32)), { LS1 : List (View.Piece (Elt F) S2048x128 .f32) //
      ∀ (xi5 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__kernel i arg3 harg3 arg4 harg4 arg5 harg5 arg6 harg6 arg7 harg7 arg8 harg8 arg9 harg9 arg10 harg10) K } := by
  refine ⟨?_, ?_, fun xi5 E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, %hfs0, HS0⟩, ⟨%ds1, %fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    obtain rfl := harg9.eq_unread hfs0; obtain rfl := harg10.eq_unread hfs1
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]
    · iexists _; iexact HS0
    iexists _; iexact HS1

end Cert.KernelIdeal.Gen

end
-- ==== Proof.KI.RunDownMid.lean ====
/-
  The body at a point with j = 0 and k = 1 or 2: both accumulators take this step's products on top of what the step before left; the output block is not touched.
  The statement: on whole memrefs holding the point's input blocks, the body runs to any continuation that is handed
  the inputs back as they were and each buffer it stored into with its stores written; the stores themselves (the
  lists of pieces) are found by running the body.
-/
import proofs.«119846_j73478300500409_2_alg».proof.Proof.KI.RunStart

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runDownMid (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x128 .f32) (harg10 : arg10.IsWhole) (hc0 : ¬cond0_0 i) (hc1 : ¬cond0_1 i) (hc2 : cond0_2 i) (hc3 : ¬cond0_3 i)
    (x0 : Vec F S2048x1024 .bf16) (x1 : Vec F S1024x1024 .bf16) (x2 : Vec F S128x1024 .bf16) (x3 : Vec F S1024x128 .bf16) (x4 : Vec F S1x1024 .f32) (xs0 : Vec F S2048x1024 .f32) (xs1 : Vec F S2048x128 .f32) :
    Σ' (LS0 : List (View.Piece (Elt F) S2048x1024 .f32)), { LS1 : List (View.Piece (Elt F) S2048x128 .f32) //
      ∀ (xi5 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__kernel i arg3 harg3 arg4 harg4 arg5 harg5 arg6 harg6 arg7 harg7 arg8 harg8 arg9 harg9 arg10 harg10) K } := by
  refine ⟨?_, ?_, fun xi5 E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    obtain rfl := harg9.eq_unread hfs0; obtain rfl := harg10.eq_unread hfs1
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]
    · iexists _; iexact HS0
    iexists _; iexact HS1

end Cert.KernelIdeal.Gen

end
-- ==== Proof.KI.RunDownLast.lean ====
/-
  The body at a point with j = 0 and k = 3: both accumulators take the last step's products, and the finished tile — accumulator + bias + ¼·(intermediate·BRᵀ) — is stored whole into the output block.
  The statement: on whole memrefs holding the point's input blocks, the body runs to any continuation that is handed
  the inputs back as they were and each buffer it stored into with its stores written; the stores themselves (the
  lists of pieces) are found by running the body.
-/
import proofs.«119846_j73478300500409_2_alg».proof.Proof.KI.RunDownMid

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runDownLast (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x128 .f32) (harg10 : arg10.IsWhole) (hc0 : ¬cond0_0 i) (hc1 : ¬cond0_1 i) (hc2 : cond0_2 i) (hc3 : cond0_3 i)
    (x0 : Vec F S2048x1024 .bf16) (x1 : Vec F S1024x1024 .bf16) (x2 : Vec F S128x1024 .bf16) (x3 : Vec F S1024x128 .bf16) (x4 : Vec F S1x1024 .f32) (xs0 : Vec F S2048x1024 .f32) (xs1 : Vec F S2048x128 .f32) :
    Σ' (L5 : List (View.Piece (Elt F) S2048x1024 .f32)), Σ' (LS0 : List (View.Piece (Elt F) S2048x1024 .f32)), { LS1 : List (View.Piece (Elt F) S2048x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__kernel i arg3 harg3 arg4 harg4 arg5 harg5 arg6 harg6 arg7 harg7 arg8 harg8 arg9 harg9 arg10 harg10) K } := by
  refine ⟨?_, ?_, ?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, %hf5, H5⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    obtain rfl := harg9.eq_unread hfs0; obtain rfl := harg10.eq_unread hfs1
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; iexact H5
    isplitl [HS0]
    · iexists _; iexact HS0
    iexists _; iexact HS1

end Cert.KernelIdeal.Gen

end
-- ==== Proof.KI.RunReset.lean ====
/-
  The body at a point with j ≠ 0 and k = 0: the output-tile accumulator is reset and takes this step's product; the intermediate accumulator, complete since the j = 0 sweep, is only kept.
  The statement: on whole memrefs holding the point's input blocks, the body runs to any continuation that is handed
  the inputs back as they were and each buffer it stored into with its stores written; the stores themselves (the
  lists of pieces) are found by running the body.
-/
import proofs.«119846_j73478300500409_2_alg».proof.Proof.KI.RunDownLast

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runReset (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x128 .f32) (harg10 : arg10.IsWhole) (hc0 : cond0_0 i) (hc1 : ¬cond0_1 i) (hc2 : ¬cond0_2 i) (hc3 : ¬cond0_3 i)
    (x0 : Vec F S2048x1024 .bf16) (x1 : Vec F S1024x1024 .bf16) (x2 : Vec F S128x1024 .bf16) (x3 : Vec F S1024x128 .bf16) (x4 : Vec F S1x1024 .f32) (xs1 : Vec F S2048x128 .f32) :
    { LS0 : List (View.Piece (Elt F) S2048x1024 .f32) //
      ∀ (xi5 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d) ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0) ∗ owns (c : Thread nD τ) arg10 fullShare xs1) -∗ K ⟨⟩))
          ⊢ wp frame (wpE (defs₀ (F := F)) Variants.none c none) E (cc0__kernel i arg3 harg3 arg4 harg4 arg5 harg5 arg6 harg6 arg7 harg7 arg8 harg8 arg9 harg9 arg10 harg10) K } := by
  refine ⟨?_, fun xi5 E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    obtain rfl := harg9.eq_unread hfs0; obtain rfl := harg10.eq_unread hfs1
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]
    · iexists _; iexact HS0
    iexists _; isplitr; · ipureintro; exact harg10.read_unread _
    iexact HS1

end Cert.KernelIdeal.Gen

end
-- ==== Proof.KI.RunMid.lean ====
/-
  The body at a point with j ≠ 0 and k = 1 or 2: the output-tile accumulator takes this step's product; the intermediate accumulator is kept.
  The statement: on whole memrefs holding the point's input blocks, the body runs to any continuation that is handed
  the inputs back as they were and each buffer it stored into with its stores written; the stores themselves (the
  lists of pieces) are found by running the body.
-/
import proofs.«119846_j73478300500409_2_alg».proof.Proof.KI.RunReset

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runMid (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x128 .f32) (harg10 : arg10.IsWhole) (hc0 : ¬cond0_0 i) (hc1 : ¬cond0_1 i) (hc2 : ¬cond0_2 i) (hc3 : ¬cond0_3 i)
    (x0 : Vec F S2048x1024 .bf16) (x1 : Vec F S1024x1024 .bf16) (x2 : Vec F S128x1024 .bf16) (x3 : Vec F S1024x128 .bf16) (x4 : Vec F S1x1024 .f32) (xs0 : Vec F S2048x1024 .f32) (xs1 : Vec F S2048x128 .f32) :
    { LS0 : List (View.Piece (Elt F) S2048x1024 .f32) //
      ∀ (xi5 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0) ∗ owns (c : Thread nD τ) arg10 fullShare xs1) -∗ K ⟨⟩))
          ⊢ wp frame (wpE (defs₀ (F := F)) Variants.none c none) E (cc0__kernel i arg3 harg3 arg4 harg4 arg5 harg5 arg6 harg6 arg7 harg7 arg8 harg8 arg9 harg9 arg10 harg10) K } := by
  refine ⟨?_, fun xi5 E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    obtain rfl := harg9.eq_unread hfs0; obtain rfl := harg10.eq_unread hfs1
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]
    · iexists _; iexact HS0
    iexists _; isplitr; · ipureintro; exact harg10.read_unread _
    iexact HS1

end Cert.KernelIdeal.Gen

end
-- ==== Proof.KI.RunLast.lean ====
/-
  The body at a point with j ≠ 0 and k = 3: the output-tile accumulator takes the last step's product, the intermediate accumulator is read, and the finished tile is stored whole into the output block.
  The statement: on whole memrefs holding the point's input blocks, the body runs to any continuation that is handed
  the inputs back as they were and each buffer it stored into with its stores written; the stores themselves (the
  lists of pieces) are found by running the body.
-/
import proofs.«119846_j73478300500409_2_alg».proof.Proof.KI.RunMid

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runLast (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x128 .f32) (harg10 : arg10.IsWhole) (hc0 : ¬cond0_0 i) (hc1 : ¬cond0_1 i) (hc2 : ¬cond0_2 i) (hc3 : cond0_3 i)
    (x0 : Vec F S2048x1024 .bf16) (x1 : Vec F S1024x1024 .bf16) (x2 : Vec F S128x1024 .bf16) (x3 : Vec F S1024x128 .bf16) (x4 : Vec F S1x1024 .f32) (xs0 : Vec F S2048x1024 .f32) (xs1 : Vec F S2048x128 .f32) :
    Σ' (L5 : List (View.Piece (Elt F) S2048x1024 .f32)), { LS0 : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0) ∗ owns (c : Thread nD τ) arg10 fullShare xs1) -∗ K ⟨⟩))
          ⊢ wp frame (wpE (defs₀ (F := F)) Variants.none c none) E (cc0__kernel i arg3 harg3 arg4 harg4 arg5 harg5 arg6 harg6 arg7 harg7 arg8 harg8 arg9 harg9 arg10 harg10) K } := by
  refine ⟨?_, ?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, %hf5, H5⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    obtain rfl := harg9.eq_unread hfs0; obtain rfl := harg10.eq_unread hfs1
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; iexact H5
    isplitl [HS0]
    · iexists _; iexact HS0
    iexists _; isplitr; · ipureintro; exact harg10.read_unread _
    iexact HS1

end Cert.KernelIdeal.Gen

end
-- ==== Proof.KI.Body.lean ====
/-
  The launch's proof data and the body's obligation at every point.

  After the body at point t the two accumulators hold what the point's case leaves in them — the case selected by
  t mod 4 (the contraction step k) and t mod 16 (whether the column-tile j is 0) — computed from the point's input
  blocks and, except after a reset, from what the point before left (`stAt`, by recursion on the point).  The
  region's invariant carries both accumulators at exactly those contents from one point to the next; the output
  block's staging buffer holds the finished tile after the points with k = 3 and is handed back untouched at the others.
-/
import proofs.«119846_j73478300500409_2_alg».proof.Proof.KI.RunLast

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The views through which the buffers' contents are stated. -/
abbrev VO0_5 : View sig .tc .vmem S2048x1024 .f32 := (Memref.whole cc0_stg5_0 : Memref sig .tc .vmem S2048x1024 .f32).view
abbrev VS0_0 : View sig .tc .vmem S2048x1024 .f32 := scM0_0.view
abbrev VS0_1 : View sig .tc .vmem S2048x128 .f32 := scM0_1.view

/-! ### j = 0 and k = 0 (the first step of a row-tile) -/

theorem accCoverStart (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x128 .f32) (harg10 : arg10.IsWhole) (hc0 : cond0_0 i) (hc1 : cond0_1 i) (hc2 : cond0_2 i) (hc3 : ¬cond0_3 i)
    (x0 : Vec F S2048x1024 .bf16) (x1 : Vec F S1024x1024 .bf16) (x2 : Vec F S128x1024 .bf16) (x3 : Vec F S1024x128 .bf16) (x4 : Vec F S1x1024 .f32) (y : S2048x1024.Idx) : ∃ pc ∈ (runStart c i arg3 harg3 arg4 harg4 arg5 harg5 arg6 harg6 arg7 harg7 arg8 harg8 arg9 harg9 arg10 harg10 hc0 hc1 hc2 hc3 x0 x1 x2 x3 x4).1, y ∈ pc.1.set :=
  View.cover_of_tiledL (runStart c i arg3 harg3 arg4 harg4 arg5 harg5 arg6 harg6 arg7 harg7 arg8 harg8 arg9 harg9 arg10 harg10 hc0 hc1 hc2 hc3 x0 x1 x2 x3 x4).1 S2048x1024.size (by sl_kernel_rfl) y
/-- What the output-tile accumulator holds after the body: its stores read back. -/
def accStart (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x128 .f32) (harg10 : arg10.IsWhole) (hc0 : cond0_0 i) (hc1 : cond0_1 i) (hc2 : cond0_2 i) (hc3 : ¬cond0_3 i)
    (x0 : Vec F S2048x1024 .bf16) (x1 : Vec F S1024x1024 .bf16) (x2 : Vec F S128x1024 .bf16) (x3 : Vec F S1024x128 .bf16) (x4 : Vec F S1x1024 .f32) : Vec F S2048x1024 .f32 :=
  VS0_0.read (Elt F) (VS0_0.writes (Elt F) VS0_0.junk (runStart c i arg3 harg3 arg4 harg4 arg5 harg5 arg6 harg6 arg7 harg7 arg8 harg8 arg9 harg9 arg10 harg10 hc0 hc1 hc2 hc3 x0 x1 x2 x3 x4).1)

theorem midCoverStart (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x128 .f32) (harg10 : arg10.IsWhole) (hc0 : cond0_0 i) (hc1 : cond0_1 i) (hc2 : cond0_2 i) (hc3 : ¬cond0_3 i)
    (x0 : Vec F S2048x1024 .bf16) (x1 : Vec F S1024x1024 .bf16) (x2 : Vec F S128x1024 .bf16) (x3 : Vec F S1024x128 .bf16) (x4 : Vec F S1x1024 .f32) (y : S2048x128.Idx) : ∃ pc ∈ (runStart c i arg3 harg3 arg4 harg4 arg5 harg5 arg6 harg6 arg7 harg7 arg8 harg8 arg9 harg9 arg10 harg10 hc0 hc1 hc2 hc3 x0 x1 x2 x3 x4).2.1, y ∈ pc.1.set :=
  View.cover_of_tiledL (runStart c i arg3 harg3 arg4 harg4 arg5 harg5 arg6 harg6 arg7 harg7 arg8 harg8 arg9 harg9 arg10 harg10 hc0 hc1 hc2 hc3 x0 x1 x2 x3 x4).2.1 S2048x128.size (by sl_kernel_rfl) y
/-- What the intermediate accumulator holds after the body. -/
def midStart (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x128 .f32) (harg10 : arg10.IsWhole) (hc0 : cond0_0 i) (hc1 : cond0_1 i) (hc2 : cond0_2 i) (hc3 : ¬cond0_3 i)
    (x0 : Vec F S2048x1024 .bf16) (x1 : Vec F S1024x1024 .bf16) (x2 : Vec F S128x1024 .bf16) (x3 : Vec F S1024x128 .bf16) (x4 : Vec F S1x1024 .f32) : Vec F S2048x128 .f32 :=
  VS0_1.read (Elt F) (VS0_1.writes (Elt F) VS0_1.junk (runStart c i arg3 harg3 arg4 harg4 arg5 harg5 arg6 harg6 arg7 harg7 arg8 harg8 arg9 harg9 arg10 harg10 hc0 hc1 hc2 hc3 x0 x1 x2 x3 x4).2.1)

/-! ### j = 0 and k = 1 or 2 -/

theorem accCoverDownMid (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x128 .f32) (harg10 : arg10.IsWhole) (hc0 : ¬cond0_0 i) (hc1 : ¬cond0_1 i) (hc2 : cond0_2 i) (hc3 : ¬cond0_3 i)
    (x0 : Vec F S2048x1024 .bf16) (x1 : Vec F S1024x1024 .bf16) (x2 : Vec F S128x1024 .bf16) (x3 : Vec F S1024x128 .bf16) (x4 : Vec F S1x1024 .f32) (xs0 : Vec F S2048x1024 .f32) (xs1 : Vec F S2048x128 .f32) (y : S2048x1024.Idx) : ∃ pc ∈ (runDownMid c i arg3 harg3 arg4 harg4 arg5 harg5 arg6 harg6 arg7 harg7 arg8 harg8 arg9 harg9 arg10 harg10 hc0 hc1 hc2 hc3 x0 x1 x2 x3 x4 xs0 xs1).1, y ∈ pc.1.set :=
  View.cover_of_tiledL (runDownMid c i arg3 harg3 arg4 harg4 arg5 harg5 arg6 harg6 arg7 harg7 arg8 harg8 arg9 harg9 arg10 harg10 hc0 hc1 hc2 hc3 x0 x1 x2 x3 x4 xs0 xs1).1 S2048x1024.size (by sl_kernel_rfl) y
/-- What the output-tile accumulator holds after the body: its stores read back. -/
def accDownMid (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x128 .f32) (harg10 : arg10.IsWhole) (hc0 : ¬cond0_0 i) (hc1 : ¬cond0_1 i) (hc2 : cond0_2 i) (hc3 : ¬cond0_3 i)
    (x0 : Vec F S2048x1024 .bf16) (x1 : Vec F S1024x1024 .bf16) (x2 : Vec F S128x1024 .bf16) (x3 : Vec F S1024x128 .bf16) (x4 : Vec F S1x1024 .f32) (xs0 : Vec F S2048x1024 .f32) (xs1 : Vec F S2048x128 .f32) : Vec F S2048x1024 .f32 :=
  VS0_0.read (Elt F) (VS0_0.writes (Elt F) VS0_0.junk (runDownMid c i arg3 harg3 arg4 harg4 arg5 harg5 arg6 harg6 arg7 harg7 arg8 harg8 arg9 harg9 arg10 harg10 hc0 hc1 hc2 hc3 x0 x1 x2 x3 x4 xs0 xs1).1)

theorem midCoverDownMid (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x128 .f32) (harg10 : arg10.IsWhole) (hc0 : ¬cond0_0 i) (hc1 : ¬cond0_1 i) (hc2 : cond0_2 i) (hc3 : ¬cond0_3 i)
    (x0 : Vec F S2048x1024 .bf16) (x1 : Vec F S1024x1024 .bf16) (x2 : Vec F S128x1024 .bf16) (x3 : Vec F S1024x128 .bf16) (x4 : Vec F S1x1024 .f32) (xs0 : Vec F S2048x1024 .f32) (xs1 : Vec F S2048x128 .f32) (y : S2048x128.Idx) : ∃ pc ∈ (runDownMid c i arg3 harg3 arg4 harg4 arg5 harg5 arg6 harg6 arg7 harg7 arg8 harg8 arg9 harg9 arg10 harg10 hc0 hc1 hc2 hc3 x0 x1 x2 x3 x4 xs0 xs1).2.1, y ∈ pc.1.set :=
  View.cover_of_tiledL (runDownMid c i arg3 harg3 arg4 harg4 arg5 harg5 arg6 harg6 arg7 harg7 arg8 harg8 arg9 harg9 arg10 harg10 hc0 hc1 hc2 hc3 x0 x1 x2 x3 x4 xs0 xs1).2.1 S2048x128.size (by sl_kernel_rfl) y
/-- What the intermediate accumulator holds after the body. -/
def midDownMid (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x128 .f32) (harg10 : arg10.IsWhole) (hc0 : ¬cond0_0 i) (hc1 : ¬cond0_1 i) (hc2 : cond0_2 i) (hc3 : ¬cond0_3 i)
    (x0 : Vec F S2048x1024 .bf16) (x1 : Vec F S1024x1024 .bf16) (x2 : Vec F S128x1024 .bf16) (x3 : Vec F S1024x128 .bf16) (x4 : Vec F S1x1024 .f32) (xs0 : Vec F S2048x1024 .f32) (xs1 : Vec F S2048x128 .f32) : Vec F S2048x128 .f32 :=
  VS0_1.read (Elt F) (VS0_1.writes (Elt F) VS0_1.junk (runDownMid c i arg3 harg3 arg4 harg4 arg5 harg5 arg6 harg6 arg7 harg7 arg8 harg8 arg9 harg9 arg10 harg10 hc0 hc1 hc2 hc3 x0 x1 x2 x3 x4 xs0 xs1).2.1)

/-! ### j = 0 and k = 3 -/

theorem accCoverDownLast (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x128 .f32) (harg10 : arg10.IsWhole) (hc0 : ¬cond0_0 i) (hc1 : ¬cond0_1 i) (hc2 : cond0_2 i) (hc3 : cond0_3 i)
    (x0 : Vec F S2048x1024 .bf16) (x1 : Vec F S1024x1024 .bf16) (x2 : Vec F S128x1024 .bf16) (x3 : Vec F S1024x128 .bf16) (x4 : Vec F S1x1024 .f32) (xs0 : Vec F S2048x1024 .f32) (xs1 : Vec F S2048x128 .f32) (y : S2048x1024.Idx) : ∃ pc ∈ (runDownLast c i arg3 harg3 arg4 harg4 arg5 harg5 arg6 harg6 arg7 harg7 arg8 harg8 arg9 harg9 arg10 harg10 hc0 hc1 hc2 hc3 x0 x1 x2 x3 x4 xs0 xs1).2.1, y ∈ pc.1.set :=
  View.cover_of_tiledL (runDownLast c i arg3 harg3 arg4 harg4 arg5 harg5 arg6 harg6 arg7 harg7 arg8 harg8 arg9 harg9 arg10 harg10 hc0 hc1 hc2 hc3 x0 x1 x2 x3 x4 xs0 xs1).2.1 S2048x1024.size (by sl_kernel_rfl) y
/-- What the output-tile accumulator holds after the body: its stores read back. -/
def accDownLast (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x128 .f32) (harg10 : arg10.IsWhole) (hc0 : ¬cond0_0 i) (hc1 : ¬cond0_1 i) (hc2 : cond0_2 i) (hc3 : cond0_3 i)
    (x0 : Vec F S2048x1024 .bf16) (x1 : Vec F S1024x1024 .bf16) (x2 : Vec F S128x1024 .bf16) (x3 : Vec F S1024x128 .bf16) (x4 : Vec F S1x1024 .f32) (xs0 : Vec F S2048x1024 .f32) (xs1 : Vec F S2048x128 .f32) : Vec F S2048x1024 .f32 :=
  VS0_0.read (Elt F) (VS0_0.writes (Elt F) VS0_0.junk (runDownLast c i arg3 harg3 arg4 harg4 arg5 harg5 arg6 harg6 arg7 harg7 arg8 harg8 arg9 harg9 arg10 harg10 hc0 hc1 hc2 hc3 x0 x1 x2 x3 x4 xs0 xs1).2.1)

theorem midCoverDownLast (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x128 .f32) (harg10 : arg10.IsWhole) (hc0 : ¬cond0_0 i) (hc1 : ¬cond0_1 i) (hc2 : cond0_2 i) (hc3 : cond0_3 i)
    (x0 : Vec F S2048x1024 .bf16) (x1 : Vec F S1024x1024 .bf16) (x2 : Vec F S128x1024 .bf16) (x3 : Vec F S1024x128 .bf16) (x4 : Vec F S1x1024 .f32) (xs0 : Vec F S2048x1024 .f32) (xs1 : Vec F S2048x128 .f32) (y : S2048x128.Idx) : ∃ pc ∈ (runDownLast c i arg3 harg3 arg4 harg4 arg5 harg5 arg6 harg6 arg7 harg7 arg8 harg8 arg9 harg9 arg10 harg10 hc0 hc1 hc2 hc3 x0 x1 x2 x3 x4 xs0 xs1).2.2.1, y ∈ pc.1.set :=
  View.cover_of_tiledL (runDownLast c i arg3 harg3 arg4 harg4 arg5 harg5 arg6 harg6 arg7 harg7 arg8 harg8 arg9 harg9 arg10 harg10 hc0 hc1 hc2 hc3 x0 x1 x2 x3 x4 xs0 xs1).2.2.1 S2048x128.size (by sl_kernel_rfl) y
/-- What the intermediate accumulator holds after the body. -/
def midDownLast (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x128 .f32) (harg10 : arg10.IsWhole) (hc0 : ¬cond0_0 i) (hc1 : ¬cond0_1 i) (hc2 : cond0_2 i) (hc3 : cond0_3 i)
    (x0 : Vec F S2048x1024 .bf16) (x1 : Vec F S1024x1024 .bf16) (x2 : Vec F S128x1024 .bf16) (x3 : Vec F S1024x128 .bf16) (x4 : Vec F S1x1024 .f32) (xs0 : Vec F S2048x1024 .f32) (xs1 : Vec F S2048x128 .f32) : Vec F S2048x128 .f32 :=
  VS0_1.read (Elt F) (VS0_1.writes (Elt F) VS0_1.junk (runDownLast c i arg3 harg3 arg4 harg4 arg5 harg5 arg6 harg6 arg7 harg7 arg8 harg8 arg9 harg9 arg10 harg10 hc0 hc1 hc2 hc3 x0 x1 x2 x3 x4 xs0 xs1).2.2.1)

theorem outCoverDownLast (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x128 .f32) (harg10 : arg10.IsWhole) (hc0 : ¬cond0_0 i) (hc1 : ¬cond0_1 i) (hc2 : cond0_2 i) (hc3 : cond0_3 i)
    (x0 : Vec F S2048x1024 .bf16) (x1 : Vec F S1024x1024 .bf16) (x2 : Vec F S128x1024 .bf16) (x3 : Vec F S1024x128 .bf16) (x4 : Vec F S1x1024 .f32) (xs0 : Vec F S2048x1024 .f32) (xs1 : Vec F S2048x128 .f32) (y : S2048x1024.Idx) : ∃ pc ∈ (runDownLast c i arg3 harg3 arg4 harg4 arg5 harg5 arg6 harg6 arg7 harg7 arg8 harg8 arg9 harg9 arg10 harg10 hc0 hc1 hc2 hc3 x0 x1 x2 x3 x4 xs0 xs1).1, y ∈ pc.1.set :=
  View.cover_of_tiledL (runDownLast c i arg3 harg3 arg4 harg4 arg5 harg5 arg6 harg6 arg7 harg7 arg8 harg8 arg9 harg9 arg10 harg10 hc0 hc1 hc2 hc3 x0 x1 x2 x3 x4 xs0 xs1).1 S2048x1024.size (by sl_kernel_rfl) y
/-- What the output block's staging buffer holds after the body. -/
def outDownLast (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x128 .f32) (harg10 : arg10.IsWhole) (hc0 : ¬cond0_0 i) (hc1 : ¬cond0_1 i) (hc2 : cond0_2 i) (hc3 : cond0_3 i)
    (x0 : Vec F S2048x1024 .bf16) (x1 : Vec F S1024x1024 .bf16) (x2 : Vec F S128x1024 .bf16) (x3 : Vec F S1024x128 .bf16) (x4 : Vec F S1x1024 .f32) (xs0 : Vec F S2048x1024 .f32) (xs1 : Vec F S2048x128 .f32) : Vec F S2048x1024 .f32 :=
  VO0_5.read (Elt F) (VO0_5.writes (Elt F) VO0_5.junk (runDownLast c i arg3 harg3 arg4 harg4 arg5 harg5 arg6 harg6 arg7 harg7 arg8 harg8 arg9 harg9 arg10 harg10 hc0 hc1 hc2 hc3 x0 x1 x2 x3 x4 xs0 xs1).1)

/-! ### j ≠ 0 and k = 0 -/

theorem accCoverReset (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x128 .f32) (harg10 : arg10.IsWhole) (hc0 : cond0_0 i) (hc1 : ¬cond0_1 i) (hc2 : ¬cond0_2 i) (hc3 : ¬cond0_3 i)
    (x0 : Vec F S2048x1024 .bf16) (x1 : Vec F S1024x1024 .bf16) (x2 : Vec F S128x1024 .bf16) (x3 : Vec F S1024x128 .bf16) (x4 : Vec F S1x1024 .f32) (xs1 : Vec F S2048x128 .f32) (y : S2048x1024.Idx) : ∃ pc ∈ (runReset c i arg3 harg3 arg4 harg4 arg5 harg5 arg6 harg6 arg7 harg7 arg8 harg8 arg9 harg9 arg10 harg10 hc0 hc1 hc2 hc3 x0 x1 x2 x3 x4 xs1).1, y ∈ pc.1.set :=
  View.cover_of_tiledL (runReset c i arg3 harg3 arg4 harg4 arg5 harg5 arg6 harg6 arg7 harg7 arg8 harg8 arg9 harg9 arg10 harg10 hc0 hc1 hc2 hc3 x0 x1 x2 x3 x4 xs1).1 S2048x1024.size (by sl_kernel_rfl) y
/-- What the output-tile accumulator holds after the body: its stores read back. -/
def accReset (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x128 .f32) (harg10 : arg10.IsWhole) (hc0 : cond0_0 i) (hc1 : ¬cond0_1 i) (hc2 : ¬cond0_2 i) (hc3 : ¬cond0_3 i)
    (x0 : Vec F S2048x1024 .bf16) (x1 : Vec F S1024x1024 .bf16) (x2 : Vec F S128x1024 .bf16) (x3 : Vec F S1024x128 .bf16) (x4 : Vec F S1x1024 .f32) (xs1 : Vec F S2048x128 .f32) : Vec F S2048x1024 .f32 :=
  VS0_0.read (Elt F) (VS0_0.writes (Elt F) VS0_0.junk (runReset c i arg3 harg3 arg4 harg4 arg5 harg5 arg6 harg6 arg7 harg7 arg8 harg8 arg9 harg9 arg10 harg10 hc0 hc1 hc2 hc3 x0 x1 x2 x3 x4 xs1).1)

/-! ### j ≠ 0 and k = 1 or 2 -/

theorem accCoverMid (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x128 .f32) (harg10 : arg10.IsWhole) (hc0 : ¬cond0_0 i) (hc1 : ¬cond0_1 i) (hc2 : ¬cond0_2 i) (hc3 : ¬cond0_3 i)
    (x0 : Vec F S2048x1024 .bf16) (x1 : Vec F S1024x1024 .bf16) (x2 : Vec F S128x1024 .bf16) (x3 : Vec F S1024x128 .bf16) (x4 : Vec F S1x1024 .f32) (xs0 : Vec F S2048x1024 .f32) (xs1 : Vec F S2048x128 .f32) (y : S2048x1024.Idx) : ∃ pc ∈ (runMid c i arg3 harg3 arg4 harg4 arg5 harg5 arg6 harg6 arg7 harg7 arg8 harg8 arg9 harg9 arg10 harg10 hc0 hc1 hc2 hc3 x0 x1 x2 x3 x4 xs0 xs1).1, y ∈ pc.1.set :=
  View.cover_of_tiledL (runMid c i arg3 harg3 arg4 harg4 arg5 harg5 arg6 harg6 arg7 harg7 arg8 harg8 arg9 harg9 arg10 harg10 hc0 hc1 hc2 hc3 x0 x1 x2 x3 x4 xs0 xs1).1 S2048x1024.size (by sl_kernel_rfl) y
/-- What the output-tile accumulator holds after the body: its stores read back. -/
def accMid (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x128 .f32) (harg10 : arg10.IsWhole) (hc0 : ¬cond0_0 i) (hc1 : ¬cond0_1 i) (hc2 : ¬cond0_2 i) (hc3 : ¬cond0_3 i)
    (x0 : Vec F S2048x1024 .bf16) (x1 : Vec F S1024x1024 .bf16) (x2 : Vec F S128x1024 .bf16) (x3 : Vec F S1024x128 .bf16) (x4 : Vec F S1x1024 .f32) (xs0 : Vec F S2048x1024 .f32) (xs1 : Vec F S2048x128 .f32) : Vec F S2048x1024 .f32 :=
  VS0_0.read (Elt F) (VS0_0.writes (Elt F) VS0_0.junk (runMid c i arg3 harg3 arg4 harg4 arg5 harg5 arg6 harg6 arg7 harg7 arg8 harg8 arg9 harg9 arg10 harg10 hc0 hc1 hc2 hc3 x0 x1 x2 x3 x4 xs0 xs1).1)

/-! ### j ≠ 0 and k = 3 -/

theorem accCoverLast (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x128 .f32) (harg10 : arg10.IsWhole) (hc0 : ¬cond0_0 i) (hc1 : ¬cond0_1 i) (hc2 : ¬cond0_2 i) (hc3 : cond0_3 i)
    (x0 : Vec F S2048x1024 .bf16) (x1 : Vec F S1024x1024 .bf16) (x2 : Vec F S128x1024 .bf16) (x3 : Vec F S1024x128 .bf16) (x4 : Vec F S1x1024 .f32) (xs0 : Vec F S2048x1024 .f32) (xs1 : Vec F S2048x128 .f32) (y : S2048x1024.Idx) : ∃ pc ∈ (runLast c i arg3 harg3 arg4 harg4 arg5 harg5 arg6 harg6 arg7 harg7 arg8 harg8 arg9 harg9 arg10 harg10 hc0 hc1 hc2 hc3 x0 x1 x2 x3 x4 xs0 xs1).2.1, y ∈ pc.1.set :=
  View.cover_of_tiledL (runLast c i arg3 harg3 arg4 harg4 arg5 harg5 arg6 harg6 arg7 harg7 arg8 harg8 arg9 harg9 arg10 harg10 hc0 hc1 hc2 hc3 x0 x1 x2 x3 x4 xs0 xs1).2.1 S2048x1024.size (by sl_kernel_rfl) y
/-- What the output-tile accumulator holds after the body: its stores read back. -/
def accLast (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x128 .f32) (harg10 : arg10.IsWhole) (hc0 : ¬cond0_0 i) (hc1 : ¬cond0_1 i) (hc2 : ¬cond0_2 i) (hc3 : cond0_3 i)
    (x0 : Vec F S2048x1024 .bf16) (x1 : Vec F S1024x1024 .bf16) (x2 : Vec F S128x1024 .bf16) (x3 : Vec F S1024x128 .bf16) (x4 : Vec F S1x1024 .f32) (xs0 : Vec F S2048x1024 .f32) (xs1 : Vec F S2048x128 .f32) : Vec F S2048x1024 .f32 :=
  VS0_0.read (Elt F) (VS0_0.writes (Elt F) VS0_0.junk (runLast c i arg3 harg3 arg4 harg4 arg5 harg5 arg6 harg6 arg7 harg7 arg8 harg8 arg9 harg9 arg10 harg10 hc0 hc1 hc2 hc3 x0 x1 x2 x3 x4 xs0 xs1).2.1)

theorem outCoverLast (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x128 .f32) (harg10 : arg10.IsWhole) (hc0 : ¬cond0_0 i) (hc1 : ¬cond0_1 i) (hc2 : ¬cond0_2 i) (hc3 : cond0_3 i)
    (x0 : Vec F S2048x1024 .bf16) (x1 : Vec F S1024x1024 .bf16) (x2 : Vec F S128x1024 .bf16) (x3 : Vec F S1024x128 .bf16) (x4 : Vec F S1x1024 .f32) (xs0 : Vec F S2048x1024 .f32) (xs1 : Vec F S2048x128 .f32) (y : S2048x1024.Idx) : ∃ pc ∈ (runLast c i arg3 harg3 arg4 harg4 arg5 harg5 arg6 harg6 arg7 harg7 arg8 harg8 arg9 harg9 arg10 harg10 hc0 hc1 hc2 hc3 x0 x1 x2 x3 x4 xs0 xs1).1, y ∈ pc.1.set :=
  View.cover_of_tiledL (runLast c i arg3 harg3 arg4 harg4 arg5 harg5 arg6 harg6 arg7 harg7 arg8 harg8 arg9 harg9 arg10 harg10 hc0 hc1 hc2 hc3 x0 x1 x2 x3 x4 xs0 xs1).1 S2048x1024.size (by sl_kernel_rfl) y
/-- What the output block's staging buffer holds after the body. -/
def outLast (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x128 .f32) (harg10 : arg10.IsWhole) (hc0 : ¬cond0_0 i) (hc1 : ¬cond0_1 i) (hc2 : ¬cond0_2 i) (hc3 : cond0_3 i)
    (x0 : Vec F S2048x1024 .bf16) (x1 : Vec F S1024x1024 .bf16) (x2 : Vec F S128x1024 .bf16) (x3 : Vec F S1024x128 .bf16) (x4 : Vec F S1x1024 .f32) (xs0 : Vec F S2048x1024 .f32) (xs1 : Vec F S2048x128 .f32) : Vec F S2048x1024 .f32 :=
  VO0_5.read (Elt F) (VO0_5.writes (Elt F) VO0_5.junk (runLast c i arg3 harg3 arg4 harg4 arg5 harg5 arg6 harg6 arg7 harg7 arg8 harg8 arg9 harg9 arg10 harg10 hc0 hc1 hc2 hc3 x0 x1 x2 x3 x4 xs0 xs1).1)

/-! ## The conditions at a point, from its number -/

theorem hk0 (t : Fin cfg0.N) (h : t.val % 4 = 0) : cond0_0 (grid0.coords t) := (hcond0_0 t).mpr h
theorem nk0 (t : Fin cfg0.N) (h : ¬t.val % 4 = 0) : ¬cond0_0 (grid0.coords t) := fun h' => h ((hcond0_0 t).mp h')
theorem hjk0 (t : Fin cfg0.N) (h : t.val % 16 = 0) : cond0_1 (grid0.coords t) := (hcond0_1 t).mpr h
theorem njk0 (t : Fin cfg0.N) (h : ¬t.val % 16 = 0) : ¬cond0_1 (grid0.coords t) := fun h' => h ((hcond0_1 t).mp h')
theorem hj0 (t : Fin cfg0.N) (h : t.val % 16 < 4) : cond0_2 (grid0.coords t) := (hcond0_2 t).mpr h
theorem nj0 (t : Fin cfg0.N) (h : ¬t.val % 16 < 4) : ¬cond0_2 (grid0.coords t) := fun h' => h ((hcond0_2 t).mp h')
theorem hk3 (t : Fin cfg0.N) (h : t.val % 4 = 3) : cond0_3 (grid0.coords t) := (hcond0_3 t).mpr h
theorem nk3 (t : Fin cfg0.N) (h : ¬t.val % 4 = 3) : ¬cond0_3 (grid0.coords t) := fun h' => h ((hcond0_3 t).mp h')

/-! ## What the buffers hold after each point -/

/-- One point: from what the two accumulators held (`pa`, `pb`), what the output block's buffer and the two
    accumulators hold after the body at `t` — the case read off the point's number. Where the case stores nothing
    into the output block the first component is a placeholder nothing consults. -/
def stepAt (c : Dev nD) (t : Fin cfg0.N) (pa : Vec F S2048x1024 .f32) (pb : Vec F S2048x128 .f32) :
    Vec F S2048x1024 .f32 × Vec F S2048x1024 .f32 × Vec F S2048x128 .f32 :=
  if h0 : t.val % 4 = 0 then
    if h1 : t.val % 16 = 0 then (VO0_5.read (Elt F) VO0_5.junk, accStart c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (hk0 t h0) (hjk0 t h1) (hj0 t (by omega)) (nk3 t (by omega)) (iblk m c 0 t) (iblk m c 1 t) (iblk m c 2 t) (iblk m c 3 t) (iblk m c 4 t), midStart c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (hk0 t h0) (hjk0 t h1) (hj0 t (by omega)) (nk3 t (by omega)) (iblk m c 0 t) (iblk m c 1 t) (iblk m c 2 t) (iblk m c 3 t) (iblk m c 4 t))
    else (VO0_5.read (Elt F) VO0_5.junk, accReset c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (hk0 t h0) (njk0 t h1) (nj0 t (by omega)) (nk3 t (by omega)) (iblk m c 0 t) (iblk m c 1 t) (iblk m c 2 t) (iblk m c 3 t) (iblk m c 4 t) pb, pb)
  else if h3 : t.val % 4 = 3 then
    if h2 : t.val % 16 < 4 then (outDownLast c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (nk0 t h0) (njk0 t (by omega)) (hj0 t h2) (hk3 t h3) (iblk m c 0 t) (iblk m c 1 t) (iblk m c 2 t) (iblk m c 3 t) (iblk m c 4 t) pa pb, accDownLast c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (nk0 t h0) (njk0 t (by omega)) (hj0 t h2) (hk3 t h3) (iblk m c 0 t) (iblk m c 1 t) (iblk m c 2 t) (iblk m c 3 t) (iblk m c 4 t) pa pb, midDownLast c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (nk0 t h0) (njk0 t (by omega)) (hj0 t h2) (hk3 t h3) (iblk m c 0 t) (iblk m c 1 t) (iblk m c 2 t) (iblk m c 3 t) (iblk m c 4 t) pa pb)
    else (outLast c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (nk0 t h0) (njk0 t (by omega)) (nj0 t h2) (hk3 t h3) (iblk m c 0 t) (iblk m c 1 t) (iblk m c 2 t) (iblk m c 3 t) (iblk m c 4 t) pa pb, accLast c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (nk0 t h0) (njk0 t (by omega)) (nj0 t h2) (hk3 t h3) (iblk m c 0 t) (iblk m c 1 t) (iblk m c 2 t) (iblk m c 3 t) (iblk m c 4 t) pa pb, pb)
  else
    if h2 : t.val % 16 < 4 then (VO0_5.read (Elt F) VO0_5.junk, accDownMid c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (nk0 t h0) (njk0 t (by omega)) (hj0 t h2) (nk3 t h3) (iblk m c 0 t) (iblk m c 1 t) (iblk m c 2 t) (iblk m c 3 t) (iblk m c 4 t) pa pb, midDownMid c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (nk0 t h0) (njk0 t (by omega)) (hj0 t h2) (nk3 t h3) (iblk m c 0 t) (iblk m c 1 t) (iblk m c 2 t) (iblk m c 3 t) (iblk m c 4 t) pa pb)
    else (VO0_5.read (Elt F) VO0_5.junk, accMid c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (nk0 t h0) (njk0 t (by omega)) (nj0 t h2) (nk3 t h3) (iblk m c 0 t) (iblk m c 1 t) (iblk m c 2 t) (iblk m c 3 t) (iblk m c 4 t) pa pb, pb)

theorem stepAt_Start (c : Dev nD) (t : Fin cfg0.N) (pa : Vec F S2048x1024 .f32) (pb : Vec F S2048x128 .f32) (h0 : t.val % 4 = 0) (h1 : t.val % 16 = 0) :
    stepAt m c t pa pb = (VO0_5.read (Elt F) VO0_5.junk, accStart c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (hk0 t h0) (hjk0 t h1) (hj0 t (by omega)) (nk3 t (by omega)) (iblk m c 0 t) (iblk m c 1 t) (iblk m c 2 t) (iblk m c 3 t) (iblk m c 4 t), midStart c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (hk0 t h0) (hjk0 t h1) (hj0 t (by omega)) (nk3 t (by omega)) (iblk m c 0 t) (iblk m c 1 t) (iblk m c 2 t) (iblk m c 3 t) (iblk m c 4 t)) :=
  (dif_pos h0).trans (dif_pos h1)
theorem stepAt_DownMid (c : Dev nD) (t : Fin cfg0.N) (pa : Vec F S2048x1024 .f32) (pb : Vec F S2048x128 .f32) (h0 : ¬t.val % 4 = 0) (h3 : ¬t.val % 4 = 3) (h2 : t.val % 16 < 4) :
    stepAt m c t pa pb = (VO0_5.read (Elt F) VO0_5.junk, accDownMid c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (nk0 t h0) (njk0 t (by omega)) (hj0 t h2) (nk3 t h3) (iblk m c 0 t) (iblk m c 1 t) (iblk m c 2 t) (iblk m c 3 t) (iblk m c 4 t) pa pb, midDownMid c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (nk0 t h0) (njk0 t (by omega)) (hj0 t h2) (nk3 t h3) (iblk m c 0 t) (iblk m c 1 t) (iblk m c 2 t) (iblk m c 3 t) (iblk m c 4 t) pa pb) :=
  (dif_neg h0).trans ((dif_neg h3).trans (dif_pos h2))
theorem stepAt_DownLast (c : Dev nD) (t : Fin cfg0.N) (pa : Vec F S2048x1024 .f32) (pb : Vec F S2048x128 .f32) (h0 : ¬t.val % 4 = 0) (h3 : t.val % 4 = 3) (h2 : t.val % 16 < 4) :
    stepAt m c t pa pb = (outDownLast c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (nk0 t h0) (njk0 t (by omega)) (hj0 t h2) (hk3 t h3) (iblk m c 0 t) (iblk m c 1 t) (iblk m c 2 t) (iblk m c 3 t) (iblk m c 4 t) pa pb, accDownLast c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (nk0 t h0) (njk0 t (by omega)) (hj0 t h2) (hk3 t h3) (iblk m c 0 t) (iblk m c 1 t) (iblk m c 2 t) (iblk m c 3 t) (iblk m c 4 t) pa pb, midDownLast c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (nk0 t h0) (njk0 t (by omega)) (hj0 t h2) (hk3 t h3) (iblk m c 0 t) (iblk m c 1 t) (iblk m c 2 t) (iblk m c 3 t) (iblk m c 4 t) pa pb) :=
  (dif_neg h0).trans ((dif_pos h3).trans (dif_pos h2))
theorem stepAt_Reset (c : Dev nD) (t : Fin cfg0.N) (pa : Vec F S2048x1024 .f32) (pb : Vec F S2048x128 .f32) (h0 : t.val % 4 = 0) (h1 : ¬t.val % 16 = 0) :
    stepAt m c t pa pb = (VO0_5.read (Elt F) VO0_5.junk, accReset c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (hk0 t h0) (njk0 t h1) (nj0 t (by omega)) (nk3 t (by omega)) (iblk m c 0 t) (iblk m c 1 t) (iblk m c 2 t) (iblk m c 3 t) (iblk m c 4 t) pb, pb) :=
  (dif_pos h0).trans (dif_neg h1)
theorem stepAt_Mid (c : Dev nD) (t : Fin cfg0.N) (pa : Vec F S2048x1024 .f32) (pb : Vec F S2048x128 .f32) (h0 : ¬t.val % 4 = 0) (h3 : ¬t.val % 4 = 3) (h2 : ¬t.val % 16 < 4) :
    stepAt m c t pa pb = (VO0_5.read (Elt F) VO0_5.junk, accMid c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (nk0 t h0) (njk0 t (by omega)) (nj0 t h2) (nk3 t h3) (iblk m c 0 t) (iblk m c 1 t) (iblk m c 2 t) (iblk m c 3 t) (iblk m c 4 t) pa pb, pb) :=
  (dif_neg h0).trans ((dif_neg h3).trans (dif_neg h2))
theorem stepAt_Last (c : Dev nD) (t : Fin cfg0.N) (pa : Vec F S2048x1024 .f32) (pb : Vec F S2048x128 .f32) (h0 : ¬t.val % 4 = 0) (h3 : t.val % 4 = 3) (h2 : ¬t.val % 16 < 4) :
    stepAt m c t pa pb = (outLast c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (nk0 t h0) (njk0 t (by omega)) (nj0 t h2) (hk3 t h3) (iblk m c 0 t) (iblk m c 1 t) (iblk m c 2 t) (iblk m c 3 t) (iblk m c 4 t) pa pb, accLast c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (nk0 t h0) (njk0 t (by omega)) (nj0 t h2) (hk3 t h3) (iblk m c 0 t) (iblk m c 1 t) (iblk m c 2 t) (iblk m c 3 t) (iblk m c 4 t) pa pb, pb) :=
  (dif_neg h0).trans ((dif_pos h3).trans (dif_neg h2))

/-- The state after point `n`: the step at `n` from the state after `n - 1` (at the first point from anything:
    its case resets both accumulators). -/
def stAt (c : Dev nD) : (n : ℕ) → n < cfg0.N → Vec F S2048x1024 .f32 × Vec F S2048x1024 .f32 × Vec F S2048x128 .f32
  | 0, hn => stepAt m c ⟨0, hn⟩ (VS0_0.read (Elt F) VS0_0.junk) (VS0_1.read (Elt F) VS0_1.junk)
  | n + 1, hn => stepAt m c ⟨n + 1, hn⟩ (stAt c n (Nat.lt_of_succ_lt hn)).2.1 (stAt c n (Nat.lt_of_succ_lt hn)).2.2

/-- The accumulators as the point before `t` left them. -/
abbrev prevAcc (c : Dev nD) (t : Fin cfg0.N) : Vec F S2048x1024 .f32 := (stAt m c (t.val - 1) (Nat.lt_of_le_of_lt (Nat.sub_le _ _) t.isLt)).2.1
abbrev prevMid (c : Dev nD) (t : Fin cfg0.N) : Vec F S2048x128 .f32 := (stAt m c (t.val - 1) (Nat.lt_of_le_of_lt (Nat.sub_le _ _) t.isLt)).2.2

theorem stAt_zero (c : Dev nD) (t : Fin cfg0.N) (hz : t.val = 0) :
    stAt m c t.val t.isLt = stepAt m c t (VS0_0.read (Elt F) VS0_0.junk) (VS0_1.read (Elt F) VS0_1.junk) := by
  obtain ⟨n, hn⟩ := t
  cases n with
  | zero => rfl
  | succ n => exact absurd hz (Nat.succ_ne_zero n)

theorem stAt_pos (c : Dev nD) (t : Fin cfg0.N) (hz : t.val ≠ 0) :
    stAt m c t.val t.isLt = stepAt m c t (prevAcc m c t) (prevMid m c t) := by
  obtain ⟨n, hn⟩ := t
  cases n with
  | zero => exact absurd rfl hz
  | succ n => rfl

/-- The region's invariant before position `n`: before the first point the class's (both accumulators at anything);
    afterwards each accumulator at what the point before left, beside the generator register. -/
def PhiS (c : Dev nD) : (n : ℕ) → n ≤ cfg0.N → sProp 𝕄
  | 0, _ => Pipeline.ΦA spec0 c
  | n + 1, hn => iprop(iprop(owns (c : Thread nD τ) scM0_0 fullShare ((stAt m c n hn).2.1) ∗ owns (c : Thread nD τ) scM0_1 fullShare ((stAt m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((stAt m c n hn).2.1) ∗ owns (c : Thread nD τ) scM0_1 fullShare ((stAt m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((stAt m c (n - 1) (by omega)).2.1) ∗ owns (c : Thread nD τ) scM0_1 fullShare ((stAt m c (n - 1) (by omega)).2.2)) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (stAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (stAt m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- The body at any point: the inputs' buffers hold their blocks; the point's number says which case it is in; the
    invariant hands the body both accumulators at what the point before left (at anything before the first point) and
    takes them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  have hN : t.val < 64 := lt_of_lt_of_eq t.isLt (show cfg0.N = 64 from N_0)
  by_cases h0 : t.val % 4 = 0
  · by_cases h1 : t.val % 16 = 0
    · by_cases hz : t.val = 0
      · rw [Dat.leavesExact_idle (dats m 0 c) 5 t (idleAt0_5 t (nk3 t (by omega))) (noFlush0_5 t (nk3 t (by omega)))]
        rw [stAt_zero m c t hz, stepAt_Start m c t (VS0_0.read (Elt F) VS0_0.junk) (VS0_1.read (Elt F) VS0_1.junk) h0 h1]
        dsimp only
        unfold accStart midStart
        rw [PhiS_castSucc m c t, PhiS_zero m c _ _ hz, PhiA0_eq]
        iintro ⟨⟨⟨HS0, HS1⟩, Hg⟩, Ho, ⟨%d0, H0⟩, ⟨%d1, H1⟩, ⟨%d2, H2⟩, ⟨%d3, H3⟩, ⟨%d4, H4⟩, ⟨%d5, H5⟩⟩
        iapply ((runStart c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (hk0 t h0) (hjk0 t h1) (hj0 t (by omega)) (nk3 t (by omega)) (iblk m c 0 t) (iblk m c 1 t) (iblk m c 2 t) (iblk m c 3 t) (iblk m c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, H5, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (accCoverStart c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (hk0 t h0) (hjk0 t h1) (hj0 t (by omega)) (nk3 t (by omega)) (iblk m c 0 t) (iblk m c 1 t) (iblk m c 2 t) (iblk m c 3 t) (iblk m c 4 t))
            · unfold owns; iexists _; isplitr
              swap; · iexact HS1
              ipureintro; exact View.read_writes_of_cover _ _ _ _ _ (midCoverStart c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (hk0 t h0) (hjk0 t h1) (hj0 t (by omega)) (nk3 t (by omega)) (iblk m c 0 t) (iblk m c 1 t) (iblk m c 2 t) (iblk m c 3 t) (iblk m c 4 t))
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [Dat.leavesExact_idle (dats m 0 c) 5 t (idleAt0_5 t (nk3 t (by omega))) (noFlush0_5 t (nk3 t (by omega)))]
        rw [stAt_pos m c t hz, stepAt_Start m c t (prevAcc m c t) (prevMid m c t) h0 h1]
        dsimp only
        unfold accStart midStart
        rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩, ⟨%d5, H5⟩⟩
        iapply ((runStart c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (hk0 t h0) (hjk0 t h1) (hj0 t (by omega)) (nk3 t (by omega)) (iblk m c 0 t) (iblk m c 1 t) (iblk m c 2 t) (iblk m c 3 t) (iblk m c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        isplitl [HS1]; · iexists _; iexact HS1
        iintro ⟨H0, H1, H2, H3, H4, H5, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (accCoverStart c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (hk0 t h0) (hjk0 t h1) (hj0 t (by omega)) (nk3 t (by omega)) (iblk m c 0 t) (iblk m c 1 t) (iblk m c 2 t) (iblk m c 3 t) (iblk m c 4 t))
            · unfold owns; iexists _; isplitr
              swap; · iexact HS1
              ipureintro; exact View.read_writes_of_cover _ _ _ _ _ (midCoverStart c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (hk0 t h0) (hjk0 t h1) (hj0 t (by omega)) (nk3 t (by omega)) (iblk m c 0 t) (iblk m c 1 t) (iblk m c 2 t) (iblk m c 3 t) (iblk m c 4 t))
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
    · have hz : t.val ≠ 0 := by omega
      rw [Dat.leavesExact_idle (dats m 0 c) 5 t (idleAt0_5 t (nk3 t (by omega))) (noFlush0_5 t (nk3 t (by omega)))]
      rw [stAt_pos m c t hz, stepAt_Reset m c t (prevAcc m c t) (prevMid m c t) h0 h1]
      dsimp only
      unfold accReset
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((runReset c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (hk0 t h0) (njk0 t h1) (nj0 t (by omega)) (nk3 t (by omega)) (iblk m c 0 t) (iblk m c 1 t) (iblk m c 2 t) (iblk m c 3 t) (iblk m c 4 t) (prevMid m c t)).2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexact HS1
      iintro ⟨H0, H1, H2, H3, H4, H5, ⟨%es0, HS0⟩, HS1⟩
      isplitl [HS0 HS1 Hg]
      · isplitl [HS0 HS1]
        · isplitl [HS0]
          · unfold owns; iexists _; isplitr
            swap; · iexact HS0
            ipureintro; exact View.read_writes_of_cover _ _ _ _ _ (accCoverReset c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (hk0 t h0) (njk0 t h1) (nj0 t (by omega)) (nk3 t (by omega)) (iblk m c 0 t) (iblk m c 1 t) (iblk m c 2 t) (iblk m c 3 t) (iblk m c 4 t) (prevMid m c t))
          · iexact HS1
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · by_cases h3 : t.val % 4 = 3
    · by_cases h2 : t.val % 16 < 4
      · have hz : t.val ≠ 0 := by omega
        rw [show (dats m 0 c).leavesExact 5 t = owns (c : Thread nD τ) (ms0_5 t) fullShare ((dats m 0 c).after 5 t) from by
          unfold Dat.leavesExact; rw [liveAt0_5 t (hk3 t h3)], after0_5]
        rw [stAt_pos m c t hz, stepAt_DownLast m c t (prevAcc m c t) (prevMid m c t) h0 h3 h2]
        dsimp only
        unfold accDownLast midDownLast outDownLast
        rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩, ⟨%d5, H5⟩⟩
        iapply ((runDownLast c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (nk0 t h0) (njk0 t (by omega)) (hj0 t h2) (hk3 t h3) (iblk m c 0 t) (iblk m c 1 t) (iblk m c 2 t) (iblk m c 3 t) (iblk m c 4 t) (prevAcc m c t) (prevMid m c t)).2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        iintro ⟨H0, H1, H2, H3, H4, ⟨%e5, H5⟩, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (accCoverDownLast c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (nk0 t h0) (njk0 t (by omega)) (hj0 t h2) (hk3 t h3) (iblk m c 0 t) (iblk m c 1 t) (iblk m c 2 t) (iblk m c 3 t) (iblk m c 4 t) (prevAcc m c t) (prevMid m c t))
            · unfold owns; iexists _; isplitr
              swap; · iexact HS1
              ipureintro; exact View.read_writes_of_cover _ _ _ _ _ (midCoverDownLast c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (nk0 t h0) (njk0 t (by omega)) (hj0 t h2) (hk3 t h3) (iblk m c 0 t) (iblk m c 1 t) (iblk m c 2 t) (iblk m c 3 t) (iblk m c 4 t) (prevAcc m c t) (prevMid m c t))
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (outCoverDownLast c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (nk0 t h0) (njk0 t (by omega)) (hj0 t h2) (hk3 t h3) (iblk m c 0 t) (iblk m c 1 t) (iblk m c 2 t) (iblk m c 3 t) (iblk m c 4 t) (prevAcc m c t) (prevMid m c t))
      · have hz : t.val ≠ 0 := by omega
        rw [show (dats m 0 c).leavesExact 5 t = owns (c : Thread nD τ) (ms0_5 t) fullShare ((dats m 0 c).after 5 t) from by
          unfold Dat.leavesExact; rw [liveAt0_5 t (hk3 t h3)], after0_5]
        rw [stAt_pos m c t hz, stepAt_Last m c t (prevAcc m c t) (prevMid m c t) h0 h3 h2]
        dsimp only
        unfold accLast outLast
        rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩, ⟨%d5, H5⟩⟩
        iapply ((runLast c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (nk0 t h0) (njk0 t (by omega)) (nj0 t h2) (hk3 t h3) (iblk m c 0 t) (iblk m c 1 t) (iblk m c 2 t) (iblk m c 3 t) (iblk m c 4 t) (prevAcc m c t) (prevMid m c t)).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        iintro ⟨H0, H1, H2, H3, H4, ⟨%e5, H5⟩, ⟨%es0, HS0⟩, HS1⟩
        isplitl [HS0 HS1 Hg]
        · isplitl [HS0 HS1]
          · isplitl [HS0]
            · unfold owns; iexists _; isplitr
              swap; · iexact HS0
              ipureintro; exact View.read_writes_of_cover _ _ _ _ _ (accCoverLast c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (nk0 t h0) (njk0 t (by omega)) (nj0 t h2) (hk3 t h3) (iblk m c 0 t) (iblk m c 1 t) (iblk m c 2 t) (iblk m c 3 t) (iblk m c 4 t) (prevAcc m c t) (prevMid m c t))
            · iexact HS1
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (outCoverLast c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (nk0 t h0) (njk0 t (by omega)) (nj0 t h2) (hk3 t h3) (iblk m c 0 t) (iblk m c 1 t) (iblk m c 2 t) (iblk m c 3 t) (iblk m c 4 t) (prevAcc m c t) (prevMid m c t))
    · by_cases h2 : t.val % 16 < 4
      · have hz : t.val ≠ 0 := by omega
        rw [Dat.leavesExact_idle (dats m 0 c) 5 t (idleAt0_5 t (nk3 t (by omega))) (noFlush0_5 t (nk3 t (by omega)))]
        rw [stAt_pos m c t hz, stepAt_DownMid m c t (prevAcc m c t) (prevMid m c t) h0 h3 h2]
        dsimp only
        unfold accDownMid midDownMid
        rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩, ⟨%d5, H5⟩⟩
        iapply ((runDownMid c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (nk0 t h0) (njk0 t (by omega)) (hj0 t h2) (nk3 t h3) (iblk m c 0 t) (iblk m c 1 t) (iblk m c 2 t) (iblk m c 3 t) (iblk m c 4 t) (prevAcc m c t) (prevMid m c t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, H5, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (accCoverDownMid c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (nk0 t h0) (njk0 t (by omega)) (hj0 t h2) (nk3 t h3) (iblk m c 0 t) (iblk m c 1 t) (iblk m c 2 t) (iblk m c 3 t) (iblk m c 4 t) (prevAcc m c t) (prevMid m c t))
            · unfold owns; iexists _; isplitr
              swap; · iexact HS1
              ipureintro; exact View.read_writes_of_cover _ _ _ _ _ (midCoverDownMid c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (nk0 t h0) (njk0 t (by omega)) (hj0 t h2) (nk3 t h3) (iblk m c 0 t) (iblk m c 1 t) (iblk m c 2 t) (iblk m c 3 t) (iblk m c 4 t) (prevAcc m c t) (prevMid m c t))
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · have hz : t.val ≠ 0 := by omega
        rw [Dat.leavesExact_idle (dats m 0 c) 5 t (idleAt0_5 t (nk3 t (by omega))) (noFlush0_5 t (nk3 t (by omega)))]
        rw [stAt_pos m c t hz, stepAt_Mid m c t (prevAcc m c t) (prevMid m c t) h0 h3 h2]
        dsimp only
        unfold accMid
        rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩, ⟨%d5, H5⟩⟩
        iapply ((runMid c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (nk0 t h0) (njk0 t (by omega)) (nj0 t h2) (nk3 t h3) (iblk m c 0 t) (iblk m c 1 t) (iblk m c 2 t) (iblk m c 3 t) (iblk m c 4 t) (prevAcc m c t) (prevMid m c t)).2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, H5, ⟨%es0, HS0⟩, HS1⟩
        isplitl [HS0 HS1 Hg]
        · isplitl [HS0 HS1]
          · isplitl [HS0]
            · unfold owns; iexists _; isplitr
              swap; · iexact HS0
              ipureintro; exact View.read_writes_of_cover _ _ _ _ _ (accCoverMid c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (nk0 t h0) (njk0 t (by omega)) (nj0 t h2) (nk3 t h3) (iblk m c 0 t) (iblk m c 1 t) (iblk m c 2 t) (iblk m c 3 t) (iblk m c 4 t) (prevAcc m c t) (prevMid m c t))
            · iexact HS1
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    · iexists _; iexact HS1
  iexact Hg

theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
/-- Every weakly fair execution of @main terminates, and every final state has every array of the launch at what the
    proof data computes and every other unscoped buffer as the host lines after the launch leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to the end, faults nowhere and leaves its seven argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.KernelIdeal.Gen

end
-- ==== Proof.Spec.lean ====
/-
  The two arrangements of one low-rank-adapted linear layer, entry by entry over the extended reals.

  Data: x[b,s,i] (4×2048×4096), a base weight W[o,i] and bias b[o], and two pairs of low-rank factors
  A, WL : [64,4096] and B, WR : [4096,64].  Both programs compute

      y[b,s,o] = (Σ_i x[b,s,i]·W[o,i] + b[o]) + low[b,s,o] · ¼ .

  The kernel forms the summed factors first, padded with zero rows/columns from rank 64 to 128,
      low = Σ_{r<128} (Σ_i x[b,s,i]·(A+WL)[r,i]) · (B+WR)[o,r]                         (`kernelForm`),
  the reference keeps the four products apart,
      low = Σ_{r<64} (Σ_i x·A[r,i] + Σ_i x·WL[r,i])·B[o,r] + Σ_{r<64} (same)·WR[o,r]   (`referenceForm`).
  They agree when every entry is a real number (distributivity fails at ±∞).
  This module imports no program: it is the common target both sides are proved against.
-/
import Idealize.ShloMosaic.PureOps.Ideal
import Idealize.ShloMosaic.Lib.ValueIdx

noncomputable section

open scoped BigOperators

namespace Cert.LowRankSpec

open Idealize.ShloMosaic Idealize.ShloMosaic.ValueIdx

/-- The index types of the seven arguments and of the result, by literal extents. -/
abbrev XIdx : Type := (⟨3, ![4, 2048, 4096]⟩ : Shape).Idx
abbrev WIdx : Type := (⟨2, ![4096, 4096]⟩ : Shape).Idx
abbrev BiasIdx : Type := (⟨1, ![4096]⟩ : Shape).Idx
abbrev DownIdx : Type := (⟨2, ![64, 4096]⟩ : Shape).Idx
abbrev UpIdx : Type := (⟨2, ![4096, 64]⟩ : Shape).Idx

/-- The scale lora_alpha / r = 16/64, as the f32 word both programs carry. -/
abbrev quarter : EReal := Ideal.ofBits .f32 0x3E800000#32

/-- Row `r` of the summed down-projection A + WL, zero for the padding rows 64 ≤ r < 128. -/
def downSum (A WL : DownIdx → EReal) (r : Fin 128) (i : Fin 4096) : EReal :=
  if h : r.val < 64 then A (ix2 ⟨r.val, h⟩ i) + WL (ix2 ⟨r.val, h⟩ i) else 0

/-- Column `r` of the summed up-projection B + WR, zero for the padding columns 64 ≤ r < 128. -/
def upSum (B WR : UpIdx → EReal) (o : Fin 4096) (r : Fin 128) : EReal :=
  if h : r.val < 64 then B (ix2 o ⟨r.val, h⟩) + WR (ix2 o ⟨r.val, h⟩) else 0

/-- The base linear layer's entry: Σ_i x[b,s,i]·W[o,i] + b[o]. -/
def base (x : XIdx → EReal) (W : WIdx → EReal) (b : BiasIdx → EReal) (p : Fin 4) (s : Fin 2048) (o : Fin 4096) : EReal :=
  (∑ i : Fin 4096, x (ix3 p s i) * W (ix2 o i)) + b (ix1 o)

/-- The kernel's arrangement: factors summed and padded first. -/
def kernelForm (x : XIdx → EReal) (W : WIdx → EReal) (b : BiasIdx → EReal) (A : DownIdx → EReal) (B : UpIdx → EReal)
    (WL : DownIdx → EReal) (WR : UpIdx → EReal) : XIdx → EReal := fun j =>
  base x W b (j 0) (j 1) (j 2)
    + (∑ r : Fin 128, (∑ i : Fin 4096, x (ix3 (j 0) (j 1) i) * downSum A WL r i) * upSum B WR (j 2) r) * quarter

/-- The rank-64 intermediate of the reference: Σ_i x·A[r,i] + Σ_i x·WL[r,i]. -/
def mid (x : XIdx → EReal) (A WL : DownIdx → EReal) (p : Fin 4) (s : Fin 2048) (r : Fin 64) : EReal :=
  (∑ i : Fin 4096, x (ix3 p s i) * A (ix2 r i)) + (∑ i : Fin 4096, x (ix3 p s i) * WL (ix2 r i))

/-- The reference's arrangement: four products kept apart. -/
def referenceForm (x : XIdx → EReal) (W : WIdx → EReal) (b : BiasIdx → EReal) (A : DownIdx → EReal) (B : UpIdx → EReal)
    (WL : DownIdx → EReal) (WR : UpIdx → EReal) : XIdx → EReal := fun j =>
  base x W b (j 0) (j 1) (j 2)
    + ((∑ r : Fin 64, mid x A WL (j 0) (j 1) r * B (ix2 (j 2) r))
        + (∑ r : Fin 64, mid x A WL (j 0) (j 1) r * WR (ix2 (j 2) r))) * quarter

end Cert.LowRankSpec

end
-- ==== Proof.RefValue.lean ====
/-
  The reference program's result, entry by entry, is the arrangement `referenceForm` of the common
  specification: the base product plus bias, plus the two rank-64 products of the shared intermediate
  (Σ_i x·A + Σ_i x·WL) with B and with WR, added and scaled by ¼.

  Each contraction is read as a finite sum over its one contracted coordinate; each index function the
  reading produces is identified with the coordinate constructors `ix1`/`ix2`/`ix3`; both broadcasts
  read their operand at the last coordinate (the bias) or at the empty index (the scalar ¼).
-/
import proofs.«119846_j73478300500409_2_alg».proof.Proof.Gen.ReferenceIdeal.Read
import proofs.«119846_j73478300500409_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx
open Cert.LowRankSpec

/-! The index functions of the five contractions and the two bias broadcasts, by coordinates. -/

theorem lidx_v0 (p : Fin 4) (s : Fin 2048) (o k : Fin 4096) : lidx_main_v0 (ix3 p s o) k = ix3 p s k :=
  funext fun a => Fin.ext (by match a with | ⟨0, _⟩ => rfl | ⟨1, _⟩ => rfl | ⟨2, _⟩ => rfl)
theorem ridx_v0 (p : Fin 4) (s : Fin 2048) (o k : Fin 4096) : ridx_main_v0 (ix3 p s o) k = ix2 o k :=
  funext fun a => Fin.ext (by match a with | ⟨0, _⟩ => rfl | ⟨1, _⟩ => rfl)
theorem lidx_v4 (p : Fin 4) (s : Fin 2048) (r : Fin 64) (k : Fin 4096) : lidx_main_v4 (ix3 p s r) k = ix3 p s k :=
  funext fun a => Fin.ext (by match a with | ⟨0, _⟩ => rfl | ⟨1, _⟩ => rfl | ⟨2, _⟩ => rfl)
theorem ridx_v4 (p : Fin 4) (s : Fin 2048) (r : Fin 64) (k : Fin 4096) : ridx_main_v4 (ix3 p s r) k = ix2 r k :=
  funext fun a => Fin.ext (by match a with | ⟨0, _⟩ => rfl | ⟨1, _⟩ => rfl)
theorem lidx_v5 (p : Fin 4) (s : Fin 2048) (r : Fin 64) (k : Fin 4096) : lidx_main_v5 (ix3 p s r) k = ix3 p s k :=
  funext fun a => Fin.ext (by match a with | ⟨0, _⟩ => rfl | ⟨1, _⟩ => rfl | ⟨2, _⟩ => rfl)
theorem ridx_v5 (p : Fin 4) (s : Fin 2048) (r : Fin 64) (k : Fin 4096) : ridx_main_v5 (ix3 p s r) k = ix2 r k :=
  funext fun a => Fin.ext (by match a with | ⟨0, _⟩ => rfl | ⟨1, _⟩ => rfl)
theorem lidx_v7 (p : Fin 4) (s : Fin 2048) (o : Fin 4096) (k : Fin 64) : lidx_main_v7 (ix3 p s o) k = ix3 p s k :=
  funext fun a => Fin.ext (by match a with | ⟨0, _⟩ => rfl | ⟨1, _⟩ => rfl | ⟨2, _⟩ => rfl)
theorem ridx_v7 (p : Fin 4) (s : Fin 2048) (o : Fin 4096) (k : Fin 64) : ridx_main_v7 (ix3 p s o) k = ix2 o k :=
  funext fun a => Fin.ext (by match a with | ⟨0, _⟩ => rfl | ⟨1, _⟩ => rfl)
theorem lidx_v8 (p : Fin 4) (s : Fin 2048) (o : Fin 4096) (k : Fin 64) : lidx_main_v8 (ix3 p s o) k = ix3 p s k :=
  funext fun a => Fin.ext (by match a with | ⟨0, _⟩ => rfl | ⟨1, _⟩ => rfl | ⟨2, _⟩ => rfl)
theorem ridx_v8 (p : Fin 4) (s : Fin 2048) (o : Fin 4096) (k : Fin 64) : ridx_main_v8 (ix3 p s o) k = ix2 o k :=
  funext fun a => Fin.ext (by match a with | ⟨0, _⟩ => rfl | ⟨1, _⟩ => rfl)
theorem idx_v21 (p : Fin 4) (s : Fin 2048) (o : Fin 4096) : idx_main_v1 (idx_main_v2 (ix3 p s o)) = ix1 o :=
  funext fun a => Fin.ext (by match a with | ⟨0, _⟩ => rfl)

/-- The reference's result term is `referenceForm` of its seven arguments. -/
theorem reference_eq (x : FVec Ideal S4x2048x4096 .f32) (W : FVec Ideal S4096x4096 .f32) (b : FVec Ideal S4096 .f32)
    (A : FVec Ideal S64x4096 .f32) (B : FVec Ideal S4096x64 .f32) (WL : FVec Ideal S64x4096 .f32)
    (WR : FVec Ideal S4096x64 .f32) :
    addf (addf (Host.dotGeneral dot_S4x2048x4096_S4096x4096_S4x2048x4096_2_1_01_0_n_n none x W) (broadcastInDim S4x2048x4096 ![0, 1, 2] bcast_S1x1x4096_S4x2048x4096_0_1_2 (broadcastInDim S1x1x4096 ![2] bcast_S4096_S1x1x4096_2 b))) (mulf (addf (Host.dotGeneral dot_S4x2048x64_S4096x64_S4x2048x4096_2_1_01_0_n_n none (addf (Host.dotGeneral dot_S4x2048x4096_S64x4096_S4x2048x64_2_1_01_0_n_n none x A) (Host.dotGeneral dot_S4x2048x4096_S64x4096_S4x2048x64_2_1_01_0_n_n none x WL)) B) (Host.dotGeneral dot_S4x2048x64_S4096x64_S4x2048x4096_2_1_01_0_n_n none (addf (Host.dotGeneral dot_S4x2048x4096_S64x4096_S4x2048x64_2_1_01_0_n_n none x A) (Host.dotGeneral dot_S4x2048x4096_S64x4096_S4x2048x64_2_1_01_0_n_n none x WL)) WR)) (broadcastInDim S4x2048x4096 ![] bcast_S_S4x2048x4096 (constant S_ .f32 0x3E800000#32)))
      = Cert.LowRankSpec.referenceForm x W b A B WL WR := by
  rw [val_main_v12_eq (F := Ideal) x W b A B WL WR]
  funext j
  obtain ⟨p, s, o, rfl⟩ : ∃ p s o, j = ix3 p s o := ⟨j 0, j 1, j 2, eq_ix3 j⟩
  rw [val_main_v12_apply, val_main_v3_apply, val_main_v0_apply, val_main_v2_apply, val_main_v1_apply,
    val_main_v11_apply, val_main_v9_apply, val_main_v7_apply, val_main_v8_apply, val_main_v10_apply,
    val_main_cst_apply]
  simp only [val_main_v6_apply, val_main_v4_apply, val_main_v5_apply, lidx_v0, ridx_v0, lidx_v4, ridx_v4,
    lidx_v5, ridx_v5, lidx_v7, ridx_v7, lidx_v8, ridx_v8, idx_v21]
  unfold referenceForm base mid
  rfl

end Cert.ReferenceIdeal.RefValue

end
-- ==== Proof.LibRealArrays.lean ====
/-
  Arrays of real numbers among the extended reals: general lemmas, none about a particular program.

  At the ideal float instance an array entry is an extended real.  Laws that need finiteness (distributivity,
  cancelling) are applied to arrays all of whose entries are real numbers; this file says how such arrays arise and
  what they are closed under.

  * `IsReal f`: every entry of `f` is (the coercion of) a real number.
  * `coe_sum`, `IsReal.sum`: a finite sum of reals taken in the extended reals is the coercion of the real sum; a
    finite sum of entries of a real array is real.
  * `IsReal.broadcastInDim`, `IsReal.gather`, `IsReal.mulf`: an array read through an index map (a broadcast, a
    gather) has only entries of the array it reads, and a pointwise product of real arrays is real.
  * `scatterAdd_isReal`: a host scatter-add of real updates into an array of zeros is real (each entry is zero plus a
    finite sum of updates), whatever the scatter indices.
  * `real_var`: over the reals, the mean of the squares minus the squared mean is the mean of the squared deviations
    from the mean (for `N` the number of terms, nonzero).
  * `inf_bits`, `real_of_abs_lt`, `isReal_of_all`: the f32 word `0x7F800000` is +∞; an extended real whose absolute
    value `max x (-x)` compares below it is a real number; an array whose "every |entry| is below +∞" bit (the
    and-reduction over all axes of the pointwise comparison) is 1 is an array of reals.
-/
import Idealize.ShloMosaic.PureOps.Ideal
import Idealize.ShloMosaic.PureOps.Ideal.Laws
import Idealize.ShloMosaic.PureOps.Vector
import Idealize.ShloMosaic.PureOps.Contract
import Idealize.ShloMosaic.Lib.ReduceAll

noncomputable section

open scoped BigOperators

namespace Cert.RealArrays

open Idealize.ShloMosaic

/-! ## Real arrays and finite sums -/

/-- Every entry is a real number (neither infinity). -/
def IsReal {ι : Type} (f : ι → EReal) : Prop := ∀ i, ∃ r : ℝ, f i = (r : EReal)

/-- A finite sum of real numbers, taken in the extended reals, is the real sum. -/
theorem coe_sum {ι : Type} (s : Finset ι) (g : ι → ℝ) : (∑ i ∈ s, ((g i : ℝ) : EReal)) = ((∑ i ∈ s, g i : ℝ) : EReal) := by
  classical
  induction s using Finset.induction_on with
  | empty => simp
  | insert a s ha ih => rw [Finset.sum_insert ha, Finset.sum_insert ha, ih, EReal.coe_add]

/-- A finite sum of entries of an array of reals is real. -/
theorem IsReal.sum {ι : Type} {f : ι → EReal} (hf : IsReal f) (s : Finset ι) : ∃ r : ℝ, (∑ i ∈ s, f i) = (r : EReal) := by
  choose g hg using hf
  exact ⟨∑ i ∈ s, g i, by rw [← coe_sum]; exact Finset.sum_congr rfl fun i _ => hg i⟩

/-! ## Reading through an index map, and products -/

/-- A broadcast of a real array is real: every entry of the result is an entry of the operand. -/
theorem IsReal.broadcastInDim {s t : Shape} {x : s.Idx → EReal} (hx : IsReal x) (dims : Fin s.rank → Fin t.rank)
    (h : s.BroadcastsInDim t dims) : IsReal (broadcastInDim t dims h x) :=
  fun _ => hx _

/-- A gather from a real array is real: every entry of the result is an entry of the operand. -/
theorem IsReal.gather {s si t : Shape} {w : ℕ} {x : s.Idx → EReal} (hx : IsReal x) (d : GatherDims s si t)
    (idx : IVec si w) : IsReal (Host.gather d x idx) :=
  fun _ => hx _

/-- A pointwise product of two real arrays is real. -/
theorem IsReal.mulf {s : Shape} {a b : FVec Ideal s .f32} (ha : IsReal a) (hb : IsReal b) : IsReal (mulf (F := Ideal) a b) := by
  intro i
  obtain ⟨p, hp⟩ := ha i
  obtain ⟨q, hq⟩ := hb i
  exact ⟨p * q, by show (a i : EReal) * b i = _; rw [hp, hq, EReal.coe_mul]⟩

/-! ## Scatter-add -/

/-- A scatter-add into an array of zeros of an array of reals is an array of reals: every entry is zero plus a finite
    sum of updates. -/
theorem scatterAdd_isReal {s si u : Shape} {w : ℕ} (d : ScatterDims s si u) (x : FVec Ideal s .f32) (idx : IVec si w)
    (upd : FVec Ideal u .f32) (hx : ∀ i, x i = 0) (hu : IsReal upd) :
    IsReal (Host.scatterAdd (F := Ideal) d x idx upd) := by
  intro i
  show ∃ r : ℝ, x i + (∑ j ∈ _, upd j) = (r : EReal)
  rw [hx i, zero_add]
  exact hu.sum _

/-! ## The two forms of the variance, over the reals -/

/-- Over the reals: the mean of the squared deviations is the mean of the squares minus the squared mean. -/
theorem real_var (n : ℕ) (x : Fin n → ℝ) (N : ℝ) (hN : N = n) (h0 : N ≠ 0) :
    (∑ r, x r * x r) * (1 / N) - ((∑ r, x r) * (1 / N)) * ((∑ r, x r) * (1 / N))
      = (∑ r, (x r - (∑ r, x r) * (1 / N)) * (x r - (∑ r, x r) * (1 / N))) * (1 / N) := by
  set S := ∑ r, x r with hS
  set μ := S * (1 / N) with hμ
  have e : (∑ r, (x r - μ) * (x r - μ)) = (∑ r, x r * x r) - 2 * μ * S + (n : ℝ) * (μ * μ) := by
    have : ∀ r, (x r - μ) * (x r - μ) = x r * x r - 2 * μ * x r + μ * μ := fun r => by ring
    simp only [this, Finset.sum_add_distrib, Finset.sum_sub_distrib, ← Finset.mul_sum, Finset.sum_const,
      Finset.card_univ, Fintype.card_fin, nsmul_eq_mul, ← hS]
    ring
  rw [e, ← hN, hμ]
  field_simp
  ring

/-! ## From "every absolute value is below +∞" to real entries -/

/-- The scalar shape has one index. -/
instance : Subsingleton (⟨0, ![]⟩ : Shape).Idx := ⟨fun a b => funext fun d => d.elim0⟩

/-- The word `0x7F800000` is +∞. -/
theorem inf_bits : Ideal.ofBits .f32 0x7F800000#32 = (⊤ : EReal) := by
  simp [Ideal.ofBits, Ideal.ieee]

/-- An extended real whose absolute value compares below +∞ is a real number. -/
theorem real_of_abs_lt (x : EReal) (h : Ideal.cmp .olt (max x (-x)) (Ideal.ofBits .f32 0x7F800000#32) = 1#1) :
    ∃ r : ℝ, x = (r : EReal) := by
  rw [inf_bits] at h
  induction x using EReal.rec with
  | bot => simp [Ideal.cmp] at h
  | coe r => exact ⟨r, rfl⟩
  | top => simp [Ideal.cmp] at h

/-- An array all of whose entries pass "absolute value below +∞" is an array of reals. -/
theorem isReal_of_all {s : Shape} {axes : List (Fin s.rank)} (a : FVec Ideal s .f32)
    (hb : (⟨0, ![]⟩ : Shape).BroadcastsInDim s (![] : Fin 0 → Fin s.rank)) (hred : s.ReducesTo axes (⟨0, ![]⟩ : Shape))
    (hS : 0 < (⟨0, ![]⟩ : Shape).numel) (j : (⟨0, ![]⟩ : Shape).Idx)
    (he : Host.reduce IntOp.andi (cmpf (F := Ideal) .olt (Host.absf a)
          (broadcastInDim s ![] hb (constant (⟨0, ![]⟩ : Shape) .f32 0x7F800000#32)))
        (constantI (⟨0, ![]⟩ : Shape) 1 1#1) hred hS j = 1#1) : IsReal a :=
  fun i => real_of_abs_lt (a i) (Host.reduce_andi_all _ _ hred hS j he i)

end Cert.RealArrays

end
-- ==== Proof.SpecLaw.lean ====
/-
  The two arrangements of the low-rank-adapted linear layer agree on arrays of real numbers.

  Both forms share the base term and the scale, so the claim is
      Σ_{r<128} (Σ_i x·downSum r i)·upSum o r = Σ_{r<64} mid r·B[o,r] + Σ_{r<64} mid r·WR[o,r].
  The padding terms 64 ≤ r < 128 vanish (a sum of x·0, times 0), and for r < 64 the identity is distributivity,
  which holds over the reals: every entry is written as the coercion of a real number, the coercion is pushed
  outside the sums and products, and the identity is closed in the field of real numbers.
-/
import proofs.«119846_j73478300500409_2_alg».proof.Proof.Spec
import proofs.«119846_j73478300500409_2_alg».proof.Proof.LibRealArrays

noncomputable section

open scoped BigOperators

namespace Cert.LowRankSpec

open Idealize.ShloMosaic Idealize.ShloMosaic.ValueIdx

/-- A sum over `Fin n` of a function that vanishes from `m` on is the sum of its first `m` terms. -/
theorem sum_fin_eq_sum_castLE {M : Type*} [AddCommMonoid M] {m n : ℕ} (h : m ≤ n) (f : Fin n → M)
    (hf : ∀ r : Fin n, m ≤ r.val → f r = 0) : ∑ r : Fin n, f r = ∑ r : Fin m, f (Fin.castLE h r) := by
  obtain ⟨k, rfl⟩ := Nat.exists_eq_add_of_le h
  rw [Fin.sum_univ_add]
  have h2 : ∑ i : Fin k, f (Fin.natAdd m i) = 0 :=
    Finset.sum_eq_zero fun i _ => hf _ (by simp [Fin.natAdd])
  rw [h2, add_zero]
  rfl

/-- Below the rank the padded down-projection is the sum of the two factors. -/
theorem downSum_castLE (A WL : DownIdx → EReal) (r : Fin 64) (i : Fin 4096) :
    downSum A WL (Fin.castLE (by norm_num : 64 ≤ 128) r) i = A (ix2 r i) + WL (ix2 r i) := by
  unfold downSum
  rw [dif_pos (show (Fin.castLE (by norm_num : 64 ≤ 128) r).val < 64 from r.isLt)]
  rfl

/-- Below the rank the padded up-projection is the sum of the two factors. -/
theorem upSum_castLE (B WR : UpIdx → EReal) (o : Fin 4096) (r : Fin 64) :
    upSum B WR o (Fin.castLE (by norm_num : 64 ≤ 128) r) = B (ix2 o r) + WR (ix2 o r) := by
  unfold upSum
  rw [dif_pos (show (Fin.castLE (by norm_num : 64 ≤ 128) r).val < 64 from r.isLt)]
  rfl

/-- From the rank on the padded down-projection is zero. -/
theorem downSum_of_le (A WL : DownIdx → EReal) (r : Fin 128) (h : 64 ≤ r.val) (i : Fin 4096) :
    downSum A WL r i = 0 := by
  unfold downSum
  rw [dif_neg (not_lt.mpr h)]

/-- From the rank on the padded up-projection is zero. -/
theorem upSum_of_le (B WR : UpIdx → EReal) (o : Fin 4096) (r : Fin 128) (h : 64 ≤ r.val) :
    upSum B WR o r = 0 := by
  unfold upSum
  rw [dif_neg (not_lt.mpr h)]

/-- Distributivity of one rank term, over the reals. -/
theorem real_term {ι : Type*} (s : Finset ι) (x a l : ι → ℝ) (b w : ℝ) :
    (∑ i ∈ s, x i * (a i + l i)) * (b + w)
      = (∑ i ∈ s, x i * a i + ∑ i ∈ s, x i * l i) * b + (∑ i ∈ s, x i * a i + ∑ i ∈ s, x i * l i) * w := by
  simp only [mul_add, Finset.sum_add_distrib]

/-- The low-rank term of the two arrangements, on arrays of real numbers: the padded sum over 128 ranks of the
    summed factors is the sum over 64 ranks of the four separate products. -/
theorem low_eq (x : XIdx → EReal) (A : DownIdx → EReal) (B : UpIdx → EReal) (WL : DownIdx → EReal) (WR : UpIdx → EReal)
    (hx : ∀ j, ∃ r : ℝ, x j = (r : EReal)) (hA : ∀ j, ∃ r : ℝ, A j = (r : EReal))
    (hB : ∀ j, ∃ r : ℝ, B j = (r : EReal)) (hWL : ∀ j, ∃ r : ℝ, WL j = (r : EReal))
    (hWR : ∀ j, ∃ r : ℝ, WR j = (r : EReal)) (p : Fin 4) (s : Fin 2048) (o : Fin 4096) :
    (∑ r : Fin 128, (∑ i : Fin 4096, x (ix3 p s i) * downSum A WL r i) * upSum B WR o r)
      = (∑ r : Fin 64, mid x A WL p s r * B (ix2 o r)) + (∑ r : Fin 64, mid x A WL p s r * WR (ix2 o r)) := by
  choose xr hxr using hx
  choose Ar hAr using hA
  choose Br hBr using hB
  choose WLr hWLr using hWL
  choose WRr hWRr using hWR
  obtain rfl : x = fun j => ((xr j : ℝ) : EReal) := funext hxr
  obtain rfl : A = fun j => ((Ar j : ℝ) : EReal) := funext hAr
  obtain rfl : B = fun j => ((Br j : ℝ) : EReal) := funext hBr
  obtain rfl : WL = fun j => ((WLr j : ℝ) : EReal) := funext hWLr
  obtain rfl : WR = fun j => ((WRr j : ℝ) : EReal) := funext hWRr
  rw [sum_fin_eq_sum_castLE (by norm_num : 64 ≤ 128) _ (fun r hr => by
    rw [upSum_of_le _ _ _ _ hr, mul_zero]), ← Finset.sum_add_distrib]
  refine Finset.sum_congr rfl fun r _ => ?_
  simp only [downSum_castLE, upSum_castLE, mid, ← EReal.coe_mul, ← EReal.coe_add, Cert.RealArrays.coe_sum]
  exact congrArg _ (real_term _ _ _ _ _ _)

/-- On arrays of real numbers the kernel's arrangement and the reference's arrangement are the same function. -/
theorem kernelForm_eq_referenceForm (x : XIdx → EReal) (W : WIdx → EReal) (b : BiasIdx → EReal)
    (A : DownIdx → EReal) (B : UpIdx → EReal) (WL : DownIdx → EReal) (WR : UpIdx → EReal)
    (hx : ∀ j, ∃ r : ℝ, x j = (r : EReal)) (hA : ∀ j, ∃ r : ℝ, A j = (r : EReal))
    (hB : ∀ j, ∃ r : ℝ, B j = (r : EReal)) (hWL : ∀ j, ∃ r : ℝ, WL j = (r : EReal))
    (hWR : ∀ j, ∃ r : ℝ, WR j = (r : EReal)) :
    kernelForm x W b A B WL WR = referenceForm x W b A B WL WR := by
  funext j
  unfold kernelForm referenceForm
  rw [low_eq x A B WL WR hx hA hB hWL hWR (j 0) (j 1) (j 2)]

end Cert.LowRankSpec

end
-- ==== Proof.Finite.lean ====
/-
  Under the precondition every float input entry is a real number.

  The precondition is the conjunction, over the seven argument arrays, of "every |entry| compares below +∞"
  (an and-reduction over all axes of the pointwise comparison against the word 0x7F800000).  A conjunction of bits
  that is 1 has every conjunct 1; an and-reduction that is 1 has every element 1; and an extended real whose absolute
  value is below +∞ is neither infinity, that is, a real number.
-/
import proofs.«119846_j73478300500409_2_alg».proof.Defs
import proofs.«119846_j73478300500409_2_alg».proof.Proof.Gen.Pre_finite_inputs
import proofs.«119846_j73478300500409_2_alg».proof.Proof.LibRealArrays
import Idealize.ShloMosaic.Lib.ValueIdx

noncomputable section

namespace Cert.Proof.Finite

open Idealize.ShloMosaic Idealize.SL.Sem Cert.RealArrays Cert.Pre_finite_inputs

/-- The printed predicate, on any seven arrays of extended reals: if its bit is 1, every array is an array of reals. -/
theorem real_of_fn (a0 : FVec Ideal S4x2048x4096 .f32) (a1 : FVec Ideal S4096x4096 .f32) (a2 : FVec Ideal S4096 .f32)
    (a3 : FVec Ideal S64x4096 .f32) (a4 : FVec Ideal S4096x64 .f32) (a5 : FVec Ideal S64x4096 .f32)
    (a6 : FVec Ideal S4096x64 .f32)
    (h : Cert.Pre_finite_inputs.fn (F := Ideal) a0 a1 a2 a3 a4 a5 a6 = fun _ => 1#1) :
    IsReal a0 ∧ IsReal a1 ∧ IsReal a2 ∧ IsReal a3 ∧ IsReal a4 ∧ IsReal a5 ∧ IsReal a6 := by
  have h0 := congrFun h ValueIdx.ix0
  dsimp only [Cert.Pre_finite_inputs.fn, Cert.Pre_finite_inputs.fn_part1] at h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨isReal_of_all a0 _ _ _ _ e0, isReal_of_all a1 _ _ _ _ e1, isReal_of_all a2 _ _ _ _ e2,
    isReal_of_all a3 _ _ _ _ e3, isReal_of_all a4 _ _ _ _ e4, isReal_of_all a5 _ _ _ _ e5,
    isReal_of_all a6 _ _ _ _ e6⟩

/-- Under the kernel's precondition, on every device, each of the seven argument arrays is an array of reals. -/
theorem real_of_pre (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ j, ∃ r : ℝ, m ((c.tc : Thread Cert.KernelIdeal.nD Cert.KernelIdeal.τ).loc Cert.KernelIdeal.main_arg0) j = (r : EReal))
    ∧ (∀ j, ∃ r : ℝ, m ((c.tc : Thread Cert.KernelIdeal.nD Cert.KernelIdeal.τ).loc Cert.KernelIdeal.main_arg1) j = (r : EReal))
    ∧ (∀ j, ∃ r : ℝ, m ((c.tc : Thread Cert.KernelIdeal.nD Cert.KernelIdeal.τ).loc Cert.KernelIdeal.main_arg2) j = (r : EReal))
    ∧ (∀ j, ∃ r : ℝ, m ((c.tc : Thread Cert.KernelIdeal.nD Cert.KernelIdeal.τ).loc Cert.KernelIdeal.main_arg3) j = (r : EReal))
    ∧ (∀ j, ∃ r : ℝ, m ((c.tc : Thread Cert.KernelIdeal.nD Cert.KernelIdeal.τ).loc Cert.KernelIdeal.main_arg4) j = (r : EReal))
    ∧ (∀ j, ∃ r : ℝ, m ((c.tc : Thread Cert.KernelIdeal.nD Cert.KernelIdeal.τ).loc Cert.KernelIdeal.main_arg5) j = (r : EReal))
    ∧ (∀ j, ∃ r : ℝ, m ((c.tc : Thread Cert.KernelIdeal.nD Cert.KernelIdeal.τ).loc Cert.KernelIdeal.main_arg6) j = (r : EReal)) :=
  real_of_fn _ _ _ _ _ _ _ (hpre c)

end Cert.Proof.Finite

end
-- ==== Proof.KI.CaseValues.lean ====
/-
  What each case of the body leaves in the buffers it stores into, as a term of the point's input blocks and of what
  the accumulators held: every store covers its whole buffer, so what is read back is the last store's value, and a
  load that follows a store in the same point reads that store's value.
    reset, then accumulate :  0-block, then  previous + x·Wᵀ  (the product into a zero accumulator)
    finished tile          :  (accumulator + bias row) + (intermediate·BRᵀ)·¼
-/
import proofs.«119846_j73478300500409_2_alg».proof.Proof.KI.Body
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

theorem accStart_eq (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x128 .f32) (harg10 : arg10.IsWhole) (hc0 : cond0_0 i) (hc1 : cond0_1 i) (hc2 : cond0_2 i) (hc3 : ¬cond0_3 i)
    (x0 : Vec F S2048x1024 .bf16) (x1 : Vec F S1024x1024 .bf16) (x2 : Vec F S128x1024 .bf16) (x3 : Vec F S1024x128 .bf16) (x4 : Vec F S1x1024 .f32) :
    accStart c i arg3 harg3 arg4 harg4 arg5 harg5 arg6 harg6 arg7 harg7 arg8 harg8 arg9 harg9 arg10 harg10 hc0 hc1 hc2 hc3 x0 x1 x2 x3 x4 = k0_pay4 x0 x1 (k0_pay1 (F := F)) := by
  unfold accStart
  rw [View.read_writes_eq_canon _ _ _ (accCoverStart c i arg3 harg3 arg4 harg4 arg5 harg5 arg6 harg6 arg7 harg7 arg8 harg8 arg9 harg9 arg10 harg10 hc0 hc1 hc2 hc3 x0 x1 x2 x3 x4)]
  unfold runStart
  dsimp only
  sl_unfold_words
  rw [View.canon_cons_unit_zero (S := S2048x1024) hz2]
  try rw [View.readCov_unit_zero (S := S2048x1024) _ hz2]
  simp only [View.readAt_eq_ld, harg3.read_unread, harg4.read_unread, harg5.read_unread, harg6.read_unread, harg7.read_unread, harg9.read_unread, harg10.read_unread, View.ld_unit_zero (S := S2048x1024) hz2, View.ld_unit_zero (S := S1024x1024) hz2, View.ld_unit_zero (S := S128x1024) hz2, View.ld_unit_zero (S := S1024x128) hz2, View.ld_unit_zero (S := S1x1024) hz2, View.ld_unit_zero (S := S2048x128) hz2]

theorem midStart_eq (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x128 .f32) (harg10 : arg10.IsWhole) (hc0 : cond0_0 i) (hc1 : cond0_1 i) (hc2 : cond0_2 i) (hc3 : ¬cond0_3 i)
    (x0 : Vec F S2048x1024 .bf16) (x1 : Vec F S1024x1024 .bf16) (x2 : Vec F S128x1024 .bf16) (x3 : Vec F S1024x128 .bf16) (x4 : Vec F S1x1024 .f32) :
    midStart c i arg3 harg3 arg4 harg4 arg5 harg5 arg6 harg6 arg7 harg7 arg8 harg8 arg9 harg9 arg10 harg10 hc0 hc1 hc2 hc3 x0 x1 x2 x3 x4 = k0_pay5 x0 x2 (k0_pay2 (F := F)) := by
  unfold midStart
  rw [View.read_writes_eq_canon _ _ _ (midCoverStart c i arg3 harg3 arg4 harg4 arg5 harg5 arg6 harg6 arg7 harg7 arg8 harg8 arg9 harg9 arg10 harg10 hc0 hc1 hc2 hc3 x0 x1 x2 x3 x4)]
  unfold runStart
  dsimp only
  sl_unfold_words
  rw [View.canon_cons_unit_zero (S := S2048x128) hz2]
  try rw [View.readCov_unit_zero (S := S2048x128) _ hz2]
  simp only [View.readAt_eq_ld, harg3.read_unread, harg4.read_unread, harg5.read_unread, harg6.read_unread, harg7.read_unread, harg9.read_unread, harg10.read_unread, View.ld_unit_zero (S := S2048x1024) hz2, View.ld_unit_zero (S := S1024x1024) hz2, View.ld_unit_zero (S := S128x1024) hz2, View.ld_unit_zero (S := S1024x128) hz2, View.ld_unit_zero (S := S1x1024) hz2, View.ld_unit_zero (S := S2048x128) hz2]

theorem accDownMid_eq (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x128 .f32) (harg10 : arg10.IsWhole) (hc0 : ¬cond0_0 i) (hc1 : ¬cond0_1 i) (hc2 : cond0_2 i) (hc3 : ¬cond0_3 i)
    (x0 : Vec F S2048x1024 .bf16) (x1 : Vec F S1024x1024 .bf16) (x2 : Vec F S128x1024 .bf16) (x3 : Vec F S1024x128 .bf16) (x4 : Vec F S1x1024 .f32) (xs0 : Vec F S2048x1024 .f32) (xs1 : Vec F S2048x128 .f32) :
    accDownMid c i arg3 harg3 arg4 harg4 arg5 harg5 arg6 harg6 arg7 harg7 arg8 harg8 arg9 harg9 arg10 harg10 hc0 hc1 hc2 hc3 x0 x1 x2 x3 x4 xs0 xs1 = k0_pay4 x0 x1 xs0 := by
  unfold accDownMid
  rw [View.read_writes_eq_canon _ _ _ (accCoverDownMid c i arg3 harg3 arg4 harg4 arg5 harg5 arg6 harg6 arg7 harg7 arg8 harg8 arg9 harg9 arg10 harg10 hc0 hc1 hc2 hc3 x0 x1 x2 x3 x4 xs0 xs1)]
  unfold runDownMid
  dsimp only
  sl_unfold_words
  rw [View.canon_cons_unit_zero (S := S2048x1024) hz2]
  try rw [View.readCov_unit_zero (S := S2048x1024) _ hz2]
  simp only [View.readAt_eq_ld, harg3.read_unread, harg4.read_unread, harg5.read_unread, harg6.read_unread, harg7.read_unread, harg9.read_unread, harg10.read_unread, View.ld_unit_zero (S := S2048x1024) hz2, View.ld_unit_zero (S := S1024x1024) hz2, View.ld_unit_zero (S := S128x1024) hz2, View.ld_unit_zero (S := S1024x128) hz2, View.ld_unit_zero (S := S1x1024) hz2, View.ld_unit_zero (S := S2048x128) hz2]

theorem midDownMid_eq (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x128 .f32) (harg10 : arg10.IsWhole) (hc0 : ¬cond0_0 i) (hc1 : ¬cond0_1 i) (hc2 : cond0_2 i) (hc3 : ¬cond0_3 i)
    (x0 : Vec F S2048x1024 .bf16) (x1 : Vec F S1024x1024 .bf16) (x2 : Vec F S128x1024 .bf16) (x3 : Vec F S1024x128 .bf16) (x4 : Vec F S1x1024 .f32) (xs0 : Vec F S2048x1024 .f32) (xs1 : Vec F S2048x128 .f32) :
    midDownMid c i arg3 harg3 arg4 harg4 arg5 harg5 arg6 harg6 arg7 harg7 arg8 harg8 arg9 harg9 arg10 harg10 hc0 hc1 hc2 hc3 x0 x1 x2 x3 x4 xs0 xs1 = k0_pay5 x0 x2 xs1 := by
  unfold midDownMid
  rw [View.read_writes_eq_canon _ _ _ (midCoverDownMid c i arg3 harg3 arg4 harg4 arg5 harg5 arg6 harg6 arg7 harg7 arg8 harg8 arg9 harg9 arg10 harg10 hc0 hc1 hc2 hc3 x0 x1 x2 x3 x4 xs0 xs1)]
  unfold runDownMid
  dsimp only
  sl_unfold_words
  rw [View.canon_cons_unit_zero (S := S2048x128) hz2]
  try rw [View.readCov_unit_zero (S := S2048x128) _ hz2]
  simp only [View.readAt_eq_ld, harg3.read_unread, harg4.read_unread, harg5.read_unread, harg6.read_unread, harg7.read_unread, harg9.read_unread, harg10.read_unread, View.ld_unit_zero (S := S2048x1024) hz2, View.ld_unit_zero (S := S1024x1024) hz2, View.ld_unit_zero (S := S128x1024) hz2, View.ld_unit_zero (S := S1024x128) hz2, View.ld_unit_zero (S := S1x1024) hz2, View.ld_unit_zero (S := S2048x128) hz2]

theorem accDownLast_eq (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x128 .f32) (harg10 : arg10.IsWhole) (hc0 : ¬cond0_0 i) (hc1 : ¬cond0_1 i) (hc2 : cond0_2 i) (hc3 : cond0_3 i)
    (x0 : Vec F S2048x1024 .bf16) (x1 : Vec F S1024x1024 .bf16) (x2 : Vec F S128x1024 .bf16) (x3 : Vec F S1024x128 .bf16) (x4 : Vec F S1x1024 .f32) (xs0 : Vec F S2048x1024 .f32) (xs1 : Vec F S2048x128 .f32) :
    accDownLast c i arg3 harg3 arg4 harg4 arg5 harg5 arg6 harg6 arg7 harg7 arg8 harg8 arg9 harg9 arg10 harg10 hc0 hc1 hc2 hc3 x0 x1 x2 x3 x4 xs0 xs1 = k0_pay4 x0 x1 xs0 := by
  unfold accDownLast
  rw [View.read_writes_eq_canon _ _ _ (accCoverDownLast c i arg3 harg3 arg4 harg4 arg5 harg5 arg6 harg6 arg7 harg7 arg8 harg8 arg9 harg9 arg10 harg10 hc0 hc1 hc2 hc3 x0 x1 x2 x3 x4 xs0 xs1)]
  unfold runDownLast
  dsimp only
  sl_unfold_words
  rw [View.canon_cons_unit_zero (S := S2048x1024) hz2]
  try rw [View.readCov_unit_zero (S := S2048x1024) _ hz2]
  simp only [View.readAt_eq_ld, harg3.read_unread, harg4.read_unread, harg5.read_unread, harg6.read_unread, harg7.read_unread, harg9.read_unread, harg10.read_unread, View.ld_unit_zero (S := S2048x1024) hz2, View.ld_unit_zero (S := S1024x1024) hz2, View.ld_unit_zero (S := S128x1024) hz2, View.ld_unit_zero (S := S1024x128) hz2, View.ld_unit_zero (S := S1x1024) hz2, View.ld_unit_zero (S := S2048x128) hz2]

theorem midDownLast_eq (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x128 .f32) (harg10 : arg10.IsWhole) (hc0 : ¬cond0_0 i) (hc1 : ¬cond0_1 i) (hc2 : cond0_2 i) (hc3 : cond0_3 i)
    (x0 : Vec F S2048x1024 .bf16) (x1 : Vec F S1024x1024 .bf16) (x2 : Vec F S128x1024 .bf16) (x3 : Vec F S1024x128 .bf16) (x4 : Vec F S1x1024 .f32) (xs0 : Vec F S2048x1024 .f32) (xs1 : Vec F S2048x128 .f32) :
    midDownLast c i arg3 harg3 arg4 harg4 arg5 harg5 arg6 harg6 arg7 harg7 arg8 harg8 arg9 harg9 arg10 harg10 hc0 hc1 hc2 hc3 x0 x1 x2 x3 x4 xs0 xs1 = k0_pay5 x0 x2 xs1 := by
  unfold midDownLast
  rw [View.read_writes_eq_canon _ _ _ (midCoverDownLast c i arg3 harg3 arg4 harg4 arg5 harg5 arg6 harg6 arg7 harg7 arg8 harg8 arg9 harg9 arg10 harg10 hc0 hc1 hc2 hc3 x0 x1 x2 x3 x4 xs0 xs1)]
  unfold runDownLast
  dsimp only
  sl_unfold_words
  rw [View.canon_cons_unit_zero (S := S2048x128) hz2]
  try rw [View.readCov_unit_zero (S := S2048x128) _ hz2]
  simp only [View.readAt_eq_ld, harg3.read_unread, harg4.read_unread, harg5.read_unread, harg6.read_unread, harg7.read_unread, harg9.read_unread, harg10.read_unread, View.ld_unit_zero (S := S2048x1024) hz2, View.ld_unit_zero (S := S1024x1024) hz2, View.ld_unit_zero (S := S128x1024) hz2, View.ld_unit_zero (S := S1024x128) hz2, View.ld_unit_zero (S := S1x1024) hz2, View.ld_unit_zero (S := S2048x128) hz2]

theorem outDownLast_eq (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x128 .f32) (harg10 : arg10.IsWhole) (hc0 : ¬cond0_0 i) (hc1 : ¬cond0_1 i) (hc2 : cond0_2 i) (hc3 : cond0_3 i)
    (x0 : Vec F S2048x1024 .bf16) (x1 : Vec F S1024x1024 .bf16) (x2 : Vec F S128x1024 .bf16) (x3 : Vec F S1024x128 .bf16) (x4 : Vec F S1x1024 .f32) (xs0 : Vec F S2048x1024 .f32) (xs1 : Vec F S2048x128 .f32) :
    outDownLast c i arg3 harg3 arg4 harg4 arg5 harg5 arg6 harg6 arg7 harg7 arg8 harg8 arg9 harg9 arg10 harg10 hc0 hc1 hc2 hc3 x0 x1 x2 x3 x4 xs0 xs1 = k0_pay6 x3 (k0_pay5 x0 x2 xs1) (k0_pay4 x0 x1 xs0) x4 := by
  unfold outDownLast
  rw [View.read_writes_eq_canon _ _ _ (outCoverDownLast c i arg3 harg3 arg4 harg4 arg5 harg5 arg6 harg6 arg7 harg7 arg8 harg8 arg9 harg9 arg10 harg10 hc0 hc1 hc2 hc3 x0 x1 x2 x3 x4 xs0 xs1)]
  unfold runDownLast
  dsimp only
  sl_unfold_words
  rw [View.canon_cons_unit_zero (S := S2048x1024) hz2]
  try rw [View.readCov_unit_zero (S := S2048x1024) _ hz2]
  try rw [View.readCov_unit_zero (S := S2048x128) _ hz2]
  simp only [View.readAt_eq_ld, harg3.read_unread, harg4.read_unread, harg5.read_unread, harg6.read_unread, harg7.read_unread, harg9.read_unread, harg10.read_unread, View.ld_unit_zero (S := S2048x1024) hz2, View.ld_unit_zero (S := S1024x1024) hz2, View.ld_unit_zero (S := S128x1024) hz2, View.ld_unit_zero (S := S1024x128) hz2, View.ld_unit_zero (S := S1x1024) hz2, View.ld_unit_zero (S := S2048x128) hz2]

theorem accReset_eq (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x128 .f32) (harg10 : arg10.IsWhole) (hc0 : cond0_0 i) (hc1 : ¬cond0_1 i) (hc2 : ¬cond0_2 i) (hc3 : ¬cond0_3 i)
    (x0 : Vec F S2048x1024 .bf16) (x1 : Vec F S1024x1024 .bf16) (x2 : Vec F S128x1024 .bf16) (x3 : Vec F S1024x128 .bf16) (x4 : Vec F S1x1024 .f32) (xs1 : Vec F S2048x128 .f32) :
    accReset c i arg3 harg3 arg4 harg4 arg5 harg5 arg6 harg6 arg7 harg7 arg8 harg8 arg9 harg9 arg10 harg10 hc0 hc1 hc2 hc3 x0 x1 x2 x3 x4 xs1 = k0_pay4 x0 x1 (k0_pay1 (F := F)) := by
  unfold accReset
  rw [View.read_writes_eq_canon _ _ _ (accCoverReset c i arg3 harg3 arg4 harg4 arg5 harg5 arg6 harg6 arg7 harg7 arg8 harg8 arg9 harg9 arg10 harg10 hc0 hc1 hc2 hc3 x0 x1 x2 x3 x4 xs1)]
  unfold runReset
  dsimp only
  sl_unfold_words
  rw [View.canon_cons_unit_zero (S := S2048x1024) hz2]
  try rw [View.readCov_unit_zero (S := S2048x1024) _ hz2]
  simp only [View.readAt_eq_ld, harg3.read_unread, harg4.read_unread, harg5.read_unread, harg6.read_unread, harg7.read_unread, harg9.read_unread, harg10.read_unread, View.ld_unit_zero (S := S2048x1024) hz2, View.ld_unit_zero (S := S1024x1024) hz2, View.ld_unit_zero (S := S128x1024) hz2, View.ld_unit_zero (S := S1024x128) hz2, View.ld_unit_zero (S := S1x1024) hz2, View.ld_unit_zero (S := S2048x128) hz2]

theorem accMid_eq (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x128 .f32) (harg10 : arg10.IsWhole) (hc0 : ¬cond0_0 i) (hc1 : ¬cond0_1 i) (hc2 : ¬cond0_2 i) (hc3 : ¬cond0_3 i)
    (x0 : Vec F S2048x1024 .bf16) (x1 : Vec F S1024x1024 .bf16) (x2 : Vec F S128x1024 .bf16) (x3 : Vec F S1024x128 .bf16) (x4 : Vec F S1x1024 .f32) (xs0 : Vec F S2048x1024 .f32) (xs1 : Vec F S2048x128 .f32) :
    accMid c i arg3 harg3 arg4 harg4 arg5 harg5 arg6 harg6 arg7 harg7 arg8 harg8 arg9 harg9 arg10 harg10 hc0 hc1 hc2 hc3 x0 x1 x2 x3 x4 xs0 xs1 = k0_pay4 x0 x1 xs0 := by
  unfold accMid
  rw [View.read_writes_eq_canon _ _ _ (accCoverMid c i arg3 harg3 arg4 harg4 arg5 harg5 arg6 harg6 arg7 harg7 arg8 harg8 arg9 harg9 arg10 harg10 hc0 hc1 hc2 hc3 x0 x1 x2 x3 x4 xs0 xs1)]
  unfold runMid
  dsimp only
  sl_unfold_words
  rw [View.canon_cons_unit_zero (S := S2048x1024) hz2]
  try rw [View.readCov_unit_zero (S := S2048x1024) _ hz2]
  simp only [View.readAt_eq_ld, harg3.read_unread, harg4.read_unread, harg5.read_unread, harg6.read_unread, harg7.read_unread, harg9.read_unread, harg10.read_unread, View.ld_unit_zero (S := S2048x1024) hz2, View.ld_unit_zero (S := S1024x1024) hz2, View.ld_unit_zero (S := S128x1024) hz2, View.ld_unit_zero (S := S1024x128) hz2, View.ld_unit_zero (S := S1x1024) hz2, View.ld_unit_zero (S := S2048x128) hz2]

theorem accLast_eq (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x128 .f32) (harg10 : arg10.IsWhole) (hc0 : ¬cond0_0 i) (hc1 : ¬cond0_1 i) (hc2 : ¬cond0_2 i) (hc3 : cond0_3 i)
    (x0 : Vec F S2048x1024 .bf16) (x1 : Vec F S1024x1024 .bf16) (x2 : Vec F S128x1024 .bf16) (x3 : Vec F S1024x128 .bf16) (x4 : Vec F S1x1024 .f32) (xs0 : Vec F S2048x1024 .f32) (xs1 : Vec F S2048x128 .f32) :
    accLast c i arg3 harg3 arg4 harg4 arg5 harg5 arg6 harg6 arg7 harg7 arg8 harg8 arg9 harg9 arg10 harg10 hc0 hc1 hc2 hc3 x0 x1 x2 x3 x4 xs0 xs1 = k0_pay4 x0 x1 xs0 := by
  unfold accLast
  rw [View.read_writes_eq_canon _ _ _ (accCoverLast c i arg3 harg3 arg4 harg4 arg5 harg5 arg6 harg6 arg7 harg7 arg8 harg8 arg9 harg9 arg10 harg10 hc0 hc1 hc2 hc3 x0 x1 x2 x3 x4 xs0 xs1)]
  unfold runLast
  dsimp only
  sl_unfold_words
  rw [View.canon_cons_unit_zero (S := S2048x1024) hz2]
  try rw [View.readCov_unit_zero (S := S2048x1024) _ hz2]
  simp only [View.readAt_eq_ld, harg3.read_unread, harg4.read_unread, harg5.read_unread, harg6.read_unread, harg7.read_unread, harg9.read_unread, harg10.read_unread, View.ld_unit_zero (S := S2048x1024) hz2, View.ld_unit_zero (S := S1024x1024) hz2, View.ld_unit_zero (S := S128x1024) hz2, View.ld_unit_zero (S := S1024x128) hz2, View.ld_unit_zero (S := S1x1024) hz2, View.ld_unit_zero (S := S2048x128) hz2]

theorem outLast_eq (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x128 .f32) (harg10 : arg10.IsWhole) (hc0 : ¬cond0_0 i) (hc1 : ¬cond0_1 i) (hc2 : ¬cond0_2 i) (hc3 : cond0_3 i)
    (x0 : Vec F S2048x1024 .bf16) (x1 : Vec F S1024x1024 .bf16) (x2 : Vec F S128x1024 .bf16) (x3 : Vec F S1024x128 .bf16) (x4 : Vec F S1x1024 .f32) (xs0 : Vec F S2048x1024 .f32) (xs1 : Vec F S2048x128 .f32) :
    outLast c i arg3 harg3 arg4 harg4 arg5 harg5 arg6 harg6 arg7 harg7 arg8 harg8 arg9 harg9 arg10 harg10 hc0 hc1 hc2 hc3 x0 x1 x2 x3 x4 xs0 xs1 = k0_pay6 x3 (xs1) (k0_pay4 x0 x1 xs0) x4 := by
  unfold outLast
  rw [View.read_writes_eq_canon _ _ _ (outCoverLast c i arg3 harg3 arg4 harg4 arg5 harg5 arg6 harg6 arg7 harg7 arg8 harg8 arg9 harg9 arg10 harg10 hc0 hc1 hc2 hc3 x0 x1 x2 x3 x4 xs0 xs1)]
  unfold runLast
  dsimp only
  sl_unfold_words
  rw [View.canon_cons_unit_zero (S := S2048x1024) hz2]
  try rw [View.readCov_unit_zero (S := S2048x1024) _ hz2]
  try rw [View.readCov_unit_zero (S := S2048x128) _ hz2]
  simp only [View.readAt_eq_ld, harg3.read_unread, harg4.read_unread, harg5.read_unread, harg6.read_unread, harg7.read_unread, harg9.read_unread, harg10.read_unread, View.ld_unit_zero (S := S2048x1024) hz2, View.ld_unit_zero (S := S1024x1024) hz2, View.ld_unit_zero (S := S128x1024) hz2, View.ld_unit_zero (S := S1024x128) hz2, View.ld_unit_zero (S := S1x1024) hz2, View.ld_unit_zero (S := S2048x128) hz2]

/-! ## The state after a point, free of cases -/

variable (m : (ℓ : Loc nD τ sig) → Buf (Elt F) ℓ)

/-- The output-tile accumulator after point `t`: this step's product x·Wᵀ on top of zero at k = 0, else on top of what
    the point before left. -/
theorem stAt_acc (c : Dev nD) (t : Fin cfg0.N) :
    (stAt m c t.val t.isLt).2.1 = k0_pay4 (iblk m c 0 t) (iblk m c 1 t) (if t.val % 4 = 0 then k0_pay1 (F := F) else prevAcc m c t) := by
  have hN : t.val < 64 := lt_of_lt_of_eq t.isLt (show cfg0.N = 64 from N_0)
  by_cases hz : t.val = 0
  · have h0 : t.val % 4 = 0 := by omega
    have h1 : t.val % 16 = 0 := by omega
    rw [stAt_zero m c t hz, stepAt_Start m c t _ _ h0 h1, if_pos h0]; dsimp only; rw [accStart_eq]
  · rw [stAt_pos m c t hz]
    by_cases h0 : t.val % 4 = 0
    · rw [if_pos h0]
      by_cases h1 : t.val % 16 = 0
      · rw [stepAt_Start m c t _ _ h0 h1]; dsimp only; rw [accStart_eq]
      · rw [stepAt_Reset m c t _ _ h0 h1]; dsimp only; rw [accReset_eq]
    · rw [if_neg h0]
      by_cases h3 : t.val % 4 = 3
      · by_cases h2 : t.val % 16 < 4
        · rw [stepAt_DownLast m c t _ _ h0 h3 h2]; dsimp only; rw [accDownLast_eq]
        · rw [stepAt_Last m c t _ _ h0 h3 h2]; dsimp only; rw [accLast_eq]
      · by_cases h2 : t.val % 16 < 4
        · rw [stepAt_DownMid m c t _ _ h0 h3 h2]; dsimp only; rw [accDownMid_eq]
        · rw [stepAt_Mid m c t _ _ h0 h3 h2]; dsimp only; rw [accMid_eq]

/-- The intermediate accumulator after point `t`: on the j = 0 sweep this step's product x·ALᵀ on top of zero (k = 0) or of
    what the point before left; off the sweep, kept. -/
theorem stAt_mid (c : Dev nD) (t : Fin cfg0.N) :
    (stAt m c t.val t.isLt).2.2 = if t.val % 16 < 4 then k0_pay5 (iblk m c 0 t) (iblk m c 2 t) (if t.val % 16 = 0 then k0_pay2 (F := F) else prevMid m c t) else prevMid m c t := by
  have hN : t.val < 64 := lt_of_lt_of_eq t.isLt (show cfg0.N = 64 from N_0)
  by_cases hz : t.val = 0
  · have h0 : t.val % 4 = 0 := by omega
    have h1 : t.val % 16 = 0 := by omega
    rw [stAt_zero m c t hz, stepAt_Start m c t _ _ h0 h1, if_pos (by omega : t.val % 16 < 4), if_pos h1]; dsimp only; rw [midStart_eq]
  · rw [stAt_pos m c t hz]
    by_cases h0 : t.val % 4 = 0
    · by_cases h1 : t.val % 16 = 0
      · rw [stepAt_Start m c t _ _ h0 h1, if_pos (by omega : t.val % 16 < 4), if_pos h1]; dsimp only; rw [midStart_eq]
      · rw [stepAt_Reset m c t _ _ h0 h1, if_neg (by omega : ¬t.val % 16 < 4)]
    · by_cases h3 : t.val % 4 = 3
      · by_cases h2 : t.val % 16 < 4
        · rw [stepAt_DownLast m c t _ _ h0 h3 h2, if_pos h2, if_neg (by omega : ¬t.val % 16 = 0)]; dsimp only; rw [midDownLast_eq]
        · rw [stepAt_Last m c t _ _ h0 h3 h2, if_neg h2]
      · by_cases h2 : t.val % 16 < 4
        · rw [stepAt_DownMid m c t _ _ h0 h3 h2, if_pos h2, if_neg (by omega : ¬t.val % 16 = 0)]; dsimp only; rw [midDownMid_eq]
        · rw [stepAt_Mid m c t _ _ h0 h3 h2, if_neg h2]

/-- The output block's buffer after a point with k = 3: the finished tile from this point's accumulators, the
    up-projection block and the bias row. -/
theorem stAt_out (c : Dev nD) (t : Fin cfg0.N) (h3 : t.val % 4 = 3) :
    (stAt m c t.val t.isLt).1 = k0_pay6 (iblk m c 3 t) (stAt m c t.val t.isLt).2.2 (stAt m c t.val t.isLt).2.1 (iblk m c 4 t) := by
  have hN : t.val < 64 := lt_of_lt_of_eq t.isLt (show cfg0.N = 64 from N_0)
  have hz : t.val ≠ 0 := by omega
  have h0 : ¬t.val % 4 = 0 := by omega
  rw [stAt_pos m c t hz]
  by_cases h2 : t.val % 16 < 4
  · rw [stepAt_DownLast m c t _ _ h0 h3 h2]; dsimp only; rw [outDownLast_eq, accDownLast_eq, midDownLast_eq]
  · rw [stepAt_Last m c t _ _ h0 h3 h2]; dsimp only; rw [outLast_eq, accLast_eq]

end Cert.KernelIdeal.Gen

end
-- ==== Proof.PayloadAt.lean ====
/-
  The kernel body's arithmetic, read at one entry.

  The two initial stores write the real number 0 everywhere.  Each of the three accumulating steps is a
  matrix product contracting the last axis of both operands (l · rᵀ) into a zero accumulator, so at
  (p, q) it is Σ_i l[p,i]·r[q,i]; the base and down-projection steps add it to the running array, and the
  final step adds the bias row to the base accumulator and the up-projection product scaled by ¼.
-/
import proofs.«119846_j73478300500409_2_alg».proof.Proof.Gen.KernelIdeal.Skeleton
import proofs.«119846_j73478300500409_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.KValue

open Cert.KernelIdeal Cert.KernelIdeal.Gen Idealize.ShloMosaic Idealize.ShloMosaic.ValueIdx

/-! ## The three products at an entry -/

theorem dotBase_apply_l0 (i : S2048x1024.Idx) (k : dot_S2048x1024_S1024x1024_S2048x1024_1_1_0_0_n_n.contr.Idx) : (dot_S2048x1024_S1024x1024_S2048x1024_1_1_0_0_n_n.lhsIdx i k 0).val = (i 0).val := by
  unfold DotDims.lhsIdx
  rw [dif_neg (show ¬(0 : Fin S2048x1024.rank) ∈ dot_S2048x1024_S1024x1024_S2048x1024_1_1_0_0_n_n.lhsBatch by decide),
    dif_pos (show (0 : Fin S2048x1024.rank) ∈ dot_S2048x1024_S1024x1024_S2048x1024_1_1_0_0_n_n.lhsNonContracting by decide)]
  rfl
theorem dotBase_apply_r0 (i : S2048x1024.Idx) (k : dot_S2048x1024_S1024x1024_S2048x1024_1_1_0_0_n_n.contr.Idx) : (dot_S2048x1024_S1024x1024_S2048x1024_1_1_0_0_n_n.rhsIdx i k 0).val = (i 1).val := by
  unfold DotDims.rhsIdx
  rw [dif_neg (show ¬(0 : Fin S1024x1024.rank) ∈ dot_S2048x1024_S1024x1024_S2048x1024_1_1_0_0_n_n.rhsBatch by decide),
    dif_pos (show (0 : Fin S1024x1024.rank) ∈ dot_S2048x1024_S1024x1024_S2048x1024_1_1_0_0_n_n.rhsNonContracting by decide)]
  rfl
/-- The product 2048x1024 · (1024x1024)ᵀ into the zero accumulator, read at (p, q): Σ_i l[p,i]·r[q,i]. -/
theorem dotBase_apply (l : FVec Ideal S2048x1024 .bf16) (r : FVec Ideal S1024x1024 .bf16) (p : Fin 2048) (q : Fin 1024) :
    matmul dot_S2048x1024_S1024x1024_S2048x1024_1_1_0_0_n_n none l r (constant S2048x1024 .f32 0x00000000#32) (ix2 p q)
      = ∑ i : Fin 1024, l (ix2 p i) * r (ix2 q i) := by
  simp only [matmul]
  rw [Ideal.matmul_constant_zero_apply, ← Equiv.sum_comp (contrEquiv1 dot_S2048x1024_S1024x1024_S2048x1024_1_1_0_0_n_n 1024 rfl rfl).symm]
  refine Finset.sum_congr rfl fun k _ => ?_
  have hk := contrEquiv1_symm_val dot_S2048x1024_S1024x1024_S2048x1024_1_1_0_0_n_n 1024 rfl rfl k
  have el : dot_S2048x1024_S1024x1024_S2048x1024_1_1_0_0_n_n.lhsIdx (ix2 p q) ((contrEquiv1 dot_S2048x1024_S1024x1024_S2048x1024_1_1_0_0_n_n 1024 rfl rfl).symm k) = ix2 p k :=
    funext fun a => Fin.ext (by
      match a with
      | ⟨0, _⟩ => exact dotBase_apply_l0 _ _
      | ⟨1, _⟩ => exact (dot_S2048x1024_S1024x1024_S2048x1024_1_1_0_0_n_n.lhsIdx_val_of_single rfl _ _).trans hk)
  have er : dot_S2048x1024_S1024x1024_S2048x1024_1_1_0_0_n_n.rhsIdx (ix2 p q) ((contrEquiv1 dot_S2048x1024_S1024x1024_S2048x1024_1_1_0_0_n_n 1024 rfl rfl).symm k) = ix2 q k :=
    funext fun a => Fin.ext (by
      match a with
      | ⟨0, _⟩ => exact dotBase_apply_r0 _ _
      | ⟨1, _⟩ => exact (dot_S2048x1024_S1024x1024_S2048x1024_1_1_0_0_n_n.rhsIdx_val_of_single rfl _ _).trans hk)
  rw [el, er]

theorem dotDown_apply_l0 (i : S2048x128.Idx) (k : dot_S2048x1024_S128x1024_S2048x128_1_1_0_0_n_n.contr.Idx) : (dot_S2048x1024_S128x1024_S2048x128_1_1_0_0_n_n.lhsIdx i k 0).val = (i 0).val := by
  unfold DotDims.lhsIdx
  rw [dif_neg (show ¬(0 : Fin S2048x1024.rank) ∈ dot_S2048x1024_S128x1024_S2048x128_1_1_0_0_n_n.lhsBatch by decide),
    dif_pos (show (0 : Fin S2048x1024.rank) ∈ dot_S2048x1024_S128x1024_S2048x128_1_1_0_0_n_n.lhsNonContracting by decide)]
  rfl
theorem dotDown_apply_r0 (i : S2048x128.Idx) (k : dot_S2048x1024_S128x1024_S2048x128_1_1_0_0_n_n.contr.Idx) : (dot_S2048x1024_S128x1024_S2048x128_1_1_0_0_n_n.rhsIdx i k 0).val = (i 1).val := by
  unfold DotDims.rhsIdx
  rw [dif_neg (show ¬(0 : Fin S128x1024.rank) ∈ dot_S2048x1024_S128x1024_S2048x128_1_1_0_0_n_n.rhsBatch by decide),
    dif_pos (show (0 : Fin S128x1024.rank) ∈ dot_S2048x1024_S128x1024_S2048x128_1_1_0_0_n_n.rhsNonContracting by decide)]
  rfl
/-- The product 2048x1024 · (128x1024)ᵀ into the zero accumulator, read at (p, q): Σ_i l[p,i]·r[q,i]. -/
theorem dotDown_apply (l : FVec Ideal S2048x1024 .bf16) (r : FVec Ideal S128x1024 .bf16) (p : Fin 2048) (q : Fin 128) :
    matmul dot_S2048x1024_S128x1024_S2048x128_1_1_0_0_n_n none l r (constant S2048x128 .f32 0x00000000#32) (ix2 p q)
      = ∑ i : Fin 1024, l (ix2 p i) * r (ix2 q i) := by
  simp only [matmul]
  rw [Ideal.matmul_constant_zero_apply, ← Equiv.sum_comp (contrEquiv1 dot_S2048x1024_S128x1024_S2048x128_1_1_0_0_n_n 1024 rfl rfl).symm]
  refine Finset.sum_congr rfl fun k _ => ?_
  have hk := contrEquiv1_symm_val dot_S2048x1024_S128x1024_S2048x128_1_1_0_0_n_n 1024 rfl rfl k
  have el : dot_S2048x1024_S128x1024_S2048x128_1_1_0_0_n_n.lhsIdx (ix2 p q) ((contrEquiv1 dot_S2048x1024_S128x1024_S2048x128_1_1_0_0_n_n 1024 rfl rfl).symm k) = ix2 p k :=
    funext fun a => Fin.ext (by
      match a with
      | ⟨0, _⟩ => exact dotDown_apply_l0 _ _
      | ⟨1, _⟩ => exact (dot_S2048x1024_S128x1024_S2048x128_1_1_0_0_n_n.lhsIdx_val_of_single rfl _ _).trans hk)
  have er : dot_S2048x1024_S128x1024_S2048x128_1_1_0_0_n_n.rhsIdx (ix2 p q) ((contrEquiv1 dot_S2048x1024_S128x1024_S2048x128_1_1_0_0_n_n 1024 rfl rfl).symm k) = ix2 q k :=
    funext fun a => Fin.ext (by
      match a with
      | ⟨0, _⟩ => exact dotDown_apply_r0 _ _
      | ⟨1, _⟩ => exact (dot_S2048x1024_S128x1024_S2048x128_1_1_0_0_n_n.rhsIdx_val_of_single rfl _ _).trans hk)
  rw [el, er]

theorem dotUp_apply_l0 (i : S2048x1024.Idx) (k : dot_S2048x128_S1024x128_S2048x1024_1_1_0_0_n_n.contr.Idx) : (dot_S2048x128_S1024x128_S2048x1024_1_1_0_0_n_n.lhsIdx i k 0).val = (i 0).val := by
  unfold DotDims.lhsIdx
  rw [dif_neg (show ¬(0 : Fin S2048x128.rank) ∈ dot_S2048x128_S1024x128_S2048x1024_1_1_0_0_n_n.lhsBatch by decide),
    dif_pos (show (0 : Fin S2048x128.rank) ∈ dot_S2048x128_S1024x128_S2048x1024_1_1_0_0_n_n.lhsNonContracting by decide)]
  rfl
theorem dotUp_apply_r0 (i : S2048x1024.Idx) (k : dot_S2048x128_S1024x128_S2048x1024_1_1_0_0_n_n.contr.Idx) : (dot_S2048x128_S1024x128_S2048x1024_1_1_0_0_n_n.rhsIdx i k 0).val = (i 1).val := by
  unfold DotDims.rhsIdx
  rw [dif_neg (show ¬(0 : Fin S1024x128.rank) ∈ dot_S2048x128_S1024x128_S2048x1024_1_1_0_0_n_n.rhsBatch by decide),
    dif_pos (show (0 : Fin S1024x128.rank) ∈ dot_S2048x128_S1024x128_S2048x1024_1_1_0_0_n_n.rhsNonContracting by decide)]
  rfl
/-- The product 2048x128 · (1024x128)ᵀ into the zero accumulator, read at (p, q): Σ_i l[p,i]·r[q,i]. -/
theorem dotUp_apply (l : FVec Ideal S2048x128 .bf16) (r : FVec Ideal S1024x128 .bf16) (p : Fin 2048) (q : Fin 1024) :
    matmul dot_S2048x128_S1024x128_S2048x1024_1_1_0_0_n_n none l r (constant S2048x1024 .f32 0x00000000#32) (ix2 p q)
      = ∑ i : Fin 128, l (ix2 p i) * r (ix2 q i) := by
  simp only [matmul]
  rw [Ideal.matmul_constant_zero_apply, ← Equiv.sum_comp (contrEquiv1 dot_S2048x128_S1024x128_S2048x1024_1_1_0_0_n_n 128 rfl rfl).symm]
  refine Finset.sum_congr rfl fun k _ => ?_
  have hk := contrEquiv1_symm_val dot_S2048x128_S1024x128_S2048x1024_1_1_0_0_n_n 128 rfl rfl k
  have el : dot_S2048x128_S1024x128_S2048x1024_1_1_0_0_n_n.lhsIdx (ix2 p q) ((contrEquiv1 dot_S2048x128_S1024x128_S2048x1024_1_1_0_0_n_n 128 rfl rfl).symm k) = ix2 p k :=
    funext fun a => Fin.ext (by
      match a with
      | ⟨0, _⟩ => exact dotUp_apply_l0 _ _
      | ⟨1, _⟩ => exact (dot_S2048x128_S1024x128_S2048x1024_1_1_0_0_n_n.lhsIdx_val_of_single rfl _ _).trans hk)
  have er : dot_S2048x128_S1024x128_S2048x1024_1_1_0_0_n_n.rhsIdx (ix2 p q) ((contrEquiv1 dot_S2048x128_S1024x128_S2048x1024_1_1_0_0_n_n 128 rfl rfl).symm k) = ix2 q k :=
    funext fun a => Fin.ext (by
      match a with
      | ⟨0, _⟩ => exact dotUp_apply_r0 _ _
      | ⟨1, _⟩ => exact (dot_S2048x128_S1024x128_S2048x1024_1_1_0_0_n_n.rhsIdx_val_of_single rfl _ _).trans hk)
  rw [el, er]

/-! ## The payloads at an entry -/

/-- The first initial store writes 0 everywhere. -/
theorem pay1_apply (j : S2048x1024.Idx) : Gen.k0_pay1 (F := Ideal) j = 0 := by
  unfold Gen.k0_pay1
  rw [shapeCast_self]
  exact Ideal.ofBits_zero_f32

/-- The second initial store writes 0 everywhere. -/
theorem pay2_apply (j : S2048x128.Idx) : Gen.k0_pay2 (F := Ideal) j = 0 := by
  unfold Gen.k0_pay2
  rw [shapeCast_self]
  exact Ideal.ofBits_zero_f32

/-- The base step: acc[p,q] + Σ_i x[p,i]·w[q,i]. -/
theorem pay4_apply (x : Vec Ideal S2048x1024 .bf16) (w : Vec Ideal S1024x1024 .bf16) (acc : Vec Ideal S2048x1024 .f32)
    (p : Fin 2048) (q : Fin 1024) :
    Gen.k0_pay4 x w acc (ix2 p q) = acc (ix2 p q) + ∑ i : Fin 1024, x (ix2 p i) * w (ix2 q i) := by
  unfold Gen.k0_pay4 Gen.k0_pay3
  simp only [shapeCast_self]
  rw [addf_apply, dotBase_apply]

/-- The down-projection step: a[p,r] + Σ_i x[p,i]·al[r,i]. -/
theorem pay5_apply (x : Vec Ideal S2048x1024 .bf16) (al : Vec Ideal S128x1024 .bf16) (a : Vec Ideal S2048x128 .f32)
    (p : Fin 2048) (r : Fin 128) :
    Gen.k0_pay5 x al a (ix2 p r) = a (ix2 p r) + ∑ i : Fin 1024, x (ix2 p i) * al (ix2 r i) := by
  unfold Gen.k0_pay5 Gen.k0_pay3
  simp only [shapeCast_self]
  rw [addf_apply, dotDown_apply]

/-- The final step: (acc[p,q] + bias[0,q]) + (Σ_r a[p,r]·br[q,r])·¼. -/
theorem pay6_apply (br : Vec Ideal S1024x128 .bf16) (a : Vec Ideal S2048x128 .f32) (acc : Vec Ideal S2048x1024 .f32)
    (bias : Vec Ideal S1x1024 .f32) (p : Fin 2048) (q : Fin 1024) :
    Gen.k0_pay6 br a acc bias (ix2 p q)
      = (acc (ix2 p q) + bias (ix2 0 q)) + (∑ r : Fin 128, a (ix2 p r) * br (ix2 q r)) * Cert.LowRankSpec.quarter := by
  unfold Gen.k0_pay6
  simp only [shapeCast_self]
  rw [addf_apply, addf_apply, mulf_apply, dotUp_apply, broadcast_apply, broadcastTo_1b_ab_apply]
  rfl

end Cert.KernelIdeal.KValue

end
-- ==== Proof.HostArrays.lean ====
/-
  What the host lines before the launch leave in each window's array, read at one entry.

  • The activations: the [4,2048,4096] argument flattened to [8192,4096]; row r is (r / 2048, r % 2048).
  • The base weight: the argument itself (a change of format is the identity on extended reals).
  • The down-projection: A + WL, padded below with zero rows from 64 to 128 rows: `downSum`.
  • The up-projection: B + WR, padded on the right with zero columns from 64 to 128 columns: `upSum`.
  • The bias: the [4096] argument as one row.
  The padding value is the integer 0 converted, the real number 0.
-/
import proofs.«119846_j73478300500409_2_alg».proof.Proof.Gen.KernelIdeal.Frame
import proofs.«119846_j73478300500409_2_alg».proof.Proof.Spec
import Idealize.ShloMosaic.Lib.ValueIdx
import Idealize.ShloMosaic.Lib.Pipeline.Value
import Idealize.ShloMosaic.Lib.ValueLayout
import Idealize.ShloMosaic.Lib.KernelVsHost
import Idealize.ShloMosaic.Lib.StableHlo.Run
import Idealize.ShloMosaic.PureOps.Ideal.Laws

noncomputable section

open scoped BigOperators

namespace Cert.KernelIdeal.KValue

open Cert.KernelIdeal Cert.KernelIdeal.Gen Idealize.ShloMosaic Idealize.ShloMosaic.TcCoe Idealize.ShloMosaic.ValueIdx
open Idealize.SL.Sem Idealize.ShloMosaic.StableHlo

/-! ## The operations read at an entry, over variables -/

/-- Flattening [4,2048,4096] to [8192,4096]: row r is batch r / 2048, position r % 2048. -/
theorem rows_apply (X : FVec Ideal S4x2048x4096 .f32) (r : Fin 8192) (i : Fin 4096) :
    shapeCast S8192x4096 X shapeCasts_S4x2048x4096_S8192x4096 (ix2 r i)
      = X (ix3 (⟨r.val / 2048, by have := r.isLt; omega⟩ : Fin 4) (⟨r.val % 2048, Nat.mod_lt _ (by decide)⟩ : Fin 2048) i) := by
  refine shapeCast_apply X _ (ix2 r i) _ ?_
  rw [Shape.rowMajor_val_two, Shape.rowMajor_val_three]
  show (r.val / 2048 * 2048 + r.val % 2048) * 4096 + i.val = r.val * 4096 + i.val
  have := Nat.div_add_mod r.val 2048
  omega

/-- A [4096] vector as the one row of a [1,4096] array. -/
theorem row_apply (b : FVec Ideal S4096 .f32) (o : Fin 4096) :
    shapeCast S1x4096 b shapeCasts_S4096_S1x4096 (ix2 (0 : Fin 1) o) = b (ix1 o) := by
  refine shapeCast_apply b _ (ix2 (0 : Fin 1) o) (ix1 o) ?_
  rw [Shape.rowMajor_val_two, Shape.rowMajor_val_one]
  show o.val = 0 * 4096 + o.val
  omega

/-- The padding value: the integer zero converted is the real number 0, at the one index of the scalar. -/
theorem padValue_apply (j : S_.Idx) : (sitofp .f32 (constantI S_ 32 0#32) : FVec Ideal S_ .f32) j = 0 :=
  sitofp_zero

/-- Rows 64 … 127 added below a [64,4096] array: the array above, the padding value below. -/
theorem padRows_apply (x : FVec Ideal S64x4096 .f32) (v : FVec Ideal S_ .f32) (r : Fin 128) (i : Fin 4096) :
    pad S128x4096 ![0, 0] ![64, 0] ![0, 0] x v pads_S64x4096_S128x4096_0640_000 h_S_ (ix2 r i)
      = if h : r.val < 64 then x (ix2 ⟨r.val, h⟩ i) else v (Shape.Idx.first h_S_) := by
  by_cases h : r.val < 64
  · rw [dif_pos h]
    refine pad_apply_of_inside _ _ _ x v _ _ (ix2 r i) (ix2 ⟨r.val, h⟩ i) fun a => ?_
    match a with
    | ⟨0, _⟩ => show r.val = 0 + r.val * (0 + 1); omega
    | ⟨1, _⟩ => show i.val = 0 + i.val * (0 + 1); omega
  · rw [dif_neg h]
    refine pad_apply_of_not_inside _ _ _ x v _ _ (ix2 r i) (0 : Fin 2) ?_
    show ¬(0 ≤ r.val ∧ (r.val - 0) % (0 + 1) = 0 ∧ (r.val - 0) / (0 + 1) < 64)
    omega

/-- Columns 64 … 127 added to the right of a [4096,64] array: the array on the left, the padding value on the right. -/
theorem padCols_apply (x : FVec Ideal S4096x64 .f32) (v : FVec Ideal S_ .f32) (o : Fin 4096) (r : Fin 128) :
    pad S4096x128 ![0, 0] ![0, 64] ![0, 0] x v pads_S4096x64_S4096x128_000_0640 h_S_ (ix2 o r)
      = if h : r.val < 64 then x (ix2 o ⟨r.val, h⟩) else v (Shape.Idx.first h_S_) := by
  by_cases h : r.val < 64
  · rw [dif_pos h]
    refine pad_apply_of_inside _ _ _ x v _ _ (ix2 o r) (ix2 o ⟨r.val, h⟩) fun a => ?_
    match a with
    | ⟨0, _⟩ => show o.val = 0 + o.val * (0 + 1); omega
    | ⟨1, _⟩ => show r.val = 0 + r.val * (0 + 1); omega
  · rw [dif_neg h]
    refine pad_apply_of_not_inside _ _ _ x v _ _ (ix2 o r) (1 : Fin 2) ?_
    show ¬(0 ≤ r.val ∧ (r.val - 0) % (0 + 1) = 0 ∧ (r.val - 0) / (0 + 1) < 64)
    omega

/-! ## The arrays the launch finds -/

variable (m : (ℓ : Loc nD τ sig) → Buf (Elt Ideal) ℓ) (c : Dev nD)

/-- The activations' array: the flattened argument, its format changed. -/
theorem V_main_v1_term : (Gen.V m c main_v1 : S8192x4096.Idx → EReal)
    = (truncf .bf16 (shapeCast S8192x4096 (m ((c : Thread nD τ).loc main_arg0) : FVec Ideal S4x2048x4096 .f32) shapeCasts_S4x2048x4096_S8192x4096 : FVec Ideal S8192x4096 .f32) bitsLt_bf16_f32 : FVec Ideal S8192x4096 .bf16) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

/-- The base weight's array: the argument, its format changed. -/
theorem V_main_v8_term : (Gen.V m c main_v8 : S4096x4096.Idx → EReal)
    = (truncf .bf16 (m ((c : Thread nD τ).loc main_arg1) : FVec Ideal S4096x4096 .f32) bitsLt_bf16_f32 : FVec Ideal S4096x4096 .bf16) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results

/-- The down-projection's array: A + WL padded to 128 rows, its format changed. -/
theorem V_main_v5_term : (Gen.V m c main_v5 : S128x4096.Idx → EReal)
    = (truncf .bf16 (pad S128x4096 ![0, 0] ![64, 0] ![0, 0]
        (addf (m ((c : Thread nD τ).loc main_arg3) : FVec Ideal S64x4096 .f32) (m ((c : Thread nD τ).loc main_arg5)))
        (sitofp .f32 (constantI S_ 32 0#32) : FVec Ideal S_ .f32) pads_S64x4096_S128x4096_0640_000 h_S_ : FVec Ideal S128x4096 .f32) bitsLt_bf16_f32 : FVec Ideal S128x4096 .bf16) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

/-- The up-projection's array: B + WR padded to 128 columns, its format changed. -/
theorem V_main_v7_term : (Gen.V m c main_v7 : S4096x128.Idx → EReal)
    = (truncf .bf16 (pad S4096x128 ![0, 0] ![0, 64] ![0, 0]
        (addf (m ((c : Thread nD τ).loc main_arg4) : FVec Ideal S4096x64 .f32) (m ((c : Thread nD τ).loc main_arg6)))
        (sitofp .f32 (constantI S_ 32 0#32) : FVec Ideal S_ .f32) pads_S4096x64_S4096x128_000_0640 h_S_ : FVec Ideal S4096x128 .f32) bitsLt_bf16_f32 : FVec Ideal S4096x128 .bf16) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

/-- The bias's array: the argument as one row. -/
theorem V_main_v9_term : (Gen.V m c main_v9 : S1x4096.Idx → EReal)
    = shapeCast S1x4096 (m ((c : Thread nD τ).loc main_arg2) : FVec Ideal S4096 .f32) shapeCasts_S4096_S1x4096 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

/-- The activations at row r, column i: the argument at (r / 2048, r % 2048, i). -/
theorem V_main_v1_apply (r : Fin 8192) (i : Fin 4096) :
    (Gen.V m c main_v1 : S8192x4096.Idx → EReal) (ix2 r i)
      = (m ((c : Thread nD τ).loc main_arg0) : FVec Ideal S4x2048x4096 .f32)
          (ix3 (⟨r.val / 2048, by have := r.isLt; omega⟩ : Fin 4) (⟨r.val % 2048, Nat.mod_lt _ (by decide)⟩ : Fin 2048) i) := by
  rw [V_main_v1_term, truncf_apply, rows_apply]

/-- The base weight at (o, i): the argument there. -/
theorem V_main_v8_apply (o i : Fin 4096) :
    (Gen.V m c main_v8 : S4096x4096.Idx → EReal) (ix2 o i)
      = (m ((c : Thread nD τ).loc main_arg1) : FVec Ideal S4096x4096 .f32) (ix2 o i) := by
  rw [V_main_v8_term, truncf_apply]

/-- The down-projection at (r, i): the summed and padded factor. -/
theorem V_main_v5_apply (r : Fin 128) (i : Fin 4096) :
    (Gen.V m c main_v5 : S128x4096.Idx → EReal) (ix2 r i)
      = Cert.LowRankSpec.downSum (m ((c : Thread nD τ).loc main_arg3) : FVec Ideal S64x4096 .f32)
          (m ((c : Thread nD τ).loc main_arg5) : FVec Ideal S64x4096 .f32) r i := by
  rw [V_main_v5_term, truncf_apply, padRows_apply]
  unfold Cert.LowRankSpec.downSum
  by_cases h : r.val < 64
  · rw [dif_pos h, dif_pos h, addf_apply]
  · rw [dif_neg h, dif_neg h, padValue_apply]

/-- The up-projection at (o, r): the summed and padded factor. -/
theorem V_main_v7_apply (o : Fin 4096) (r : Fin 128) :
    (Gen.V m c main_v7 : S4096x128.Idx → EReal) (ix2 o r)
      = Cert.LowRankSpec.upSum (m ((c : Thread nD τ).loc main_arg4) : FVec Ideal S4096x64 .f32)
          (m ((c : Thread nD τ).loc main_arg6) : FVec Ideal S4096x64 .f32) o r := by
  rw [V_main_v7_term, truncf_apply, padCols_apply]
  unfold Cert.LowRankSpec.upSum
  by_cases h : r.val < 64
  · rw [dif_pos h, dif_pos h, addf_apply]
  · rw [dif_neg h, dif_neg h, padValue_apply]

/-- The bias row at (0, o): the argument at o. -/
theorem V_main_v9_apply (o : Fin 4096) :
    (Gen.V m c main_v9 : S1x4096.Idx → EReal) (ix2 (0 : Fin 1) o)
      = (m ((c : Thread nD τ).loc main_arg2) : FVec Ideal S4096 .f32) (ix1 o) := by
  rw [V_main_v9_term, row_apply]

end Cert.KernelIdeal.KValue

end
-- ==== Proof.BlockReads.lean ====
/-
  Each input window's block at a grid point is a rectangle of its array.

  The grid is 4 × 4 × 4; point t has coordinates (t / 16, (t / 4) % 4, t % 4), the last fastest.  The
  activations' block is rows 2048·(t/16) … and columns 1024·(t%4) …; the base weight's block is rows
  1024·((t/4)%4) … and columns 1024·(t%4) …; the down-projection's block is all 128 rows and columns
  1024·(t%4) …; the up-projection's block is rows 1024·((t/4)%4) … and all 128 columns; the bias's block
  is columns 1024·((t/4)%4) … of its one row.
-/
import proofs.«119846_j73478300500409_2_alg».proof.Proof.Gen.KernelIdeal.Frame
import Idealize.ShloMosaic.Lib.ValueIdx
import Idealize.ShloMosaic.Lib.Pipeline.Value
import Idealize.ShloMosaic.Lib.Tactic

noncomputable section

namespace Cert.KernelIdeal.KValue

open Cert.KernelIdeal Cert.KernelIdeal.Gen Idealize.ShloMosaic Idealize.ShloMosaic.TcCoe Idealize.ShloMosaic.ValueIdx
open Idealize.SL.Sem
open Idealize.ShloMosaic.Pipeline (Dat)

variable {F : FTy → Type} [FloatOps F]
variable (m : (ℓ : Loc nD τ sig) → Buf (Elt F) ℓ)

/-- The grid has 64 points. -/
theorem point_lt (t : Fin cfg0.N) : t.val < 64 := by
  have h : cfg0.N = 64 := N_0
  have := t.isLt
  omega

/-! ## Each window's block index at a point, decided over the grid -/

theorem idx0 : ∀ t : Fin cfg0.N, win0_0.index t 0 = t.val / 16 ∧ win0_0.index t 1 = t.val % 4 :=
  (by decide +kernel : ∀ t : Fin grid0.N, win0_0.index t 0 = t.val / 16 ∧ win0_0.index t 1 = t.val % 4)
theorem idx1 : ∀ t : Fin cfg0.N, win0_1.index t 0 = (t.val / 4) % 4 ∧ win0_1.index t 1 = t.val % 4 :=
  (by decide +kernel : ∀ t : Fin grid0.N, win0_1.index t 0 = (t.val / 4) % 4 ∧ win0_1.index t 1 = t.val % 4)
theorem idx2 : ∀ t : Fin cfg0.N, win0_2.index t 0 = 0 ∧ win0_2.index t 1 = t.val % 4 :=
  (by decide +kernel : ∀ t : Fin grid0.N, win0_2.index t 0 = 0 ∧ win0_2.index t 1 = t.val % 4)
theorem idx3 : ∀ t : Fin cfg0.N, win0_3.index t 0 = (t.val / 4) % 4 ∧ win0_3.index t 1 = 0 :=
  (by decide +kernel : ∀ t : Fin grid0.N, win0_3.index t 0 = (t.val / 4) % 4 ∧ win0_3.index t 1 = 0)
theorem idx4 : ∀ t : Fin cfg0.N, win0_4.index t 0 = 0 ∧ win0_4.index t 1 = (t.val / 4) % 4 :=
  (by decide +kernel : ∀ t : Fin grid0.N, win0_4.index t 0 = 0 ∧ win0_4.index t 1 = (t.val / 4) % 4)

/-! ## The blocks -/

/-- The activations' block: rows 2048·(t/16) + p, columns 1024·(t%4) + i. -/
theorem iblk0_apply (c : Dev nD) (t : Fin cfg0.N) (p : Fin 2048) (ii : Fin 1024) :
    (iblk m c 0 t : Vec F S2048x1024 .bf16) (ix2 p ii)
      = (V m c main_v1 : S8192x4096.Idx → Elt F .bf16)
          (ix2 (⟨2048 * (t.val / 16) + p.val, by have := point_lt t; have := p.isLt; omega⟩ : Fin 8192)
               (⟨1024 * (t.val % 4) + ii.val, by have := ii.isLt; omega⟩ : Fin 4096)) := by
  have hi := idx0 t
  unfold iblk
  rw [View.read_apply]
  show V m c main_v1 _ = V m c main_v1 _
  refine congrArg _ (funext fun a => Fin.ext ?_)
  match a with
  | ⟨0, _⟩ => show win0_0.index t 0 * 2048 + 1 * p.val = 2048 * (t.val / 16) + p.val; rw [hi.1]; omega
  | ⟨1, _⟩ => show win0_0.index t 1 * 1024 + 1 * ii.val = 1024 * (t.val % 4) + ii.val; rw [hi.2]; omega

/-- The base weight's block: rows 1024·((t/4)%4) + q, columns 1024·(t%4) + i. -/
theorem iblk1_apply (c : Dev nD) (t : Fin cfg0.N) (q : Fin 1024) (ii : Fin 1024) :
    (iblk m c 1 t : Vec F S1024x1024 .bf16) (ix2 q ii)
      = (V m c main_v8 : S4096x4096.Idx → Elt F .bf16)
          (ix2 (⟨1024 * ((t.val / 4) % 4) + q.val, by have := q.isLt; omega⟩ : Fin 4096)
               (⟨1024 * (t.val % 4) + ii.val, by have := ii.isLt; omega⟩ : Fin 4096)) := by
  have hi := idx1 t
  unfold iblk
  rw [View.read_apply]
  show V m c main_v8 _ = V m c main_v8 _
  refine congrArg _ (funext fun a => Fin.ext ?_)
  match a with
  | ⟨0, _⟩ => show win0_1.index t 0 * 1024 + 1 * q.val = 1024 * ((t.val / 4) % 4) + q.val; rw [hi.1]; omega
  | ⟨1, _⟩ => show win0_1.index t 1 * 1024 + 1 * ii.val = 1024 * (t.val % 4) + ii.val; rw [hi.2]; omega

/-- The down-projection's block: every row r, columns 1024·(t%4) + i. -/
theorem iblk2_apply (c : Dev nD) (t : Fin cfg0.N) (r : Fin 128) (ii : Fin 1024) :
    (iblk m c 2 t : Vec F S128x1024 .bf16) (ix2 r ii)
      = (V m c main_v5 : S128x4096.Idx → Elt F .bf16)
          (ix2 r (⟨1024 * (t.val % 4) + ii.val, by have := ii.isLt; omega⟩ : Fin 4096)) := by
  have hi := idx2 t
  unfold iblk
  rw [View.read_apply]
  show V m c main_v5 _ = V m c main_v5 _
  refine congrArg _ (funext fun a => Fin.ext ?_)
  match a with
  | ⟨0, _⟩ => show win0_2.index t 0 * 128 + 1 * r.val = r.val; rw [hi.1]; omega
  | ⟨1, _⟩ => show win0_2.index t 1 * 1024 + 1 * ii.val = 1024 * (t.val % 4) + ii.val; rw [hi.2]; omega

/-- The up-projection's block: rows 1024·((t/4)%4) + q, every column r. -/
theorem iblk3_apply (c : Dev nD) (t : Fin cfg0.N) (q : Fin 1024) (r : Fin 128) :
    (iblk m c 3 t : Vec F S1024x128 .bf16) (ix2 q r)
      = (V m c main_v7 : S4096x128.Idx → Elt F .bf16)
          (ix2 (⟨1024 * ((t.val / 4) % 4) + q.val, by have := q.isLt; omega⟩ : Fin 4096) r) := by
  have hi := idx3 t
  unfold iblk
  rw [View.read_apply]
  show V m c main_v7 _ = V m c main_v7 _
  refine congrArg _ (funext fun a => Fin.ext ?_)
  match a with
  | ⟨0, _⟩ => show win0_3.index t 0 * 1024 + 1 * q.val = 1024 * ((t.val / 4) % 4) + q.val; rw [hi.1]; omega
  | ⟨1, _⟩ => show win0_3.index t 1 * 128 + 1 * r.val = r.val; rw [hi.2]; omega

/-- The bias's block: columns 1024·((t/4)%4) + q of the one row. -/
theorem iblk4_apply (c : Dev nD) (t : Fin cfg0.N) (q : Fin 1024) :
    (iblk m c 4 t : Vec F S1x1024 .f32) (ix2 (0 : Fin 1) q)
      = (V m c main_v9 : S1x4096.Idx → Elt F .f32)
          (ix2 (0 : Fin 1) (⟨1024 * ((t.val / 4) % 4) + q.val, by have := q.isLt; omega⟩ : Fin 4096)) := by
  have hi := idx4 t
  unfold iblk
  rw [View.read_apply]
  show V m c main_v9 _ = V m c main_v9 _
  refine congrArg _ (funext fun a => Fin.ext ?_)
  match a with
  | ⟨0, _⟩ => show win0_4.index t 0 * 1 + 1 * 0 = 0; rw [hi.1]
  | ⟨1, _⟩ => show win0_4.index t 1 * 1024 + 1 * q.val = 1024 * ((t.val / 4) % 4) + q.val; rw [hi.2]; omega

end Cert.KernelIdeal.KValue

end
-- ==== Proof.LibBlockSum.lean ====
/-
  A sum over consecutive blocks of positions.

  Cut the naturals below B·L into B consecutive blocks of L positions. Summing a function block by block, position
  by position inside a block, is summing it over all positions below B·L; and when the function vanishes from N
  on, N ≤ B·L, that is the sum over the first N positions only — the last blocks may overhang the range that
  matters. Stated in any commutative additive monoid, so it holds on the extended reals, where no cancellation is
  available.
-/
import Mathlib.Algebra.BigOperators.Fin
import Mathlib.Algebra.BigOperators.Intervals

namespace Cert.Lib.BlockSum

variable {M : Type*} [AddCommMonoid M]

/-- The sum over `B` consecutive blocks of `L` positions is the sum over the first `B * L` positions. -/
theorem sum_range_blocks (L : ℕ) (f : ℕ → M) :
    ∀ B : ℕ, ∑ j ∈ Finset.range B, ∑ l ∈ Finset.range L, f (j * L + l) = ∑ q ∈ Finset.range (B * L), f q
  | 0 => by simp
  | B + 1 => by
    rw [Finset.sum_range_succ, sum_range_blocks L f B, Nat.succ_mul, Finset.sum_range_add]

/-- Blocks indexed by `Fin L` inside, by a range outside; a function that vanishes from `N` on; `N` positions
    covered by the `B` blocks: the block sums add up to the sum over the first `N` positions. -/
theorem sum_blocks_eq (B L N : ℕ) (hN : N ≤ B * L) (f : ℕ → M) (hf : ∀ q, N ≤ q → f q = 0) :
    ∑ j ∈ Finset.range B, ∑ l : Fin L, f (j * L + l.val) = ∑ p : Fin N, f p.val := by
  have h1 : ∀ j, ∑ l : Fin L, f (j * L + l.val) = ∑ l ∈ Finset.range L, f (j * L + l) :=
    fun j => Fin.sum_univ_eq_sum_range (fun l => f (j * L + l)) L
  rw [Finset.sum_congr rfl fun j _ => h1 j, sum_range_blocks, Fin.sum_univ_eq_sum_range (fun q => f q) N]
  obtain ⟨d, hd⟩ := Nat.exists_eq_add_of_le hN
  rw [hd, Finset.sum_range_add]
  have h0 : ∑ x ∈ Finset.range d, f (N + x) = 0 := Finset.sum_eq_zero fun x _ => hf _ (Nat.le_add_right _ _)
  rw [h0, add_zero]

end Cert.Lib.BlockSum
-- ==== Proof.Accumulate.lean ====
/-
  The two accumulators carried over the 64 grid points t = 16·i + 4·j + k (row tile i, column tile j, contraction
  step k, k fastest), as plain mathematics over the extended reals.

  `acc` restarts at every k = 0 and adds the product of the current x-block and W-block at each step; at k = 3 it
  holds the whole contraction over 4·1024 = 4096 positions.  `mid` restarts at the first point of a row tile
  (j = 0, k = 0), adds the product of the x-block and the block of the padded down-projection during the j = 0 sweep,
  and is only kept afterwards; from k = 3 of that sweep on it holds the whole contraction.  Only associativity and
  commutativity of + are used: four consecutive block sums of 1024 positions are the sum over 4096 positions.
-/
import Mathlib.Data.EReal.Operations
import proofs.«119846_j73478300500409_2_alg».proof.Proof.LibBlockSum

noncomputable section

open scoped BigOperators

namespace Cert.LowRankSpec.Accumulate

/-! ## Bounds of the window coordinates -/

theorem row_lt {t : ℕ} (ht : t < 64) (p : Fin 2048) : 2048 * (t / 16) + p.val < 8192 := by
  have := p.isLt; omega

theorem wrow_lt (t : ℕ) (q : Fin 1024) : 1024 * ((t / 4) % 4) + q.val < 4096 := by
  have := q.isLt; omega

theorem col_lt (t : ℕ) (ii : Fin 1024) : 1024 * (t % 4) + ii.val < 4096 := by
  have := ii.isLt; omega

theorem blk_lt {k : ℕ} (hk : k < 4) (ii : Fin 1024) : 1024 * k + ii.val < 4096 := by
  have := ii.isLt; omega

/-- An entry of a two-dimensional array depends only on the values of its coordinates. -/
theorem app2_congr {α : Type*} {m n : ℕ} (f : Fin m → Fin n → α) {a a' b b' : ℕ} (ha : a < m) (ha' : a' < m)
    (hb : b < n) (hb' : b' < n) (e1 : a = a') (e2 : b = b') : f ⟨a, ha⟩ ⟨b, hb⟩ = f ⟨a', ha'⟩ ⟨b', hb'⟩ := by
  subst e1; subst e2; rfl

/-! ## Four blocks of 1024 positions are 4096 positions -/

/-- A function on `Fin 4096` continued by zero to the naturals. -/
def ext0 {M : Type*} [Zero M] (g : Fin 4096 → M) (c : ℕ) : M := if h : c < 4096 then g ⟨c, h⟩ else 0

theorem ext0_val {M : Type*} [Zero M] (g : Fin 4096 → M) (c : Fin 4096) : ext0 g c.val = g c := by
  unfold ext0; rw [dif_pos c.isLt]

theorem ext0_ge {M : Type*} [Zero M] (g : Fin 4096 → M) (c : ℕ) (hc : 4096 ≤ c) : ext0 g c = 0 := by
  unfold ext0; rw [dif_neg (not_lt.mpr hc)]

theorem ext0_blk {M : Type*} [Zero M] (g : Fin 4096 → M) {k : ℕ} (hk : k < 4) (ii : Fin 1024) :
    ext0 g (k * 1024 + ii.val) = g ⟨1024 * k + ii.val, blk_lt hk ii⟩ := by
  have hlt : k * 1024 + ii.val < 4096 := by have := ii.isLt; omega
  unfold ext0; rw [dif_pos hlt]
  exact congrArg g (Fin.ext (by show k * 1024 + ii.val = 1024 * k + ii.val; omega))

/-- Zero, plus the four block sums in order, is the sum over all 4096 positions. -/
theorem four_blocks {M : Type*} [AddCommMonoid M] (g : Fin 4096 → M) :
    (((0 + ∑ ii : Fin 1024, g ⟨1024 * 0 + ii.val, blk_lt (by norm_num) ii⟩)
        + ∑ ii : Fin 1024, g ⟨1024 * 1 + ii.val, blk_lt (by norm_num) ii⟩)
        + ∑ ii : Fin 1024, g ⟨1024 * 2 + ii.val, blk_lt (by norm_num) ii⟩)
        + ∑ ii : Fin 1024, g ⟨1024 * 3 + ii.val, blk_lt (by norm_num) ii⟩ = ∑ c : Fin 4096, g c := by
  have key := Cert.Lib.BlockSum.sum_blocks_eq 4 1024 4096 (by norm_num) (ext0 g) (ext0_ge g)
  have e : ∀ (k : ℕ) (hk : k < 4), ∑ ii : Fin 1024, g ⟨1024 * k + ii.val, blk_lt hk ii⟩
      = ∑ l : Fin 1024, ext0 g (k * 1024 + l.val) :=
    fun k hk => Finset.sum_congr rfl fun ii _ => (ext0_blk g hk ii).symm
  have er : ∑ c : Fin 4096, g c = ∑ c : Fin 4096, ext0 g c.val :=
    Finset.sum_congr rfl fun c _ => (ext0_val g c).symm
  rw [e 0 (by norm_num), e 1 (by norm_num), e 2 (by norm_num), e 3 (by norm_num), er, ← key,
    Finset.sum_range_succ, Finset.sum_range_succ, Finset.sum_range_succ, Finset.sum_range_succ, Finset.sum_range_zero]

/-! ## The base accumulator -/

section

variable (X : ℕ → Fin 2048 → Fin 1024 → EReal) (Wb : ℕ → Fin 1024 → Fin 1024 → EReal)
  (AL : ℕ → Fin 128 → Fin 1024 → EReal)
  (acc : ℕ → Fin 2048 → Fin 1024 → EReal) (mid : ℕ → Fin 2048 → Fin 128 → EReal)
  (xv : Fin 8192 → Fin 4096 → EReal) (wv : Fin 4096 → Fin 4096 → EReal) (al : Fin 128 → Fin 4096 → EReal)

/-- The block product at a point `t'` in the same row tile and column tile as `t`, at step `k`, in whole-array
    coordinates. -/
theorem acc_term
    (hX : ∀ (t : ℕ) (ht : t < 64) (p : Fin 2048) (ii : Fin 1024),
      X t p ii = xv ⟨2048 * (t / 16) + p.val, row_lt ht p⟩ ⟨1024 * (t % 4) + ii.val, col_lt t ii⟩)
    (hW : ∀ (t : ℕ) (_ : t < 64) (q : Fin 1024) (ii : Fin 1024),
      Wb t q ii = wv ⟨1024 * ((t / 4) % 4) + q.val, wrow_lt t q⟩ ⟨1024 * (t % 4) + ii.val, col_lt t ii⟩)
    {t t' : ℕ} (ht : t < 64) (ht' : t' < 64) (h1 : t' / 16 = t / 16) (h2 : (t' / 4) % 4 = (t / 4) % 4)
    {k : ℕ} (hk4 : k < 4) (hk : t' % 4 = k) (p : Fin 2048) (q : Fin 1024) :
    ∑ ii : Fin 1024, X t' p ii * Wb t' q ii
      = ∑ ii : Fin 1024, xv ⟨2048 * (t / 16) + p.val, row_lt ht p⟩ ⟨1024 * k + ii.val, blk_lt hk4 ii⟩
          * wv ⟨1024 * ((t / 4) % 4) + q.val, wrow_lt t q⟩ ⟨1024 * k + ii.val, blk_lt hk4 ii⟩ := by
  refine Finset.sum_congr rfl fun ii _ => ?_
  rw [hX t' ht' p ii, hW t' ht' q ii]
  exact congrArg₂ (· * ·) (app2_congr xv _ _ _ _ (by omega) (by omega)) (app2_congr wv _ _ _ _ (by omega) (by omega))

/-- At the last contraction step the base accumulator is the whole contraction of x's row with W's row. -/
theorem acc_last
    (hacc0 : ∀ (t : ℕ), t < 64 → t % 4 = 0 → ∀ (p : Fin 2048) (q : Fin 1024),
      acc t p q = 0 + ∑ ii : Fin 1024, X t p ii * Wb t q ii)
    (haccS : ∀ (t : ℕ), t < 64 → t % 4 ≠ 0 → ∀ (p : Fin 2048) (q : Fin 1024),
      acc t p q = acc (t - 1) p q + ∑ ii : Fin 1024, X t p ii * Wb t q ii)
    (hX : ∀ (t : ℕ) (ht : t < 64) (p : Fin 2048) (ii : Fin 1024),
      X t p ii = xv ⟨2048 * (t / 16) + p.val, row_lt ht p⟩ ⟨1024 * (t % 4) + ii.val, col_lt t ii⟩)
    (hW : ∀ (t : ℕ) (_ : t < 64) (q : Fin 1024) (ii : Fin 1024),
      Wb t q ii = wv ⟨1024 * ((t / 4) % 4) + q.val, wrow_lt t q⟩ ⟨1024 * (t % 4) + ii.val, col_lt t ii⟩)
    (t : ℕ) (ht : t < 64) (h3 : t % 4 = 3) (p : Fin 2048) (q : Fin 1024) :
    acc t p q = ∑ c : Fin 4096, xv ⟨2048 * (t / 16) + p.val, row_lt ht p⟩ c
        * wv ⟨1024 * ((t / 4) % 4) + q.val, wrow_lt t q⟩ c := by
  rw [haccS t ht (by omega) p q, haccS (t - 1) (by omega) (by omega) p q,
    haccS (t - 1 - 1) (by omega) (by omega) p q, hacc0 (t - 1 - 1 - 1) (by omega) (by omega) p q,
    acc_term X Wb xv wv hX hW ht (by omega : t - 1 - 1 - 1 < 64) (by omega) (by omega) (k := 0) (by norm_num) (by omega) p q,
    acc_term X Wb xv wv hX hW ht (by omega : t - 1 - 1 < 64) (by omega) (by omega) (k := 1) (by norm_num) (by omega) p q,
    acc_term X Wb xv wv hX hW ht (by omega : t - 1 < 64) (by omega) (by omega) (k := 2) (by norm_num) (by omega) p q,
    acc_term X Wb xv wv hX hW ht ht rfl rfl (k := 3) (by norm_num) h3 p q]
  exact four_blocks (fun c => xv ⟨2048 * (t / 16) + p.val, row_lt ht p⟩ c
    * wv ⟨1024 * ((t / 4) % 4) + q.val, wrow_lt t q⟩ c)

/-! ## The rank accumulator -/

/-- The block product with the padded down-projection at a point `t'` in the row tile of `t0`, at step `k`. -/
theorem mid_term
    (hX : ∀ (t : ℕ) (ht : t < 64) (p : Fin 2048) (ii : Fin 1024),
      X t p ii = xv ⟨2048 * (t / 16) + p.val, row_lt ht p⟩ ⟨1024 * (t % 4) + ii.val, col_lt t ii⟩)
    (hAL : ∀ (t : ℕ) (_ : t < 64) (r : Fin 128) (ii : Fin 1024),
      AL t r ii = al r ⟨1024 * (t % 4) + ii.val, col_lt t ii⟩)
    {t0 t' : ℕ} (ht0 : t0 < 64) (ht' : t' < 64) (h1 : t' / 16 = t0 / 16)
    {k : ℕ} (hk4 : k < 4) (hk : t' % 4 = k) (p : Fin 2048) (r : Fin 128) :
    ∑ ii : Fin 1024, X t' p ii * AL t' r ii
      = ∑ ii : Fin 1024, xv ⟨2048 * (t0 / 16) + p.val, row_lt ht0 p⟩ ⟨1024 * k + ii.val, blk_lt hk4 ii⟩
          * al r ⟨1024 * k + ii.val, blk_lt hk4 ii⟩ := by
  refine Finset.sum_congr rfl fun ii _ => ?_
  rw [hX t' ht' p ii, hAL t' ht' r ii]
  exact congrArg₂ (· * ·) (app2_congr xv _ _ _ _ (by omega) (by omega))
    (congrArg (al r) (Fin.ext (by show 1024 * (t' % 4) + ii.val = 1024 * k + ii.val; omega)))

/-- At the last contraction step of the first column tile the rank accumulator is the whole contraction of x's row
    with the padded down-projection's row; stated with the row tile named by any point `t0` of the same tile. -/
theorem mid_at3
    (hmid0 : ∀ (t : ℕ), t < 64 → t % 16 = 0 → ∀ (p : Fin 2048) (r : Fin 128),
      mid t p r = 0 + ∑ ii : Fin 1024, X t p ii * AL t r ii)
    (hmidS : ∀ (t : ℕ), t < 64 → t % 16 ≠ 0 → t % 16 < 4 → ∀ (p : Fin 2048) (r : Fin 128),
      mid t p r = mid (t - 1) p r + ∑ ii : Fin 1024, X t p ii * AL t r ii)
    (hX : ∀ (t : ℕ) (ht : t < 64) (p : Fin 2048) (ii : Fin 1024),
      X t p ii = xv ⟨2048 * (t / 16) + p.val, row_lt ht p⟩ ⟨1024 * (t % 4) + ii.val, col_lt t ii⟩)
    (hAL : ∀ (t : ℕ) (_ : t < 64) (r : Fin 128) (ii : Fin 1024),
      AL t r ii = al r ⟨1024 * (t % 4) + ii.val, col_lt t ii⟩)
    (t t0 : ℕ) (ht : t < 64) (ht0 : t0 < 64) (h3 : t % 16 = 3) (hdiv : t / 16 = t0 / 16) (p : Fin 2048) (r : Fin 128) :
    mid t p r = ∑ c : Fin 4096, xv ⟨2048 * (t0 / 16) + p.val, row_lt ht0 p⟩ c * al r c := by
  rw [hmidS t ht (by omega) (by omega) p r, hmidS (t - 1) (by omega) (by omega) (by omega) p r,
    hmidS (t - 1 - 1) (by omega) (by omega) (by omega) p r, hmid0 (t - 1 - 1 - 1) (by omega) (by omega) p r,
    mid_term X AL xv al hX hAL ht0 (by omega : t - 1 - 1 - 1 < 64) (by omega) (k := 0) (by norm_num) (by omega) p r,
    mid_term X AL xv al hX hAL ht0 (by omega : t - 1 - 1 < 64) (by omega) (k := 1) (by norm_num) (by omega) p r,
    mid_term X AL xv al hX hAL ht0 (by omega : t - 1 < 64) (by omega) (k := 2) (by norm_num) (by omega) p r,
    mid_term X AL xv al hX hAL ht0 ht hdiv (k := 3) (by norm_num) (by omega) p r]
  exact four_blocks (fun c => xv ⟨2048 * (t0 / 16) + p.val, row_lt ht0 p⟩ c * al r c)

/-- After the first column tile the rank accumulator is only kept: `d` points later it is what it was. -/
theorem mid_keep
    (hmidK : ∀ (t : ℕ), t < 64 → ¬ t % 16 < 4 → ∀ (p : Fin 2048) (r : Fin 128), mid t p r = mid (t - 1) p r)
    (p : Fin 2048) (r : Fin 128) :
    ∀ (d t : ℕ), t < 64 → t % 16 = 3 + d → mid t p r = mid (t - d) p r
  | 0, t, _, _ => rfl
  | d + 1, t, ht, h => by
    rw [hmidK t ht (by omega) p r, mid_keep hmidK p r d (t - 1) (by omega) (by omega)]
    exact congrArg (fun s => mid s p r) (by omega)

/-- At every point with contraction step 3 the rank accumulator is the whole contraction of x's row with the padded
    down-projection's row. -/
theorem mid_last
    (hmid0 : ∀ (t : ℕ), t < 64 → t % 16 = 0 → ∀ (p : Fin 2048) (r : Fin 128),
      mid t p r = 0 + ∑ ii : Fin 1024, X t p ii * AL t r ii)
    (hmidS : ∀ (t : ℕ), t < 64 → t % 16 ≠ 0 → t % 16 < 4 → ∀ (p : Fin 2048) (r : Fin 128),
      mid t p r = mid (t - 1) p r + ∑ ii : Fin 1024, X t p ii * AL t r ii)
    (hmidK : ∀ (t : ℕ), t < 64 → ¬ t % 16 < 4 → ∀ (p : Fin 2048) (r : Fin 128), mid t p r = mid (t - 1) p r)
    (hX : ∀ (t : ℕ) (ht : t < 64) (p : Fin 2048) (ii : Fin 1024),
      X t p ii = xv ⟨2048 * (t / 16) + p.val, row_lt ht p⟩ ⟨1024 * (t % 4) + ii.val, col_lt t ii⟩)
    (hAL : ∀ (t : ℕ) (_ : t < 64) (r : Fin 128) (ii : Fin 1024),
      AL t r ii = al r ⟨1024 * (t % 4) + ii.val, col_lt t ii⟩)
    (t : ℕ) (ht : t < 64) (h3 : t % 4 = 3) (p : Fin 2048) (r : Fin 128) :
    mid t p r = ∑ c : Fin 4096, xv ⟨2048 * (t / 16) + p.val, row_lt ht p⟩ c * al r c := by
  rw [mid_keep mid hmidK p r (t % 16 - 3) t ht (by omega)]
  exact mid_at3 X AL mid xv al hmid0 hmidS hX hAL (t - (t % 16 - 3)) t (by omega) ht (by omega) (by omega) p r

end

end Cert.LowRankSpec.Accumulate

end
-- ==== Proof.TileForm.lean ====
/-
  The launch's output array, [8192, 4096], as one function of the seven arguments: row R = 2048·b + s is batch b,
  position s of the reshaped input, so entry (R, o) is the kernel's arrangement of the layer at (b, s, o).
-/
import proofs.«119846_j73478300500409_2_alg».proof.Proof.Gen.KernelIdeal
import proofs.«119846_j73478300500409_2_alg».proof.Proof.Spec

noncomputable section

namespace Cert.KernelIdeal.KValue

open Idealize.ShloMosaic Idealize.ShloMosaic.TcCoe Idealize.SL.Sem Idealize.ShloMosaic.ValueIdx
open Cert.KernelIdeal

/-- The kernel's arrangement at the seven argument arrays of a memory `m` on core `c`. -/
abbrev layerOf (m : (ℓ : Loc nD τ sig) → Buf (Elt Ideal) ℓ) (c : Dev nD) : Cert.LowRankSpec.XIdx → EReal :=
  Cert.LowRankSpec.kernelForm (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6))

/-- The [8192, 4096] output array: entry (R, o) is the layer at (R / 2048, R % 2048, o). -/
def tileForm (m : (ℓ : Loc nD τ sig) → Buf (Elt Ideal) ℓ) (c : Dev nD) : S8192x4096.Idx → EReal := fun J =>
  layerOf m c (ix3 ⟨(J 0).val / 2048, by have := idx2_lt0 J; omega⟩ ⟨(J 0).val % 2048, Nat.mod_lt _ (by decide)⟩ (J 1))

end Cert.KernelIdeal.KValue

end
-- ==== Proof.TileValue.lean ====
/-
  The finished output tile at a grid point with contraction step 3 is the kernel's arrangement of the layer.

  The two accumulators, read entry by entry along the 64 grid points, satisfy the recurrences of the block-sum
  lemmas: the base accumulator restarts at step 0 and adds x-block · W-blockᵀ; the rank accumulator restarts at the
  first point of a row tile, adds x-block · down-blockᵀ during the first column tile, and is kept afterwards.  At
  step 3 each is a whole contraction over 4096 positions of the launch's arrays.  The finished tile adds the bias
  row and the rank accumulator times the up-projection block, scaled by ¼; reading the launch's arrays as the
  arguments (flattened rows, summed and padded factors) gives the layer's kernel arrangement.
-/
import proofs.«119846_j73478300500409_2_alg».proof.Proof.KI.CaseValues
import proofs.«119846_j73478300500409_2_alg».proof.Proof.PayloadAt
import proofs.«119846_j73478300500409_2_alg».proof.Proof.HostArrays
import proofs.«119846_j73478300500409_2_alg».proof.Proof.BlockReads
import proofs.«119846_j73478300500409_2_alg».proof.Proof.Accumulate
import proofs.«119846_j73478300500409_2_alg».proof.Proof.TileForm

noncomputable section

open scoped BigOperators

namespace Cert.KernelIdeal.KValue

open Cert.KernelIdeal Cert.KernelIdeal.Gen Idealize.ShloMosaic Idealize.ShloMosaic.TcCoe Idealize.ShloMosaic.ValueIdx
open Idealize.SL.Sem
open Cert.LowRankSpec.Accumulate (row_lt wrow_lt col_lt)

variable (m : (ℓ : Loc nD τ sig) → Buf (Elt Ideal) ℓ) (c : Dev nD)

/-! ## The accumulators, the blocks and the arrays as functions of plain coordinates -/

/-- The base accumulator after point t at (p, q); 0 past the grid. -/
def accN (t : ℕ) (p : Fin 2048) (q : Fin 1024) : EReal :=
  if h : t < cfg0.N then ((Gen.stAt m c t h).2.1 : Vec Ideal S2048x1024 .f32) (ix2 p q) else 0
/-- The rank accumulator after point t at (p, r); 0 past the grid. -/
def midN (t : ℕ) (p : Fin 2048) (r : Fin 128) : EReal :=
  if h : t < cfg0.N then ((Gen.stAt m c t h).2.2 : Vec Ideal S2048x128 .f32) (ix2 p r) else 0
/-- The activations' block at point t. -/
def Xb (t : ℕ) (p : Fin 2048) (ii : Fin 1024) : EReal :=
  if h : t < cfg0.N then (Gen.iblk m c 0 ⟨t, h⟩ : Vec Ideal S2048x1024 .bf16) (ix2 p ii) else 0
/-- The base weight's block at point t. -/
def Wb (t : ℕ) (q : Fin 1024) (ii : Fin 1024) : EReal :=
  if h : t < cfg0.N then (Gen.iblk m c 1 ⟨t, h⟩ : Vec Ideal S1024x1024 .bf16) (ix2 q ii) else 0
/-- The down-projection's block at point t. -/
def ALb (t : ℕ) (r : Fin 128) (ii : Fin 1024) : EReal :=
  if h : t < cfg0.N then (Gen.iblk m c 2 ⟨t, h⟩ : Vec Ideal S128x1024 .bf16) (ix2 r ii) else 0
/-- The activations' array. -/
def xv (R : Fin 8192) (C : Fin 4096) : EReal := (Gen.V m c main_v1 : S8192x4096.Idx → EReal) (ix2 R C)
/-- The base weight's array. -/
def wv (o : Fin 4096) (i : Fin 4096) : EReal := (Gen.V m c main_v8 : S4096x4096.Idx → EReal) (ix2 o i)
/-- The down-projection's array. -/
def al (r : Fin 128) (i : Fin 4096) : EReal := (Gen.V m c main_v5 : S128x4096.Idx → EReal) (ix2 r i)

theorem N_eq : cfg0.N = 64 := N_0

/-- The activations' array is the flattened argument. -/
theorem xv_eq (R : Fin 8192) (i : Fin 4096) :
    xv m c R i = (m ((c : Thread nD τ).loc main_arg0) : FVec Ideal S4x2048x4096 .f32)
      (ix3 (⟨R.val / 2048, by have := R.isLt; omega⟩ : Fin 4) (⟨R.val % 2048, Nat.mod_lt _ (by decide)⟩ : Fin 2048) i) :=
  V_main_v1_apply m c R i
/-- The base weight's array is the argument. -/
theorem wv_eq (o i : Fin 4096) :
    wv m c o i = (m ((c : Thread nD τ).loc main_arg1) : FVec Ideal S4096x4096 .f32) (ix2 o i) :=
  V_main_v8_apply m c o i
/-- The down-projection's array is the summed and padded factor. -/
theorem al_eq (r : Fin 128) (i : Fin 4096) :
    al m c r i = Cert.LowRankSpec.downSum (m ((c : Thread nD τ).loc main_arg3) : FVec Ideal S64x4096 .f32)
      (m ((c : Thread nD τ).loc main_arg5) : FVec Ideal S64x4096 .f32) r i :=
  V_main_v5_apply m c r i

/-! ## The recurrences -/

/-- The base accumulator: zero (step 0) or what the point before left, plus this point's block product. -/
theorem accN_eq (t : ℕ) (hN : t < cfg0.N) (p : Fin 2048) (q : Fin 1024) :
    accN m c t p q = (if t % 4 = 0 then 0 else accN m c (t - 1) p q)
        + ∑ ii : Fin 1024, Xb m c t p ii * Wb m c t q ii := by
  have hprev : t - 1 < cfg0.N := Nat.lt_of_le_of_lt (Nat.sub_le _ _) hN
  have eA : accN m c t p q = ((Gen.stAt m c t hN).2.1 : Vec Ideal S2048x1024 .f32) (ix2 p q) := by
    unfold accN; rw [dif_pos hN]
  have eP : accN m c (t - 1) p q = (Gen.prevAcc m c ⟨t, hN⟩ : Vec Ideal S2048x1024 .f32) (ix2 p q) := by
    unfold accN; rw [dif_pos hprev]
  have eX : ∀ ii, Xb m c t p ii = (Gen.iblk m c 0 ⟨t, hN⟩ : Vec Ideal S2048x1024 .bf16) (ix2 p ii) := fun ii => by
    unfold Xb; rw [dif_pos hN]
  have eW : ∀ ii, Wb m c t q ii = (Gen.iblk m c 1 ⟨t, hN⟩ : Vec Ideal S1024x1024 .bf16) (ix2 q ii) := fun ii => by
    unfold Wb; rw [dif_pos hN]
  rw [eA, eP]
  simp only [eX, eW]
  refine (congrFun (Gen.stAt_acc m c ⟨t, hN⟩) (ix2 p q)).trans ?_
  refine (pay4_apply _ _ _ p q).trans ?_
  by_cases h0 : t % 4 = 0
  · rw [if_pos h0, if_pos h0, pay1_apply]
  · rw [if_neg h0, if_neg h0]

/-- The rank accumulator: during the first column tile, zero (first point) or what the point before left, plus this
    point's block product; afterwards what the point before left. -/
theorem midN_eq (t : ℕ) (hN : t < cfg0.N) (p : Fin 2048) (r : Fin 128) :
    midN m c t p r = if t % 16 < 4 then (if t % 16 = 0 then 0 else midN m c (t - 1) p r)
        + ∑ ii : Fin 1024, Xb m c t p ii * ALb m c t r ii else midN m c (t - 1) p r := by
  have hprev : t - 1 < cfg0.N := Nat.lt_of_le_of_lt (Nat.sub_le _ _) hN
  have eA : midN m c t p r = ((Gen.stAt m c t hN).2.2 : Vec Ideal S2048x128 .f32) (ix2 p r) := by
    unfold midN; rw [dif_pos hN]
  have eP : midN m c (t - 1) p r = (Gen.prevMid m c ⟨t, hN⟩ : Vec Ideal S2048x128 .f32) (ix2 p r) := by
    unfold midN; rw [dif_pos hprev]
  have eX : ∀ ii, Xb m c t p ii = (Gen.iblk m c 0 ⟨t, hN⟩ : Vec Ideal S2048x1024 .bf16) (ix2 p ii) := fun ii => by
    unfold Xb; rw [dif_pos hN]
  have eL : ∀ ii, ALb m c t r ii = (Gen.iblk m c 2 ⟨t, hN⟩ : Vec Ideal S128x1024 .bf16) (ix2 r ii) := fun ii => by
    unfold ALb; rw [dif_pos hN]
  rw [eA, eP]
  simp only [eX, eL]
  refine (congrFun (Gen.stAt_mid m c ⟨t, hN⟩) (ix2 p r)).trans ?_
  by_cases h2 : t % 16 < 4
  · rw [if_pos h2, if_pos h2]
    refine (pay5_apply _ _ _ p r).trans ?_
    by_cases h0 : t % 16 = 0
    · rw [if_pos h0, if_pos h0, pay2_apply]
    · rw [if_neg h0, if_neg h0]
  · rw [if_neg h2, if_neg h2]

/-! ## The blocks in whole-array coordinates -/

theorem hX (t : ℕ) (ht : t < 64) (p : Fin 2048) (ii : Fin 1024) :
    Xb m c t p ii = xv m c ⟨2048 * (t / 16) + p.val, row_lt ht p⟩ ⟨1024 * (t % 4) + ii.val, col_lt t ii⟩ := by
  have hN : t < cfg0.N := by rw [N_eq]; exact ht
  unfold Xb xv
  rw [dif_pos hN]
  exact iblk0_apply m c ⟨t, hN⟩ p ii

theorem hW (t : ℕ) (ht : t < 64) (q : Fin 1024) (ii : Fin 1024) :
    Wb m c t q ii = wv m c ⟨1024 * ((t / 4) % 4) + q.val, wrow_lt t q⟩ ⟨1024 * (t % 4) + ii.val, col_lt t ii⟩ := by
  have hN : t < cfg0.N := by rw [N_eq]; exact ht
  unfold Wb wv
  rw [dif_pos hN]
  exact iblk1_apply m c ⟨t, hN⟩ q ii

theorem hAL (t : ℕ) (ht : t < 64) (r : Fin 128) (ii : Fin 1024) :
    ALb m c t r ii = al m c r ⟨1024 * (t % 4) + ii.val, col_lt t ii⟩ := by
  have hN : t < cfg0.N := by rw [N_eq]; exact ht
  unfold ALb al
  rw [dif_pos hN]
  exact iblk2_apply m c ⟨t, hN⟩ r ii

/-! ## The accumulators at step 3 -/

/-- At step 3 the base accumulator is the whole contraction of the activations' row with the base weight's row. -/
theorem accN_last (t : ℕ) (ht : t < 64) (h3 : t % 4 = 3) (p : Fin 2048) (q : Fin 1024) :
    accN m c t p q = ∑ i : Fin 4096, xv m c ⟨2048 * (t / 16) + p.val, row_lt ht p⟩ i
        * wv m c ⟨1024 * ((t / 4) % 4) + q.val, wrow_lt t q⟩ i :=
  Cert.LowRankSpec.Accumulate.acc_last (Xb m c) (Wb m c) (accN m c) (xv m c) (wv m c)
    (fun t ht h0 p q => by rw [accN_eq m c t (by rw [N_eq]; exact ht) p q, if_pos h0])
    (fun t ht h0 p q => by rw [accN_eq m c t (by rw [N_eq]; exact ht) p q, if_neg h0])
    (hX m c) (hW m c) t ht h3 p q

/-- At step 3 the rank accumulator is the whole contraction of the activations' row with the down-projection's row. -/
theorem midN_last (t : ℕ) (ht : t < 64) (h3 : t % 4 = 3) (p : Fin 2048) (r : Fin 128) :
    midN m c t p r = ∑ i : Fin 4096, xv m c ⟨2048 * (t / 16) + p.val, row_lt ht p⟩ i * al m c r i :=
  Cert.LowRankSpec.Accumulate.mid_last (Xb m c) (ALb m c) (midN m c) (xv m c) (al m c)
    (fun t ht h0 p r => by
      rw [midN_eq m c t (by rw [N_eq]; exact ht) p r, if_pos (by omega : t % 16 < 4), if_pos h0])
    (fun t ht h0 h2 p r => by rw [midN_eq m c t (by rw [N_eq]; exact ht) p r, if_pos h2, if_neg h0])
    (fun t ht h2 p r => by rw [midN_eq m c t (by rw [N_eq]; exact ht) p r, if_neg h2])
    (hX m c) (hAL m c) t ht h3 p r

/-! ## The finished tile -/

/-- At a point with contraction step 3 the output tile at (p, q) is the layer's kernel arrangement at row
    2048·(t/16) + p, column 1024·((t/4)%4) + q of the [8192, 4096] output array. -/
theorem tile_eq (t : Fin cfg0.N) (h3 : t.val % 4 = 3) (p : Fin 2048) (q : Fin 1024) :
    ((Gen.stAt m c t.val t.isLt).1 : Vec Ideal S2048x1024 .f32) (ix2 p q)
      = tileForm m c (ix2 (⟨2048 * (t.val / 16) + p.val, row_lt (point_lt t) p⟩ : Fin 8192)
          (⟨1024 * ((t.val / 4) % 4) + q.val, wrow_lt t.val q⟩ : Fin 4096)) := by
  have ht : t.val < 64 := point_lt t
  have e1 : ((Gen.stAt m c t.val t.isLt).2.1 : Vec Ideal S2048x1024 .f32) (ix2 p q)
      = ∑ i : Fin 4096, xv m c ⟨2048 * (t.val / 16) + p.val, row_lt ht p⟩ i
        * wv m c ⟨1024 * ((t.val / 4) % 4) + q.val, wrow_lt t.val q⟩ i := by
    rw [← accN_last m c t.val ht h3 p q]
    unfold accN; rw [dif_pos t.isLt]
  have e2 : ∀ r : Fin 128, ((Gen.stAt m c t.val t.isLt).2.2 : Vec Ideal S2048x128 .f32) (ix2 p r)
      = ∑ i : Fin 4096, xv m c ⟨2048 * (t.val / 16) + p.val, row_lt ht p⟩ i * al m c r i := fun r => by
    rw [← midN_last m c t.val ht h3 p r]
    unfold midN; rw [dif_pos t.isLt]
  refine (congrFun (Gen.stAt_out m c t h3) (ix2 p q)).trans ?_
  refine (pay6_apply _ _ _ _ p q).trans ?_
  have e4 : ∀ r : Fin 128, (Gen.iblk m c 3 t : Vec Ideal S1024x128 .bf16) (ix2 q r)
      = Cert.LowRankSpec.upSum (m ((c : Thread nD τ).loc main_arg4) : FVec Ideal S4096x64 .f32)
          (m ((c : Thread nD τ).loc main_arg6) : FVec Ideal S4096x64 .f32)
          (⟨1024 * ((t.val / 4) % 4) + q.val, wrow_lt t.val q⟩ : Fin 4096) r := fun r => by
    rw [iblk3_apply m c t q r, V_main_v7_apply]
  rw [e1, iblk4_apply m c t q, V_main_v9_apply]
  simp only [e2, e4, xv_eq, wv_eq, al_eq]
  unfold tileForm layerOf Cert.LowRankSpec.kernelForm Cert.LowRankSpec.base
  rfl

end Cert.KernelIdeal.KValue

end
-- ==== Proof.FinalArray.lean ====
/-
  From the finished tiles to the kernel's run.

  The launch's output array, [8192, 4096], is written back in blocks of [2048, 1024]: block (i, j) at the grid point
  16·i + 4·j + 3, the last contraction step of row tile i and column tile j.  Given that the block a point with
  contraction step 3 hands back is that rectangle of `tileForm`, the sixteen blocks tile the array, so the array ends
  holding `tileForm`; the one host line after the launch views its 8192 rows as 4 × 2048, which is `layerOf`; and the
  seven argument arrays are written by nothing.
-/
import proofs.«119846_j73478300500409_2_alg».proof.Proof.KI.Body
import proofs.«119846_j73478300500409_2_alg».proof.Proof.TileForm
import Idealize.ShloMosaic.Lib.Pipeline.Value
import Idealize.ShloMosaic.Lib.ValueIdx
import Idealize.ShloMosaic.Lib.ValueLayout
import Idealize.ShloMosaic.Lib.Tactic

set_option maxRecDepth 16384

noncomputable section

namespace Cert.KernelIdeal.KValue

open Cert.KernelIdeal Cert.KernelIdeal.Gen Idealize.ShloMosaic Idealize.ShloMosaic.TcCoe Idealize.ShloMosaic.ValueIdx
open Idealize.SL.Sem
open Idealize.ShloMosaic.Pipeline (Dat)

/-- The grid has 64 points. -/
theorem gridPoint_lt (t : Fin cfg0.N) : t.val < 64 := by
  have h : cfg0.N = 64 := N_0
  have := t.isLt
  omega

theorem tileRow_lt (t : Fin cfg0.N) (p : Fin 2048) : 2048 * (t.val / 16) + p.val < 8192 := by
  have := gridPoint_lt t; have := p.isLt; omega

theorem tileCol_lt (t : Fin cfg0.N) (q : Fin 1024) : 1024 * ((t.val / 4) % 4) + q.val < 4096 := by
  have := q.isLt; omega

/-- The output window's block index at a point: (row tile, column tile). -/
theorem outIdx : ∀ t : Fin cfg0.N, win0_5.index t 0 = t.val / 16 ∧ win0_5.index t 1 = (t.val / 4) % 4 :=
  (by decide +kernel : ∀ t : Fin grid0.N, win0_5.index t 0 = t.val / 16 ∧ win0_5.index t 1 = (t.val / 4) % 4)

variable (m : (ℓ : Loc nD τ sig) → Buf (Elt Ideal) ℓ)

/-- What a point with contraction step 3 writes back is its block of `tileForm`. -/
theorem flushed_eq
    (htile : ∀ (c : Dev nD) (t : Fin cfg0.N), t.val % 4 = 3 → ∀ (p : Fin 2048) (q : Fin 1024),
      (Gen.stAt m c t.val t.isLt).1 (ix2 p q)
        = tileForm m c (ix2 ⟨2048 * (t.val / 16) + p.val, tileRow_lt t p⟩ ⟨1024 * ((t.val / 4) % 4) + q.val, tileCol_lt t q⟩))
    (c : Dev nD) (t : Fin cfg0.N) (hf : (cfg0.win 5).flush t = true) :
    (Gen.dats m 0 c).flushed 5 t = ((cfg0.win 5).blk t).view.read (Elt Ideal) (tileForm m c) := by
  have h3 : t.val % 4 = 3 := (Gen.flush0_5 t).mp hf
  have hi := outIdx t
  show (cfg0.win 5).cut (grid0.coords t) ((Gen.dats m 0 c).after 5 t) = _
  rw [Gen.after0_5]
  funext y
  rw [View.read_apply]
  have hy0 : (y 0).val < 2048 := (y 0).isLt
  have hy1 : (y 1).val < 1024 := (y 1).isLt
  have e1 : (cfg0.win 5).cut (grid0.coords t) (Gen.stAt m c t.val t.isLt).1 y
      = (Gen.stAt m c t.val t.isLt).1 (ix2 ⟨(y 0).val, hy0⟩ ⟨(y 1).val, hy1⟩) := by
    show (Gen.stAt m c t.val t.isLt).1 _ = _
    refine congrArg _ (funext fun a => Fin.ext ?_)
    match a with
    | ⟨0, _⟩ => rfl
    | ⟨1, _⟩ => rfl
  rw [e1, htile c t h3]
  show tileForm m c _ = tileForm m c _
  refine congrArg _ (funext fun a => Fin.ext ?_)
  match a with
  | ⟨0, _⟩ => show 2048 * (t.val / 16) + (y 0).val = win0_5.index t 0 * 2048 + 1 * (y 0).val; rw [hi.1]; omega
  | ⟨1, _⟩ => show 1024 * ((t.val / 4) % 4) + (y 1).val = win0_5.index t 1 * 1024 + 1 * (y 1).val; rw [hi.2]; omega

/-- Every entry of the output array lies in the block of a point with contraction step 3. -/
theorem covered (i : S8192x4096.Idx) :
    ∃ t : Fin cfg0.N, (cfg0.win 5).flush t = true ∧ i ∈ ((cfg0.win 5).blk t).view.set := by
  have h0 : (i 0).val < 8192 := (i 0).isLt
  have h1 : (i 1).val < 4096 := (i 1).isLt
  have hN : cfg0.N = 64 := N_0
  let t : Fin cfg0.N := ⟨16 * ((i 0).val / 2048) + 4 * ((i 1).val / 1024) + 3, by omega⟩
  have ht : t.val = 16 * ((i 0).val / 2048) + 4 * ((i 1).val / 1024) + 3 := rfl
  have hi := outIdx t
  refine ⟨t, (Gen.flush0_5 t).mpr (by omega), ?_⟩
  show i ∈ ((View.whole main_v10).slice (win0_5.rect t)).set
  rw [View.set_slice_whole, Rect.mem_set_unit]
  intro a
  match a with
  | ⟨0, _⟩ =>
    show win0_5.index t 0 * win0_5.size 0 ≤ (i 0 : Nat) ∧ (i 0 : Nat) < win0_5.index t 0 * win0_5.size 0 + win0_5.xsize (grid0.coords t) 0
    rw [hi.1, show win0_5.size 0 = 2048 from rfl, show win0_5.xsize (grid0.coords t) 0 = 2048 from rfl]
    omega
  | ⟨1, _⟩ =>
    show win0_5.index t 1 * win0_5.size 1 ≤ (i 1 : Nat) ∧ (i 1 : Nat) < win0_5.index t 1 * win0_5.size 1 + win0_5.xsize (grid0.coords t) 1
    rw [hi.2, show win0_5.size 1 = 1024 from rfl, show win0_5.xsize (grid0.coords t) 1 = 1024 from rfl]
    omega

/-- The output array after the launch is `tileForm`. -/
theorem final5
    (htile : ∀ (c : Dev nD) (t : Fin cfg0.N), t.val % 4 = 3 → ∀ (p : Fin 2048) (q : Fin 1024),
      (Gen.stAt m c t.val t.isLt).1 (ix2 p q)
        = tileForm m c (ix2 ⟨2048 * (t.val / 16) + p.val, tileRow_lt t p⟩ ⟨1024 * ((t.val / 4) % 4) + q.val, tileCol_lt t q⟩))
    (c : Dev nD) : (Gen.dats m 0 c).arrAt 5 cfg0.N = tileForm m c :=
  (Gen.dats m 0 c).arrAt_eq_of_cover 5 (tileForm m c) (flushed_eq m htile c) covered

/-- Viewing the 8192 rows of an array as 4 × 2048: entry (b, s, o) is entry (2048·b + s, o). -/
theorem unrows_apply (X : FVec Ideal S8192x4096 .f32) (b : Fin 4) (s : Fin 2048) (o : Fin 4096) :
    shapeCast S4x2048x4096 X shapeCasts_S8192x4096_S4x2048x4096 (ix3 b s o)
      = X (ix2 (⟨2048 * b.val + s.val, by have := b.isLt; have := s.isLt; omega⟩ : Fin 8192) o) := by
  refine shapeCast_apply X _ (ix3 b s o) _ ?_
  rw [Shape.rowMajor_val_two, Shape.rowMajor_val_three]
  show (2048 * b.val + s.val) * 4096 + o.val = (b.val * 2048 + s.val) * 4096 + o.val
  omega

/-- `tileForm` at row 2048·b + s is the layer at (b, s). -/
theorem tileForm_rows (c : Dev nD) (b : Fin 4) (s : Fin 2048) (o : Fin 4096) :
    tileForm m c (ix2 (⟨2048 * b.val + s.val, by have := b.isLt; have := s.isLt; omega⟩ : Fin 8192) o) = layerOf m c (ix3 b s o) := by
  unfold tileForm
  refine congrArg (layerOf m c) (funext fun a => Fin.ext ?_)
  have := b.isLt
  have := s.isLt
  match a with
  | ⟨0, _⟩ => show (2048 * b.val + s.val) / 2048 = b.val; omega
  | ⟨1, _⟩ => show (2048 * b.val + s.val) % 2048 = s.val; omega
  | ⟨2, _⟩ => rfl

/-- The result after the host line behind the launch: the output array's rows viewed as 4 × 2048. -/
theorem tail_eq
    (htile : ∀ (c : Dev nD) (t : Fin cfg0.N), t.val % 4 = 3 → ∀ (p : Fin 2048) (q : Fin 1024),
      (Gen.stAt m c t.val t.isLt).1 (ix2 p q)
        = tileForm m c (ix2 ⟨2048 * (t.val / 16) + p.val, tileRow_lt t p⟩ ⟨1024 * ((t.val / 4) % 4) + q.val, tileCol_lt t q⟩))
    (c : Dev nD) :
    Pipeline.afterTail₀ cfgs (Gen.dats m) 0 (Gen.V0 m) [Gen.hostOps1] c main_v11 = layerOf m c := by
  unfold Pipeline.afterTail₀
  show StableHlo.after Gen.hostOps1 _ (Proc.devRef .tc main_v11) = _
  after_results
  have hW := (Pipeline.withArrays_arr spec0 launch0.win.arr_inj c (Gen.V0 m c)
    (fun w => (Gen.dats m 0 c).arrAt w cfg0.N) 5).trans (final5 m htile c)
  show (fun i => shapeCast S4x2048x4096 (Pipeline.withArrays spec0 c (Gen.V0 m c)
      (fun w => (Gen.dats m 0 c).arrAt w cfg0.N) (Proc.devRef .tc (Pipeline.arrRef spec0 5)))
    shapeCasts_S8192x4096_S4x2048x4096 i) = _
  rw [hW]
  funext j
  obtain ⟨b, s, o, rfl⟩ : ∃ (b : Fin 4) (s : Fin 2048) (o : Fin 4096), j = ix3 b s o := ⟨j 0, j 1, j 2, eq_ix3 j⟩
  exact (unrows_apply (tileForm m c) b s o).trans (tileForm_rows m c b s o)

/-- The kernel's run: every weakly fair execution terminates without fault, the result array ends at the kernel's
    arrangement of the layer, and the seven argument arrays end as they began. -/
theorem kernel_run
    (htile : ∀ (c : Dev nD) (t : Fin cfg0.N), t.val % 4 = 3 → ∀ (p : Fin 2048) (q : Fin 1024),
      (Gen.stAt m c t.val t.isLt).1 (ix2 p q)
        = tileForm m c (ix2 ⟨2048 * (t.val / 16) + p.val, tileRow_lt t p⟩ ⟨1024 * ((t.val / 4) % 4) + q.val, tileCol_lt t q⟩))
    (ρ : Dev nD → PrngReg) :
    θ_run defs (onTc (τ := τ) (main (F := Ideal))) ⟨m, fun _ => 0, ρ⟩ (fun r => ∀ c : Dev nD,
      r.2.mem ((c.tc : Thread nD τ).loc main_v11) = layerOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨((h c).2 main_v11 (Pipeline.mem_restRefs_of main_v11 (by decide) (by decide))).trans (tail_eq m htile c),
      ((h c).2 main_arg0 (Pipeline.mem_restRefs_of main_arg0 (by decide) (by decide))).trans (Gen.W_main_arg0 m (Gen.dats m) c),
      ((h c).2 main_arg1 (Pipeline.mem_restRefs_of main_arg1 (by decide) (by decide))).trans (Gen.W_main_arg1 m (Gen.dats m) c),
      ((h c).2 main_arg2 (Pipeline.mem_restRefs_of main_arg2 (by decide) (by decide))).trans (Gen.W_main_arg2 m (Gen.dats m) c),
      ((h c).2 main_arg3 (Pipeline.mem_restRefs_of main_arg3 (by decide) (by decide))).trans (Gen.W_main_arg3 m (Gen.dats m) c),
      ((h c).2 main_arg4 (Pipeline.mem_restRefs_of main_arg4 (by decide) (by decide))).trans (Gen.W_main_arg4 m (Gen.dats m) c),
      ((h c).2 main_arg5 (Pipeline.mem_restRefs_of main_arg5 (by decide) (by decide))).trans (Gen.W_main_arg5 m (Gen.dats m) c),
      ((h c).2 main_arg6 (Pipeline.mem_restRefs_of main_arg6 (by decide) (by decide))).trans (Gen.W_main_arg6 m (Gen.dats m) c)⟩)
    (Gen.run_main m ρ)

end Cert.KernelIdeal.KValue

end
-- ==== Proof.lean ====
/-
  A low-rank-adapted linear layer, y = (x·Wᵀ + b) + ¼·low, computed two ways.

  The kernel tiles (rows, columns, contraction) as a 4 × 4 × 4 grid over x reshaped to [8192, 4096] and keeps two
  accumulators between grid points: the output tile's partial product x·Wᵀ over the contraction steps, and the
  rank-128 intermediate x·(A + WL)ᵀ (rank 64, padded with zero rows), which is accumulated only while the column-tile
  index is 0 and then reused for the other three column tiles of the same rows. At the last contraction step the tile
  accumulator + bias + ¼·intermediate·(B + WR)ᵀ is stored. The reference keeps the four low-rank products apart:
  ((x·Aᵀ + x·WLᵀ)·Bᵀ + (x·Aᵀ + x·WLᵀ)·WRᵀ).

  * The two kernel programs run to the end and leave their arguments unchanged: the body is run once per case of its
    four branches (six cases meet the grid), the two accumulators carried through the region's invariant at the
    contents each point leaves (KI/Body.lean, K/Body.lean).
  * At the ideal instance the accumulators' contents have a closed form by induction along the grid: four partial sums
    over 1024 columns regroup into one sum over 4096 (associativity and commutativity of + only), so the finished tile
    is the kernel's arrangement `kernelForm` of the layer (TileValue.lean), the tiles cover the output array
    (FinalArray.lean), and the final reshape gives the result.
  * The reference's result is `referenceForm` (RefValue.lean). The two arrangements agree when every entry of
    x, A, B, WL, WR is a real number — distributivity of · over + on the extended reals — which is what the precondition
    says (SpecLaw.lean, Finite.lean).
  The ideal pass rewrote nothing, so the idealization claim is trivial.
-/
import proofs.«119846_j73478300500409_2_alg».proof.Defs
import proofs.«119846_j73478300500409_2_alg».proof.Proof.Gen.Kernel
import proofs.«119846_j73478300500409_2_alg».proof.Proof.Gen.KernelIdeal
import proofs.«119846_j73478300500409_2_alg».proof.Proof.Gen.ReferenceIdeal
import proofs.«119846_j73478300500409_2_alg».proof.Proof.Gen.ReferenceIdeal.Run
import proofs.«119846_j73478300500409_2_alg».proof.Proof.Gen.ReferenceIdeal.Read
import proofs.«119846_j73478300500409_2_alg».proof.Proof.Gen.Pre_finite_inputs
import proofs.«119846_j73478300500409_2_alg».proof.Proof.K.Body
import proofs.«119846_j73478300500409_2_alg».proof.Proof.KI.Body
import proofs.«119846_j73478300500409_2_alg».proof.Proof.RefValue
import proofs.«119846_j73478300500409_2_alg».proof.Proof.SpecLaw
import proofs.«119846_j73478300500409_2_alg».proof.Proof.Finite
import proofs.«119846_j73478300500409_2_alg».proof.Proof.TileValue
import proofs.«119846_j73478300500409_2_alg».proof.Proof.FinalArray
import Idealize.ShloMosaic.Adequacy
import Idealize.ShloMosaic.Init

noncomputable section

namespace Cert.Proof

open Idealize.ShloMosaic Idealize.ShloMosaic.TcCoe Idealize.SL.Sem

/-- The word-level kernel runs to the end and leaves its seven arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both idealized programs end with the layer's value: the kernel with its arrangement of it, the reference with its
    own; the arrangements agree on arrays of real numbers, which the precondition provides. -/
theorem algebraic : Cert.algebraic_KernelIdeal_ReferenceIdeal := by
  intro m ρ m' ρ' hpre hagree
  refine ⟨fun c => Cert.KernelIdeal.KValue.layerOf m c,
    Cert.KernelIdeal.KValue.kernel_run m (fun c t h3 p q => Cert.KernelIdeal.KValue.tile_eq m c t h3 p q) ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.reference_eq]
  obtain ⟨h0, h1, h2, h3, h4, h5, h6⟩ := hagree c
  rw [h0, h1, h2, h3, h4, h5, h6]
  obtain ⟨r0, _, _, r3, r4, r5, r6⟩ := Cert.Proof.Finite.real_of_pre m hpre c
  exact (Cert.LowRankSpec.kernelForm_eq_referenceForm _ _ _ _ _ _ _ r0 r3 r4 r5 r6).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
